-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8 : Shape := ⟨2, ![4096, 8]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel

variable [Facts]

def fn {F : FTy → Type} [FloatOps F] (main_arg0 : FVec F S4096x8 .f32) (main_arg1 : FVec F S4096x8 .f32) : IVec S_ 1 :=
  let main_v0 : FVec F S4096x8 .f32 := Host.absf main_arg0
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_c : IVec S_ 1 := constantI S_ 1 1#1
  let main_v3 : IVec S_ 1 := (fun x v => Host.reduce IntOp.andi x v reducesTo_S4096x8_S_d0_1 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  main_v8
-- ==== Kernel.lean ====
abbrev S4096x8 : Shape := ⟨2, ![4096, 8]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S512x8 : Shape := ⟨2, ![512, 8]⟩
abbrev S512x1 : Shape := ⟨2, ![512, 1]⟩
abbrev S1x512 : Shape := ⟨2, ![1, 512]⟩
abbrev S8x512 : Shape := ⟨2, ![8, 512]⟩
abbrev S512x512 : Shape := ⟨2, ![512, 512]⟩
abbrev S512 : Shape := ⟨1, ![512]⟩
abbrev S4096x1 : Shape := ⟨2, ![4096, 1]⟩
abbrev S4096 : Shape := ⟨1, ![4096]⟩

abbrev nBuf : Space → Nat
  | .hbm => 35
  | .vmem => 16
  | .smem => 0
  | _ => 0

abbrev bufTy : (tb : Table) → Fin (tcTables nBuf tb) → BufTy
  | .hbm, ⟨0, _⟩ => ⟨S4096x8, .f32⟩
  | .hbm, ⟨1, _⟩ => ⟨S4096x8, .f32⟩
  | .hbm, ⟨2, _⟩ => ⟨S8192x8, .f32⟩
  | .hbm, ⟨3, _⟩ => ⟨S8192x8, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x8, .bf16⟩
  | .hbm, ⟨15, _⟩ => ⟨S8192x1, .f32⟩
  | .hbm, ⟨16, _⟩ => ⟨S8192x1, .f32⟩
  | .hbm, ⟨17, _⟩ => ⟨S1x8192, .f32⟩
  | .hbm, ⟨18, _⟩ => ⟨S1x8192, .f32⟩
  | .hbm, ⟨19, _⟩ => ⟨S8192x1, .f32⟩
  | .hbm, ⟨20, _⟩ => ⟨S8192x1, .f32⟩
  | .hbm, ⟨21, _⟩ => ⟨S4096x1, .f32⟩
  | .hbm, ⟨22, _⟩ => ⟨S4096, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S512x8, .bf16⟩
  | .local _ .vmem, ⟨1, _⟩ => ⟨S512x8, .bf16⟩
  | .local _ .vmem, ⟨2, _⟩ => ⟨S512x8, .bf16⟩
  | .local _ .vmem, ⟨3, _⟩ => ⟨S512x8, .bf16⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x1, .f32⟩
  | .local _ .vmem, ⟨9, _⟩ => ⟨S512x1, .f32⟩
  | .local _ .vmem, ⟨10, _⟩ => ⟨S1x512, .f32⟩
  | .local _ .vmem, ⟨11, _⟩ => ⟨S1x512, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let arg0 : BitVec 32 := BitVec.ofNat 32 (i 0).val
  let c8_i32 : BitVec 32 := 8#32
  let v73 : BitVec 32 := Scalar.addi arg0 c8_i32
  let v74 : BitVec 1 := Scalar.cmpi .eq arg1 v73
  let v75 : BitVec 32 := Scalar.extui v74
  let c0_i32_32 : BitVec 32 := 0#32
  let v76 : BitVec 1 := Scalar.cmpi .ne v75 c0_i32_32
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x8 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  concatenates_S4096x8_S4096x8_S8192x8_d0 : Shape.Concatenates [S4096x8, S4096x8] S8192x8 0
  reducesTo_S8192x8_S8192_d1 : S8192x8.ReducesTo [1] S8192
  h_S_ : 0 < S_.numel
  bcast_S_S8192 : S_.BroadcastsInDim S8192 (![] : Fin 0 → Fin S8192.rank)
  bitsLt_bf16_f32 : FTy.bits .bf16 < FTy.bits .f32
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  inb_S512x8_S512x8_0_0 : ∀ a, (![0, 0] : Fin 2 → Nat) a + S512x8.size a ≤ S512x8.size a
  h_S512x8 : 0 < S512x8.numel
  shapeCasts_S512x8_S512x8 : S512x8.ShapeCasts S512x8
  transposes_S512x8_p1_0_S8x512 : S512x8.Transposes [1, 0] S8x512
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  slices_S8192x1_S4096x1_0_0 : S8192x1.Slices ![0, 0] S4096x1
  shapeCasts_S4096x1_S4096 : S4096x1.ShapeCasts S4096
  concatenates_S4096_S4096_S8192_d0 : Shape.Concatenates [S4096, S4096] S8192 0
  shapeCasts_S8192x1_S8192 : S8192x1.ShapeCasts S8192
  reducesTo_S8192_S_d0 : S8192.ReducesTo [0] S_
  dot_S512x8_S8x512_S512x512_1_0_0_1_n_n_wf : DotDims.WF S512x8 S8x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S8192x8.size a
  hwx0_0 : ∀ i : grid0.Coords, EltTy.bits .bf16 = 32 ∨ (Rect.block (s := S8192x8) S512x8.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S8192x8.size a
  hwx0_1 : ∀ i : grid0.Coords, EltTy.bits .bf16 = 32 ∨ (Rect.block (s := S8192x8) S512x8.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S8192x1.size a
  hwx0_7 : ∀ i : grid0.Coords, EltTy.bits .f32 = 32 ∨ (Rect.block (s := S8192x1) S512x1.size (cc0_transform_7 i) (hinb0_7 i)).WholeWords (EltTy.packing .f32)

variable [Facts₀]

def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf

abbrev win0_0 : Pipeline.Window sig grid0 :=
  Pipeline.Window.ofSpec (Memref.whole main_v4) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) | ⟨_ + 8, h⟩ => absurd h (Nat.not_lt.2 (Nat.le_add_left _ _))

class Facts : Prop extends Facts₀ where

variable [Facts]
-- ==== ReferenceIdeal.lean ====
abbrev S4096x8 : Shape := ⟨2, ![4096, 8]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 141
  | .vmem => 0
  | .smem => 0
  | _ => 0

abbrev hbmTy0_0 (i : Nat) : BufTy := match i % 128 with
  | 0 => ⟨S4096x8, .f32⟩
  | 1 => ⟨S4096x8, .f32⟩
  | 2 => ⟨S8192x8, .f32⟩
  | 3 => ⟨S8192x8, .f32⟩
  | 4 => ⟨S_, .f32⟩
  | 5 => ⟨S8192, .f32⟩
  | 6 => ⟨S_, .f32⟩
  | 7 => ⟨S_, .f32⟩
  | 8 => ⟨S_, .f32⟩
  | 9 => ⟨S8192, .f32⟩
  | 10 => ⟨S8192, .f32⟩
  | 11 => ⟨S_, .f32⟩
  | 12 => ⟨S8192, .f32⟩
  | 13 => ⟨S8192, .f32⟩
  | 14 => ⟨S8192x1, .f32⟩
  | 15 => ⟨S1x8192, .f32⟩
  | 16 => ⟨S8192x8192, .f32⟩
  | 17 => ⟨S8192x8192, .f32⟩
  | 18 => ⟨S8192x8192, .f32⟩
  | 19 => ⟨S8x8192, .f32⟩
  | 20 => ⟨S8192x8192, .f32⟩
  | 21 => ⟨S_, .f32⟩
  | 22 => ⟨S8192x8192, .f32⟩
  | 23 => ⟨S8192x8192, .f32⟩
  | 24 => ⟨S8192x8192, .f32⟩
  | 25 => ⟨S_, .f32⟩
  | 26 => ⟨S8192x8192, .f32⟩
  | 27 => ⟨S8192x8192, .f32⟩
  | 28 => ⟨S8192x1, .f32⟩
  | 29 => ⟨S_, .f32⟩
  | 30 => ⟨S8192x1, .f32⟩
  | 31 => ⟨S8192x1, .f32⟩
  | 32 => ⟨S1x8192, .f32⟩
  | 33 => ⟨S_, .f32⟩
  | 34 => ⟨S1x8192, .f32⟩
  | 35 => ⟨S1x8192, .f32⟩
  | 36 => ⟨S8192x8192, .f32⟩
  | 37 => ⟨S8192x8192, .f32⟩
  | 38 => ⟨S8192x8192, .f32⟩
  | 39 => ⟨S8192x8192, .f32⟩
  | 40 => ⟨S_, .f32⟩
  | 41 => ⟨S8192x8192, .f32⟩
  | 42 => ⟨S8192x8192, .f32⟩
  | 43 => ⟨S_, .f32⟩
  | 44 => ⟨S8192x8192, .f32⟩
  | 45 => ⟨S8192x8192, .f32⟩
  | 46 => ⟨S8192x8192, .f32⟩
  | 47 => ⟨S_, .f32⟩
  | 48 => ⟨S8192x8192, .f32⟩
  | 49 => ⟨S8192x8192, .f32⟩
  | 50 => ⟨S_, .f32⟩
  | 51 => ⟨S8192x8192, .f32⟩
  | 52 => ⟨S8192x8192, .i1⟩
  | 53 => ⟨S_, .f32⟩
  | 54 => ⟨S_, .f32⟩
  | 55 => ⟨S8192x8192, .f32⟩
  | 56 => ⟨S8192x8192, .f32⟩
  | 57 => ⟨S8192x8192, .f32⟩
  | 58 => ⟨S_, .f32⟩
  | 59 => ⟨S_, .f32⟩
  | 60 => ⟨S8192x8192, .f32⟩
  | 61 => ⟨S8192x8192, .f32⟩
  | 62 => ⟨S8192x8192, .f32⟩
  | 63 => ⟨S8192x8192, .f32⟩
  | 64 => ⟨S_, .f32⟩
  | 65 => ⟨S8192x8192, .f32⟩
  | 66 => ⟨S8192x8192, .f32⟩
  | 67 => ⟨S_, .f32⟩
  | 68 => ⟨S8192x8192, .f32⟩
  | 69 => ⟨S8192x8192, .f32⟩
  | 70 => ⟨S4096, .i32⟩
  | 71 => ⟨S_, .i32⟩
  | 72 => ⟨S4096, .i32⟩
  | 73 => ⟨S4096, .i32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S4096x1, .i32⟩
  | 90 => ⟨S4096x2, .i32⟩
  | 91 => ⟨S4096, .f32⟩
  | 92 => ⟨S_, .i32⟩
  | 93 => ⟨S4096, .i32⟩
  | 94 => ⟨S4096, .i32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S4096x1, .i32⟩
  | 111 => ⟨S4096x2, .i32⟩
  | 112 => ⟨S4096, .f32⟩
  | 113 => ⟨S8192, .f32⟩
  | 114 => ⟨S8192x8192, .i32⟩
  | 115 => ⟨S8192x8192, .i32⟩
  | 116 => ⟨S_, .i32⟩
  | 117 => ⟨S8192x8192, .i32⟩
  | 118 => ⟨S8192x8192, .i32⟩
  | 119 => ⟨S8192x8192, .i1⟩
  | 120 => ⟨S8192x8192, .f32⟩
  | 121 => ⟨S_, .f32⟩
  | 122 => ⟨S8192x8192, .f32⟩
  | 123 => ⟨S8192x8192, .f32⟩
  | 124 => ⟨S_, .f32⟩
  | 125 => ⟨S8192x8192, .f32⟩
  | 126 => ⟨S8192x8192, .f32⟩
  | 127 => ⟨S8192x8192, .f32⟩
  | _ => ⟨S4096x8, .f32⟩

abbrev hbmTy0_1 (i : Nat) : BufTy := match i % 128 with
  | 0 => ⟨S8192x8192, .f32⟩
  | 1 => ⟨S_, .f32⟩
  | 2 => ⟨S8192, .f32⟩
  | 3 => ⟨S_, .f32⟩
  | 4 => ⟨S8192, .f32⟩
  | 5 => ⟨S8192, .f32⟩
  | 6 => ⟨S8192, .f32⟩
  | 7 => ⟨S8192, .f32⟩
  | 8 => ⟨S8192, .f32⟩
  | 9 => ⟨S_, .f32⟩
  | 10 => ⟨S_, .f32⟩
  | 11 => ⟨S_, .f32⟩
  | 12 => ⟨S_, .f32⟩
  | _ => ⟨S4096x8, .f32⟩

abbrev hbmTy (i : Nat) : BufTy := match i / 128 with
  | 0 => hbmTy0_0 i
  | 1 => hbmTy0_1 i
  | _ => ⟨S4096x8, .f32⟩

abbrev bufTy : (tb : Table) → Fin (tcTables nBuf tb) → BufTy
  | .hbm, ⟨i, _⟩ => hbmTy i
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_call1_v0 : Ref sig .tc := ⟨.hbm, 54, rfl⟩
abbrev main_call1_v1 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_call2_v0 : Ref sig .tc := ⟨.hbm, 59, rfl⟩
abbrev main_call2_v1 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_12 : Ref sig .tc := ⟨.hbm, 64, rfl⟩
abbrev main_v40 : Ref sig .tc := ⟨.hbm, 65, rfl⟩
abbrev main_v41 : Ref sig .tc := ⟨.hbm, 66, rfl⟩
abbrev main_cst_13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c : Ref sig .tc := ⟨.hbm, 71, rfl⟩
abbrev main_v45 : Ref sig .tc := ⟨.hbm, 72, rfl⟩
abbrev main_v46 : Ref sig .tc := ⟨.hbm, 73, rfl⟩
abbrev main_c_14 : Ref sig .tc := ⟨.hbm, 74, rfl⟩
abbrev main_v47 : Ref sig .tc := ⟨.hbm, 75, rfl⟩
abbrev main_v48 : Ref sig .tc := ⟨.hbm, 76, rfl⟩
abbrev main_c_15 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_16 : Ref sig .tc := ⟨.hbm, 81, rfl⟩
abbrev main_v52 : Ref sig .tc := ⟨.hbm, 82, rfl⟩
abbrev main_v53 : Ref sig .tc := ⟨.hbm, 83, rfl⟩
abbrev main_c_17 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_18 : Ref sig .tc := ⟨.hbm, 92, rfl⟩
abbrev main_v61 : Ref sig .tc := ⟨.hbm, 93, rfl⟩
abbrev main_v62 : Ref sig .tc := ⟨.hbm, 94, rfl⟩
abbrev main_c_19 : Ref sig .tc := ⟨.hbm, 95, rfl⟩
abbrev main_v63 : Ref sig .tc := ⟨.hbm, 96, rfl⟩
abbrev main_v64 : Ref sig .tc := ⟨.hbm, 97, rfl⟩
abbrev main_c_20 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_21 : Ref sig .tc := ⟨.hbm, 102, rfl⟩
abbrev main_v68 : Ref sig .tc := ⟨.hbm, 103, rfl⟩
abbrev main_v69 : Ref sig .tc := ⟨.hbm, 104, rfl⟩
abbrev main_c_22 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_23 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_24 : Ref sig .tc := ⟨.hbm, 121, rfl⟩
abbrev main_v84 : Ref sig .tc := ⟨.hbm, 122, rfl⟩
abbrev main_v85 : Ref sig .tc := ⟨.hbm, 123, rfl⟩
abbrev main_cst_25 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_26 : Ref sig .tc := ⟨.hbm, 129, rfl⟩
abbrev main_v90 : Ref sig .tc := ⟨.hbm, 130, rfl⟩
abbrev main_cst_27 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_28 : Ref sig .tc := ⟨.hbm, 137, rfl⟩
abbrev main_v96 : Ref sig .tc := ⟨.hbm, 138, rfl⟩
abbrev main_cst_29 : Ref sig .tc := ⟨.hbm, 139, rfl⟩
abbrev main_v97 : Ref sig .tc := ⟨.hbm, 140, rfl⟩

abbrev nD : Nat := 1
abbrev τ : Topo := Topo.v7x

variable {F : FTy → Type} [FloatOps F]

class Facts₀ : Prop where
  concatenates_S4096x8_S4096x8_S8192x8_d0 : Shape.Concatenates [S4096x8, S4096x8] S8192x8 0
  reducesTo_S8192x8_S8192_d1 : S8192x8.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x8_S8x8192_1_0 : S8192x8.Transposes [1, 0] S8x8192
  bcast_S_S8192x8192 : S_.BroadcastsInDim S8192x8192 (![] : Fin 0 → Fin S8192x8192.rank)
  bcast_S_S8192x1 : S_.BroadcastsInDim S8192x1 (![] : Fin 0 → Fin S8192x1.rank)
  bcast_S_S1x8192 : S_.BroadcastsInDim S1x8192 (![] : Fin 0 → Fin S1x8192.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  reducesTo_S8192x8192_S8192_d1 : S8192x8192.ReducesTo [1] S8192
  reducesTo_S8192_S_d0 : S8192.ReducesTo [0] S_
  dot_S8192x8_S8x8192_S8192x8192_1_0_0_1_n_n_wf : DotDims.WF S8192x8 S8x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x8_S8x8192_S8192x8192_1_0_0_1_n_n : DotDims S8192x8 S8x8192 S8192x8192 where
  lhsContracting := [1]
  rhsContracting := [0]
  lhsNonContracting := [0]
  rhsNonContracting := [1]
  lhsBatch := []
  rhsBatch := []
  wf := dot_S8192x8_S8x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.RefStretch.lean ====
/-
  The reference program's operations, run a few at a time. For any contents W of the buffers at which the buffers a stretch
  of operations reads hold the corresponding stages of the two argument arrays, the buffers still read after the stretch
  hold their stages once it has run (a joining of two arrays always opens its stretch): each operation writes its own result buffer and leaves every other as it was.
  Chained over the whole program, the result buffer ends at the last stage.
-/
import proofs.«107719_j5016521802072_1_alg».proof.Proof.ReadP
import Idealize.ShloMosaic.Lib.StableHlo.Run

set_option maxRecDepth 8192

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Operations 1 to 8 of the 139. -/
abbrev L0 : List (HloOp τ sig (Elt F)) :=
  [ binary main_arg0 main_arg1 main_v0 ((fun a b => concatenate S8192x8 0 [⟨S4096x8, a⟩, ⟨S4096x8, b⟩] concatenates_S4096x8_S4096x8_S8192x8_d0) : (⟨S4096x8, .f32⟩ : BufTy).Contents (Elt F) → (⟨S4096x8, .f32⟩ : BufTy).Contents (Elt F) → (⟨S8192x8, .f32⟩ : BufTy).Contents (Elt F)),
    binary main_v0 main_v0 main_v1 (mulf : (⟨S8192x8, .f32⟩ : BufTy).Contents (Elt F) → (⟨S8192x8, .f32⟩ : BufTy).Contents (Elt F) → (⟨S8192x8, .f32⟩ : BufTy).Contents (Elt F)),
    nullary main_cst (constant S_ .f32 0x00000000#32),
    binary main_v1 main_cst main_v2 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
    nullary main_cst_0 (constant S_ .f32 0x00000000#32),
    nullary main_cst_1 (constant S_ .f32 0x3F7FFF58#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192) ]

set_option maxHeartbeats 2000000 in
theorem stretch0 (W : Valuation τ sig (Elt F)) (x0 x1 : (⟨S4096x8, .f32⟩ : BufTy).Contents (Elt F))
    (h_main_arg0 : W (Proc.devRef .tc main_arg0) = x0)
    (h_main_arg1 : W (Proc.devRef .tc main_arg1) = x1) :
    after (L0 (F := F)) W (Proc.devRef .tc main_v0) = Read.val_main_v0 (F := F) x0 x1
    ∧ after (L0 (F := F)) W (Proc.devRef .tc main_v2) = Read.val_main_v2 (F := F) x0 x1
    ∧ after (L0 (F := F)) W (Proc.devRef .tc main_cst_1) = Read.val_main_cst_1 (F := F)
    ∧ after (L0 (F := F)) W (Proc.devRef .tc main_call0_v1) = Read.val_main_call0_v1 (F := F) := by
  refine ⟨?_, ?_, ?_, ?_⟩
  · after_results_simp
    try simp only [h_main_arg0, h_main_arg1]
    try rw [h_main_arg0]
    try rw [h_main_arg1]
    try rfl
  · after_results_simp
    try simp only [h_main_arg0, h_main_arg1]
    try rw [h_main_arg0]
    try rw [h_main_arg1]
    try rfl
  · after_results_simp
    try simp only [h_main_arg0, h_main_arg1]
    try rw [h_main_arg0]
    try rw [h_main_arg1]
    try rfl
  · after_results_simp
    try simp only [h_main_arg0, h_main_arg1]
    try rw [h_main_arg0]
    try rw [h_main_arg1]
    try rfl

/-- Operations 9 to 16 of the 139. -/
abbrev L1 : List (HloOp τ sig (Elt F)) :=
  [ TRef.binary (TRef.of (T := ⟨S8192, .f32⟩) main_call0_v1) (TRef.of (T := ⟨S8192, .f32⟩) main_v2) (TRef.of (T := ⟨S8192, .f32⟩) main_call0_v2) maximumf,
    TRef.unary (TRef.of (T := ⟨S_, .f32⟩) main_cst_1) (TRef.of (T := ⟨S_, .f32⟩) main_call0_v3) id,
    TRef.unary (TRef.of (T := ⟨S_, .f32⟩) main_call0_v3) (TRef.of (T := ⟨S8192, .f32⟩) main_call0_v4) (broadcastInDim S8192 ![] bcast_S_S8192),
    TRef.binary (TRef.of (T := ⟨S8192, .f32⟩) main_call0_v4) (TRef.of (T := ⟨S8192, .f32⟩) main_call0_v2) (TRef.of (T := ⟨S8192, .f32⟩) main_v3) minimumf,
    unary main_v2 main_v4 (broadcastInDim S8192x1 ![0] bcast_S8192_S8192x1_0 : (⟨S8192, .f32⟩ : BufTy).Contents (Elt F) → (⟨S8192x1, .f32⟩ : BufTy).Contents (Elt F)),
    unary main_v2 main_v5 (broadcastInDim S1x8192 ![1] bcast_S8192_S1x8192_1 : (⟨S8192, .f32⟩ : BufTy).Contents (Elt F) → (⟨S1x8192, .f32⟩ : BufTy).Contents (Elt F)),
    unary main_v4 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)) ]

set_option maxHeartbeats 2000000 in
theorem stretch1 (W : Valuation τ sig (Elt F)) (x0 x1 : (⟨S4096x8, .f32⟩ : BufTy).Contents (Elt F))
    (h_main_v0 : W (Proc.devRef .tc main_v0) = Read.val_main_v0 (F := F) x0 x1)
    (h_main_v2 : W (Proc.devRef .tc main_v2) = Read.val_main_v2 (F := F) x0 x1)
    (h_main_cst_1 : W (Proc.devRef .tc main_cst_1) = Read.val_main_cst_1 (F := F))
    (h_main_call0_v1 : W (Proc.devRef .tc main_call0_v1) = Read.val_main_call0_v1 (F := F)) :
    after (L1 (F := F)) W (Proc.devRef .tc main_v0) = Read.val_main_v0 (F := F) x0 x1
    ∧ after (L1 (F := F)) W (Proc.devRef .tc main_v3) = Read.val_main_v3 (F := F) x0 x1
    ∧ after (L1 (F := F)) W (Proc.devRef .tc main_v6) = Read.val_main_v6 (F := F) x0 x1
    ∧ after (L1 (F := F)) W (Proc.devRef .tc main_v7) = Read.val_main_v7 (F := F) x0 x1 := by
  refine ⟨?_, ?_, ?_, ?_⟩
  · after_results_simp
    exact h_main_v0
  · after_results_simp
    try simp only [h_main_v0, h_main_v2, h_main_cst_1, h_main_call0_v1]
    try rw [h_main_v0]
    try rw [h_main_v2]
    try rw [h_main_cst_1]
    try rw [h_main_call0_v1]
    try rfl
  · after_results_simp
    try simp only [h_main_v0, h_main_v2, h_main_cst_1, h_main_call0_v1]
    try rw [h_main_v0]
    try rw [h_main_v2]
    try rw [h_main_cst_1]
    try rw [h_main_call0_v1]
    try rfl
  · after_results_simp
    try simp only [h_main_v0, h_main_v2, h_main_cst_1, h_main_call0_v1]
    try rw [h_main_v0]
    try rw [h_main_v2]
    try rw [h_main_cst_1]
    try rw [h_main_call0_v1]
    try rfl

/-- Operations 17 to 24 of the 139. -/
abbrev L2 : List (HloOp τ sig (Elt F)) :=
  [ binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    unary main_v0 main_v9 ((transpose S8x8192 [1, 0] · transposes_S8192x8_S8x8192_1_0) : (⟨S8192x8, .f32⟩ : BufTy).Contents (Elt F) → (⟨S8x8192, .f32⟩ : BufTy).Contents (Elt F)),
    binary main_v0 main_v9 main_v10 ((fun l r => Host.dotGeneral dot_S8192x8_S8x8192_S8192x8192_1_0_0_1_n_n none l r) : (⟨S8192x8, .f32⟩ : BufTy).Contents (Elt F) → (⟨S8x8192, .f32⟩ : BufTy).Contents (Elt F) → (⟨S8192x8192, .f32⟩ : BufTy).Contents (Elt F)),
    nullary main_cst_2 (constant S_ .f32 0x40000000#32),
    unary main_cst_2 main_v11 (broadcastInDim S8192x8192 ![] bcast_S_S8192x8192 : (⟨S_, .f32⟩ : BufTy).Contents (Elt F) → (⟨S8192x8192, .f32⟩ : BufTy).Contents (Elt F)),
    binary main_v11 main_v10 main_v12 (mulf : (⟨S8192x8192, .f32⟩ : BufTy).Contents (Elt F) → (⟨S8192x8192, .f32⟩ : BufTy).Contents (Elt F) → (⟨S8192x8192, .f32⟩ : BufTy).Contents (Elt F)),
    binary main_v8 main_v12 main_v13 (subf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x00000000#32) ]

set_option maxHeartbeats 2000000 in
theorem stretch2 (W : Valuation τ sig (Elt F)) (x0 x1 : (⟨S4096x8, .f32⟩ : BufTy).Contents (Elt F))
    (h_main_v0 : W (Proc.devRef .tc main_v0) = Read.val_main_v0 (F := F) x0 x1)
    (h_main_v3 : W (Proc.devRef .tc main_v3) = Read.val_main_v3 (F := F) x0 x1)
    (h_main_v6 : W (Proc.devRef .tc main_v6) = Read.val_main_v6 (F := F) x0 x1)
    (h_main_v7 : W (Proc.devRef .tc main_v7) = Read.val_main_v7 (F := F) x0 x1) :
    after (L2 (F := F)) W (Proc.devRef .tc main_v3) = Read.val_main_v3 (F := F) x0 x1
    ∧ after (L2 (F := F)) W (Proc.devRef .tc main_v13) = Read.val_main_v13 (F := F) x0 x1
    ∧ after (L2 (F := F)) W (Proc.devRef .tc main_cst_3) = Read.val_main_cst_3 (F := F) := by
  refine ⟨?_, ?_, ?_⟩
  · after_results_simp
    exact h_main_v3
  · after_results_simp
    try simp only [h_main_v0, h_main_v3, h_main_v6, h_main_v7]
    try rw [h_main_v0]
    try rw [h_main_v3]
    try rw [h_main_v6]
    try rw [h_main_v7]
    try rfl
  · after_results_simp
    try simp only [h_main_v0, h_main_v3, h_main_v6, h_main_v7]
    try rw [h_main_v0]
    try rw [h_main_v3]
    try rw [h_main_v6]
    try rw [h_main_v7]
    try rfl

/-- Operations 25 to 32 of the 139. -/
abbrev L3 : List (HloOp τ sig (Elt F)) :=
  [ unary main_cst_3 main_v14 (broadcastInDim S8192x8192 ![] bcast_S_S8192x8192 : (⟨S_, .f32⟩ : BufTy).Contents (Elt F) → (⟨S8192x8192, .f32⟩ : BufTy).Contents (Elt F)),
    binary main_v13 main_v14 main_v15 (maximumf : (⟨S8192x8192, .f32⟩ : BufTy).Contents (Elt F) → (⟨S8192x8192, .f32⟩ : BufTy).Contents (Elt F) → (⟨S8192x8192, .f32⟩ : BufTy).Contents (Elt F)),
    unary main_v3 main_v16 (broadcastInDim S8192x1 ![0] bcast_S8192_S8192x1_0 : (⟨S8192, .f32⟩ : BufTy).Contents (Elt F) → (⟨S8192x1, .f32⟩ : BufTy).Contents (Elt F)),
    nullary main_cst_4 (constant S_ .f32 0x3F800000#32),
    unary main_cst_4 main_v17 (broadcastInDim S8192x1 ![] bcast_S_S8192x1 : (⟨S_, .f32⟩ : BufTy).Contents (Elt F) → (⟨S8192x1, .f32⟩ : BufTy).Contents (Elt F)),
    binary main_v17 main_v16 main_v18 (subf : (⟨S8192x1, .f32⟩ : BufTy).Contents (Elt F) → (⟨S8192x1, .f32⟩ : BufTy).Contents (Elt F) → (⟨S8192x1, .f32⟩ : BufTy).Contents (Elt F)),
    unary main_v3 main_v19 (broadcastInDim S1x8192 ![1] bcast_S8192_S1x8192_1 : (⟨S8192, .f32⟩ : BufTy).Contents (Elt F) → (⟨S1x8192, .f32⟩ : BufTy).Contents (Elt F)),
    nullary main_cst_5 (constant S_ .f32 0x3F800000#32) ]

set_option maxHeartbeats 2000000 in
theorem stretch3 (W : Valuation τ sig (Elt F)) (x0 x1 : (⟨S4096x8, .f32⟩ : BufTy).Contents (Elt F))
    (h_main_v3 : W (Proc.devRef .tc main_v3) = Read.val_main_v3 (F := F) x0 x1)
    (h_main_v13 : W (Proc.devRef .tc main_v13) = Read.val_main_v13 (F := F) x0 x1)
    (h_main_cst_3 : W (Proc.devRef .tc main_cst_3) = Read.val_main_cst_3 (F := F)) :
    after (L3 (F := F)) W (Proc.devRef .tc main_v15) = Read.val_main_v15 (F := F) x0 x1
    ∧ after (L3 (F := F)) W (Proc.devRef .tc main_v18) = Read.val_main_v18 (F := F) x0 x1
    ∧ after (L3 (F := F)) W (Proc.devRef .tc main_v19) = Read.val_main_v19 (F := F) x0 x1
    ∧ after (L3 (F := F)) W (Proc.devRef .tc main_cst_5) = Read.val_main_cst_5 (F := F) := by
  refine ⟨?_, ?_, ?_, ?_⟩
  · after_results_simp
    try simp only [h_main_v3, h_main_v13, h_main_cst_3]
    try rw [h_main_v3]
    try rw [h_main_v13]
    try rw [h_main_cst_3]
    try rfl
  · after_results_simp
    try simp only [h_main_v3, h_main_v13, h_main_cst_3]
    try rw [h_main_v3]
    try rw [h_main_v13]
    try rw [h_main_cst_3]
    try rfl
  · after_results_simp
    try simp only [h_main_v3, h_main_v13, h_main_cst_3]
    try rw [h_main_v3]
    try rw [h_main_v13]
    try rw [h_main_cst_3]
    try rfl
  · after_results_simp
    try simp only [h_main_v3, h_main_v13, h_main_cst_3]
    try rw [h_main_v3]
    try rw [h_main_v13]
    try rw [h_main_cst_3]
    try rfl

/-- Operations 33 to 40 of the 139. -/
abbrev L4 : List (HloOp τ sig (Elt F)) :=
  [ unary main_cst_5 main_v20 (broadcastInDim S1x8192 ![] bcast_S_S1x8192 : (⟨S_, .f32⟩ : BufTy).Contents (Elt F) → (⟨S1x8192, .f32⟩ : BufTy).Contents (Elt F)),
    binary main_v20 main_v19 main_v21 (subf : (⟨S1x8192, .f32⟩ : BufTy).Contents (Elt F) → (⟨S1x8192, .f32⟩ : BufTy).Contents (Elt F) → (⟨S1x8192, .f32⟩ : BufTy).Contents (Elt F)),
    unary main_v18 main_v22 (broadcastInDim S8192x8192 ![0, 1] bcast_S8192x1_S8192x8192_0_1 : (⟨S8192x1, .f32⟩ : BufTy).Contents (Elt F) → (⟨S8192x8192, .f32⟩ : BufTy).Contents (Elt F)),
    unary main_v21 main_v23 (broadcastInDim S8192x8192 ![0, 1] bcast_S1x8192_S8192x8192_0_1 : (⟨S1x8192, .f32⟩ : BufTy).Contents (Elt F) → (⟨S8192x8192, .f32⟩ : BufTy).Contents (Elt F)),
    binary main_v22 main_v23 main_v24 (mulf : (⟨S8192x8192, .f32⟩ : BufTy).Contents (Elt F) → (⟨S8192x8192, .f32⟩ : BufTy).Contents (Elt F) → (⟨S8192x8192, .f32⟩ : BufTy).Contents (Elt F)),
    binary main_v15 main_v24 main_v25 (Host.divf : (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0x40000000#32),
    unary main_cst_6 main_v26 (broadcastInDim S8192x8192 ![] bcast_S_S8192x8192 : (⟨S_, .f32⟩ : BufTy).Contents (Elt F) → (⟨S8192x8192, .f32⟩ : BufTy).Contents (Elt F)) ]

set_option maxHeartbeats 2000000 in
theorem stretch4 (W : Valuation τ sig (Elt F)) (x0 x1 : (⟨S4096x8, .f32⟩ : BufTy).Contents (Elt F))
    (h_main_v15 : W (Proc.devRef .tc main_v15) = Read.val_main_v15 (F := F) x0 x1)
    (h_main_v18 : W (Proc.devRef .tc main_v18) = Read.val_main_v18 (F := F) x0 x1)
    (h_main_v19 : W (Proc.devRef .tc main_v19) = Read.val_main_v19 (F := F) x0 x1)
    (h_main_cst_5 : W (Proc.devRef .tc main_cst_5) = Read.val_main_cst_5 (F := F)) :
    after (L4 (F := F)) W (Proc.devRef .tc main_v25) = Read.val_main_v25 (F := F) x0 x1
    ∧ after (L4 (F := F)) W (Proc.devRef .tc main_v26) = Read.val_main_v26 (F := F) := by
  refine ⟨?_, ?_⟩
  · after_results_simp
    try simp only [h_main_v15, h_main_v18, h_main_v19, h_main_cst_5]
    try rw [h_main_v15]
    try rw [h_main_v18]
    try rw [h_main_v19]
    try rw [h_main_cst_5]
    try rfl
  · after_results_simp
    try simp only [h_main_v15, h_main_v18, h_main_v19, h_main_cst_5]
    try rw [h_main_v15]
    try rw [h_main_v18]
    try rw [h_main_v19]
    try rw [h_main_cst_5]
    try rfl

/-- Operations 41 to 48 of the 139. -/
abbrev L5 : List (HloOp τ sig (Elt F)) :=
  [ binary main_v25 main_v26 main_v27 (mulf : (⟨S8192x8192, .f32⟩ : BufTy).Contents (Elt F) → (⟨S8192x8192, .f32⟩ : BufTy).Contents (Elt F) → (⟨S8192x8192, .f32⟩ : BufTy).Contents (Elt F)),
    nullary main_cst_7 (constant S_ .f32 0x3F800000#32),
    unary main_cst_7 main_v28 (broadcastInDim S8192x8192 ![] bcast_S_S8192x8192 : (⟨S_, .f32⟩ : BufTy).Contents (Elt F) → (⟨S8192x8192, .f32⟩ : BufTy).Contents (Elt F)),
    binary main_v27 main_v28 main_v29 (addf : (⟨S8192x8192, .f32⟩ : BufTy).Contents (Elt F) → (⟨S8192x8192, .f32⟩ : BufTy).Contents (Elt F) → (⟨S8192x8192, .f32⟩ : BufTy).Contents (Elt F)),
    binary main_v29 main_v29 main_v30 (mulf : (⟨S8192x8192, .f32⟩ : BufTy).Contents (Elt F) → (⟨S8192x8192, .f32⟩ : BufTy).Contents (Elt F) → (⟨S8192x8192, .f32⟩ : BufTy).Contents (Elt F)),
    nullary main_cst_8 (constant S_ .f32 0x3F800000#32),
    unary main_cst_8 main_v31 (broadcastInDim S8192x8192 ![] bcast_S_S8192x8192 : (⟨S_, .f32⟩ : BufTy).Contents (Elt F) → (⟨S8192x8192, .f32⟩ : BufTy).Contents (Elt F)),
    binary main_v30 main_v31 main_v32 (subf : (⟨S8192x8192, .f32⟩ : BufTy).Contents (Elt F) → (⟨S8192x8192, .f32⟩ : BufTy).Contents (Elt F) → (⟨S8192x8192, .f32⟩ : BufTy).Contents (Elt F)) ]

set_option maxHeartbeats 2000000 in
theorem stretch5 (W : Valuation τ sig (Elt F)) (x0 x1 : (⟨S4096x8, .f32⟩ : BufTy).Contents (Elt F))
    (h_main_v25 : W (Proc.devRef .tc main_v25) = Read.val_main_v25 (F := F) x0 x1)
    (h_main_v26 : W (Proc.devRef .tc main_v26) = Read.val_main_v26 (F := F)) :
    after (L5 (F := F)) W (Proc.devRef .tc main_v29) = Read.val_main_v29 (F := F) x0 x1
    ∧ after (L5 (F := F)) W (Proc.devRef .tc main_v32) = Read.val_main_v32 (F := F) x0 x1 := by
  refine ⟨?_, ?_⟩
  · after_results_simp
    try simp only [h_main_v25, h_main_v26]
    try rw [h_main_v25]
    try rw [h_main_v26]
    try rfl
  · after_results_simp
    try simp only [h_main_v25, h_main_v26]
    try rw [h_main_v25]
    try rw [h_main_v26]
    try rfl

/-- Operations 49 to 56 of the 139. -/
abbrev L6 : List (HloOp τ sig (Elt F)) :=
  [ nullary main_cst_9 (constant S_ .f32 0x00000000#32),
    unary main_cst_9 main_v33 (broadcastInDim S8192x8192 ![] bcast_S_S8192x8192 : (⟨S_, .f32⟩ : BufTy).Contents (Elt F) → (⟨S8192x8192, .f32⟩ : BufTy).Contents (Elt F)),
    binary main_v32 main_v33 main_v34 (cmpf .ogt : (⟨S8192x8192, .f32⟩ : BufTy).Contents (Elt F) → (⟨S8192x8192, .f32⟩ : BufTy).Contents (Elt F) → (⟨S8192x8192, .i1⟩ : BufTy).Contents (Elt F)),
    nullary main_cst_10 (constant S_ .f32 0x3F800000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v34) (TRef.of (T := ⟨S8192x8192, .f32⟩) main_v32) (TRef.of (T := ⟨S8192x8192, .f32⟩) main_call1_v1) (TRef.of (T := ⟨S8192x8192, .f32⟩) main_v35) select,
    unary main_v35 main_v36 (Host.sqrt : (⟨S8192x8192, .f32⟩ : BufTy).Contents (Elt F) → (⟨S8192x8192, .f32⟩ : BufTy).Contents (Elt F)) ]

set_option maxHeartbeats 2000000 in
theorem stretch6 (W : Valuation τ sig (Elt F)) (x0 x1 : (⟨S4096x8, .f32⟩ : BufTy).Contents (Elt F))
    (h_main_v29 : W (Proc.devRef .tc main_v29) = Read.val_main_v29 (F := F) x0 x1)
    (h_main_v32 : W (Proc.devRef .tc main_v32) = Read.val_main_v32 (F := F) x0 x1) :
    after (L6 (F := F)) W (Proc.devRef .tc main_v29) = Read.val_main_v29 (F := F) x0 x1
    ∧ after (L6 (F := F)) W (Proc.devRef .tc main_v34) = Read.val_main_v34 (F := F) x0 x1
    ∧ after (L6 (F := F)) W (Proc.devRef .tc main_v36) = Read.val_main_v36 (F := F) x0 x1 := by
  refine ⟨?_, ?_, ?_⟩
  · after_results_simp
    exact h_main_v29
  · after_results_simp
    try simp only [h_main_v29, h_main_v32]
    try rw [h_main_v29]
    try rw [h_main_v32]
    try rfl
  · after_results_simp
    try simp only [h_main_v29, h_main_v32]
    try rw [h_main_v29]
    try rw [h_main_v32]
    try rfl

/-- Operations 57 to 64 of the 139. -/
abbrev L7 : List (HloOp τ sig (Elt F)) :=
  [ nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v34) (TRef.of (T := ⟨S8192x8192, .f32⟩) main_v36) (TRef.of (T := ⟨S8192x8192, .f32⟩) main_call2_v1) (TRef.of (T := ⟨S8192x8192, .f32⟩) main_v37) select,
    binary main_v29 main_v37 main_v38 (addf : (⟨S8192x8192, .f32⟩ : BufTy).Contents (Elt F) → (⟨S8192x8192, .f32⟩ : BufTy).Contents (Elt F) → (⟨S8192x8192, .f32⟩ : BufTy).Contents (Elt F)),
    unary main_v38 main_v39 (Host.log : (⟨S8192x8192, .f32⟩ : BufTy).Contents (Elt F) → (⟨S8192x8192, .f32⟩ : BufTy).Contents (Elt F)),
    nullary main_cst_12 (constant S_ .f32 0x3F800000#32),
    unary main_cst_12 main_v40 (broadcastInDim S8192x8192 ![] bcast_S_S8192x8192 : (⟨S_, .f32⟩ : BufTy).Contents (Elt F) → (⟨S8192x8192, .f32⟩ : BufTy).Contents (Elt F)) ]

set_option maxHeartbeats 2000000 in
theorem stretch7 (W : Valuation τ sig (Elt F)) (x0 x1 : (⟨S4096x8, .f32⟩ : BufTy).Contents (Elt F))
    (h_main_v29 : W (Proc.devRef .tc main_v29) = Read.val_main_v29 (F := F) x0 x1)
    (h_main_v34 : W (Proc.devRef .tc main_v34) = Read.val_main_v34 (F := F) x0 x1)
    (h_main_v36 : W (Proc.devRef .tc main_v36) = Read.val_main_v36 (F := F) x0 x1) :
    after (L7 (F := F)) W (Proc.devRef .tc main_v39) = Read.val_main_v39 (F := F) x0 x1
    ∧ after (L7 (F := F)) W (Proc.devRef .tc main_v40) = Read.val_main_v40 (F := F) := by
  refine ⟨?_, ?_⟩
  · after_results_simp
    try simp only [h_main_v29, h_main_v34, h_main_v36]
    try rw [h_main_v29]
    try rw [h_main_v34]
    try rw [h_main_v36]
    try rfl
  · after_results_simp
    try simp only [h_main_v29, h_main_v34, h_main_v36]
    try rw [h_main_v29]
    try rw [h_main_v34]
    try rw [h_main_v36]
    try rfl

/-- Operations 65 to 72 of the 139. -/
abbrev L8 : List (HloOp τ sig (Elt F)) :=
  [ binary main_v40 main_v39 main_v41 (addf : (⟨S8192x8192, .f32⟩ : BufTy).Contents (Elt F) → (⟨S8192x8192, .f32⟩ : BufTy).Contents (Elt F) → (⟨S8192x8192, .f32⟩ : BufTy).Contents (Elt F)),
    nullary main_cst_13 (constant S_ .f32 0x3F800000#32),
    unary main_cst_13 main_v42 (broadcastInDim S8192x8192 ![] bcast_S_S8192x8192 : (⟨S_, .f32⟩ : BufTy).Contents (Elt F) → (⟨S8192x8192, .f32⟩ : BufTy).Contents (Elt F)),
    binary main_v42 main_v41 main_v43 (Host.divf : (⟨S8192x8192, .f32⟩ : BufTy).Contents (Elt F) → (⟨S8192x8192, .f32⟩ : BufTy).Contents (Elt F) → (⟨S8192x8192, .f32⟩ : BufTy).Contents (Elt F)),
    nullary main_v44 (iotaInDim S4096 32 0),
    nullary main_c (constantI S_ 32 4096#32),
    unary main_c main_v45 (broadcastInDim S4096 ![] bcast_S_S4096 : (⟨S_, .i32⟩ : BufTy).Contents (Elt F) → (⟨S4096, .i32⟩ : BufTy).Contents (Elt F)),
    binary main_v44 main_v45 main_v46 (addi : (⟨S4096, .i32⟩ : BufTy).Contents (Elt F) → (⟨S4096, .i32⟩ : BufTy).Contents (Elt F) → (⟨S4096, .i32⟩ : BufTy).Contents (Elt F)) ]

set_option maxHeartbeats 2000000 in
theorem stretch8 (W : Valuation τ sig (Elt F)) (x0 x1 : (⟨S4096x8, .f32⟩ : BufTy).Contents (Elt F))
    (h_main_v39 : W (Proc.devRef .tc main_v39) = Read.val_main_v39 (F := F) x0 x1)
    (h_main_v40 : W (Proc.devRef .tc main_v40) = Read.val_main_v40 (F := F)) :
    after (L8 (F := F)) W (Proc.devRef .tc main_v43) = Read.val_main_v43 (F := F) x0 x1
    ∧ after (L8 (F := F)) W (Proc.devRef .tc main_v44) = Read.val_main_v44 (F := F)
    ∧ after (L8 (F := F)) W (Proc.devRef .tc main_v46) = Read.val_main_v46 (F := F) := by
  refine ⟨?_, ?_, ?_⟩
  · after_results_simp
    try simp only [h_main_v39, h_main_v40]
    try rw [h_main_v39]
    try rw [h_main_v40]
    try rfl
  · after_results_simp
    try simp only [h_main_v39, h_main_v40]
    try rw [h_main_v39]
    try rw [h_main_v40]
    try rfl
  · after_results_simp
    try simp only [h_main_v39, h_main_v40]
    try rw [h_main_v39]
    try rw [h_main_v40]
    try rfl

/-- Operations 73 to 80 of the 139. -/
abbrev L9 : List (HloOp τ sig (Elt F)) :=
  [ nullary main_c_14 (constantI S_ 32 0#32),
    unary main_c_14 main_v47 (broadcastInDim S4096 ![] bcast_S_S4096 : (⟨S_, .i32⟩ : BufTy).Contents (Elt F) → (⟨S4096, .i32⟩ : BufTy).Contents (Elt F)),
    binary main_v44 main_v47 main_v48 (cmpi .slt : (⟨S4096, .i32⟩ : BufTy).Contents (Elt F) → (⟨S4096, .i32⟩ : BufTy).Contents (Elt F) → (⟨S4096, .i1⟩ : BufTy).Contents (Elt F)),
    nullary main_c_15 (constantI S_ 32 8192#32),
    unary main_c_15 main_v49 (broadcastInDim S4096 ![] bcast_S_S4096 : (⟨S_, .i32⟩ : BufTy).Contents (Elt F) → (⟨S4096, .i32⟩ : BufTy).Contents (Elt F)),
    binary main_v44 main_v49 main_v50 (addi : (⟨S4096, .i32⟩ : BufTy).Contents (Elt F) → (⟨S4096, .i32⟩ : BufTy).Contents (Elt F) → (⟨S4096, .i32⟩ : BufTy).Contents (Elt F)),
    ternary main_v48 main_v50 main_v44 main_v51 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_16 (constantI S_ 32 0#32) ]

set_option maxHeartbeats 2000000 in
theorem stretch9 (W : Valuation τ sig (Elt F)) (x0 x1 : (⟨S4096x8, .f32⟩ : BufTy).Contents (Elt F))
    (h_main_v43 : W (Proc.devRef .tc main_v43) = Read.val_main_v43 (F := F) x0 x1)
    (h_main_v44 : W (Proc.devRef .tc main_v44) = Read.val_main_v44 (F := F))
    (h_main_v46 : W (Proc.devRef .tc main_v46) = Read.val_main_v46 (F := F)) :
    after (L9 (F := F)) W (Proc.devRef .tc main_v43) = Read.val_main_v43 (F := F) x0 x1
    ∧ after (L9 (F := F)) W (Proc.devRef .tc main_v44) = Read.val_main_v44 (F := F)
    ∧ after (L9 (F := F)) W (Proc.devRef .tc main_v46) = Read.val_main_v46 (F := F)
    ∧ after (L9 (F := F)) W (Proc.devRef .tc main_v51) = Read.val_main_v51 (F := F)
    ∧ after (L9 (F := F)) W (Proc.devRef .tc main_c_16) = Read.val_main_c_16 (F := F) := by
  refine ⟨?_, ?_, ?_, ?_, ?_⟩
  · after_results_simp
    exact h_main_v43
  · after_results_simp
    exact h_main_v44
  · after_results_simp
    exact h_main_v46
  · after_results_simp
    try simp only [h_main_v43, h_main_v44, h_main_v46]
    try rw [h_main_v43]
    try rw [h_main_v44]
    try rw [h_main_v46]
    try rfl
  · after_results_simp
    try simp only [h_main_v43, h_main_v44, h_main_v46]
    try rw [h_main_v43]
    try rw [h_main_v44]
    try rw [h_main_v46]
    try rfl

/-- Operations 81 to 88 of the 139. -/
abbrev L10 : List (HloOp τ sig (Elt F)) :=
  [ unary main_c_16 main_v52 (broadcastInDim S4096 ![] bcast_S_S4096 : (⟨S_, .i32⟩ : BufTy).Contents (Elt F) → (⟨S4096, .i32⟩ : BufTy).Contents (Elt F)),
    binary main_v46 main_v52 main_v53 (cmpi .slt : (⟨S4096, .i32⟩ : BufTy).Contents (Elt F) → (⟨S4096, .i32⟩ : BufTy).Contents (Elt F) → (⟨S4096, .i1⟩ : BufTy).Contents (Elt F)),
    nullary main_c_17 (constantI S_ 32 8192#32),
    unary main_c_17 main_v54 (broadcastInDim S4096 ![] bcast_S_S4096 : (⟨S_, .i32⟩ : BufTy).Contents (Elt F) → (⟨S4096, .i32⟩ : BufTy).Contents (Elt F)),
    binary main_v46 main_v54 main_v55 (addi : (⟨S4096, .i32⟩ : BufTy).Contents (Elt F) → (⟨S4096, .i32⟩ : BufTy).Contents (Elt F) → (⟨S4096, .i32⟩ : BufTy).Contents (Elt F)),
    ternary main_v53 main_v55 main_v46 main_v56 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v51 main_v57 (broadcastInDim S4096x1 ![0] bcast_S4096_S4096x1_0 : (⟨S4096, .i32⟩ : BufTy).Contents (Elt F) → (⟨S4096x1, .i32⟩ : BufTy).Contents (Elt F)),
    unary main_v56 main_v58 (broadcastInDim S4096x1 ![0] bcast_S4096_S4096x1_0 : (⟨S4096, .i32⟩ : BufTy).Contents (Elt F) → (⟨S4096x1, .i32⟩ : BufTy).Contents (Elt F)) ]

set_option maxHeartbeats 2000000 in
theorem stretch10 (W : Valuation τ sig (Elt F)) (x0 x1 : (⟨S4096x8, .f32⟩ : BufTy).Contents (Elt F))
    (h_main_v43 : W (Proc.devRef .tc main_v43) = Read.val_main_v43 (F := F) x0 x1)
    (h_main_v44 : W (Proc.devRef .tc main_v44) = Read.val_main_v44 (F := F))
    (h_main_v46 : W (Proc.devRef .tc main_v46) = Read.val_main_v46 (F := F))
    (h_main_v51 : W (Proc.devRef .tc main_v51) = Read.val_main_v51 (F := F))
    (h_main_c_16 : W (Proc.devRef .tc main_c_16) = Read.val_main_c_16 (F := F)) :
    after (L10 (F := F)) W (Proc.devRef .tc main_v43) = Read.val_main_v43 (F := F) x0 x1
    ∧ after (L10 (F := F)) W (Proc.devRef .tc main_v44) = Read.val_main_v44 (F := F)
    ∧ after (L10 (F := F)) W (Proc.devRef .tc main_v57) = Read.val_main_v57 (F := F)
    ∧ after (L10 (F := F)) W (Proc.devRef .tc main_v58) = Read.val_main_v58 (F := F) := by
  refine ⟨?_, ?_, ?_, ?_⟩
  · after_results_simp
    exact h_main_v43
  · after_results_simp
    exact h_main_v44
  · after_results_simp
    try simp only [h_main_v43, h_main_v44, h_main_v46, h_main_v51, h_main_c_16]
    try rw [h_main_v43]
    try rw [h_main_v44]
    try rw [h_main_v46]
    try rw [h_main_v51]
    try rw [h_main_c_16]
    try rfl
  · after_results_simp
    try simp only [h_main_v43, h_main_v44, h_main_v46, h_main_v51, h_main_c_16]
    try rw [h_main_v43]
    try rw [h_main_v44]
    try rw [h_main_v46]
    try rw [h_main_v51]
    try rw [h_main_c_16]
    try rfl

/-- Operations 89 to 96 of the 139. -/
abbrev L11 : List (HloOp τ sig (Elt F)) :=
  [ binary main_v57 main_v58 main_v59 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v43 main_v59 main_v60 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    nullary main_c_18 (constantI S_ 32 4096#32),
    unary main_c_18 main_v61 (broadcastInDim S4096 ![] bcast_S_S4096 : (⟨S_, .i32⟩ : BufTy).Contents (Elt F) → (⟨S4096, .i32⟩ : BufTy).Contents (Elt F)),
    binary main_v44 main_v61 main_v62 (addi : (⟨S4096, .i32⟩ : BufTy).Contents (Elt F) → (⟨S4096, .i32⟩ : BufTy).Contents (Elt F) → (⟨S4096, .i32⟩ : BufTy).Contents (Elt F)),
    nullary main_c_19 (constantI S_ 32 0#32),
    unary main_c_19 main_v63 (broadcastInDim S4096 ![] bcast_S_S4096 : (⟨S_, .i32⟩ : BufTy).Contents (Elt F) → (⟨S4096, .i32⟩ : BufTy).Contents (Elt F)),
    binary main_v62 main_v63 main_v64 (cmpi .slt : (⟨S4096, .i32⟩ : BufTy).Contents (Elt F) → (⟨S4096, .i32⟩ : BufTy).Contents (Elt F) → (⟨S4096, .i1⟩ : BufTy).Contents (Elt F)) ]

set_option maxHeartbeats 2000000 in
theorem stretch11 (W : Valuation τ sig (Elt F)) (x0 x1 : (⟨S4096x8, .f32⟩ : BufTy).Contents (Elt F))
    (h_main_v43 : W (Proc.devRef .tc main_v43) = Read.val_main_v43 (F := F) x0 x1)
    (h_main_v44 : W (Proc.devRef .tc main_v44) = Read.val_main_v44 (F := F))
    (h_main_v57 : W (Proc.devRef .tc main_v57) = Read.val_main_v57 (F := F))
    (h_main_v58 : W (Proc.devRef .tc main_v58) = Read.val_main_v58 (F := F)) :
    after (L11 (F := F)) W (Proc.devRef .tc main_v43) = Read.val_main_v43 (F := F) x0 x1
    ∧ after (L11 (F := F)) W (Proc.devRef .tc main_v44) = Read.val_main_v44 (F := F)
    ∧ after (L11 (F := F)) W (Proc.devRef .tc main_v60) = Read.val_main_v60 (F := F) x0 x1
    ∧ after (L11 (F := F)) W (Proc.devRef .tc main_v62) = Read.val_main_v62 (F := F)
    ∧ after (L11 (F := F)) W (Proc.devRef .tc main_v64) = Read.val_main_v64 (F := F) := by
  refine ⟨?_, ?_, ?_, ?_, ?_⟩
  · after_results_simp
    exact h_main_v43
  · after_results_simp
    exact h_main_v44
  · after_results_simp
    try simp only [h_main_v43, h_main_v44, h_main_v57, h_main_v58]
    try rw [h_main_v43]
    try rw [h_main_v44]
    try rw [h_main_v57]
    try rw [h_main_v58]
    try rfl
  · after_results_simp
    try simp only [h_main_v43, h_main_v44, h_main_v57, h_main_v58]
    try rw [h_main_v43]
    try rw [h_main_v44]
    try rw [h_main_v57]
    try rw [h_main_v58]
    try rfl
  · after_results_simp
    try simp only [h_main_v43, h_main_v44, h_main_v57, h_main_v58]
    try rw [h_main_v43]
    try rw [h_main_v44]
    try rw [h_main_v57]
    try rw [h_main_v58]
    try rfl

/-- Operations 97 to 104 of the 139. -/
abbrev L12 : List (HloOp τ sig (Elt F)) :=
  [ nullary main_c_20 (constantI S_ 32 8192#32),
    unary main_c_20 main_v65 (broadcastInDim S4096 ![] bcast_S_S4096 : (⟨S_, .i32⟩ : BufTy).Contents (Elt F) → (⟨S4096, .i32⟩ : BufTy).Contents (Elt F)),
    binary main_v62 main_v65 main_v66 (addi : (⟨S4096, .i32⟩ : BufTy).Contents (Elt F) → (⟨S4096, .i32⟩ : BufTy).Contents (Elt F) → (⟨S4096, .i32⟩ : BufTy).Contents (Elt F)),
    ternary main_v64 main_v66 main_v62 main_v67 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_21 (constantI S_ 32 0#32),
    unary main_c_21 main_v68 (broadcastInDim S4096 ![] bcast_S_S4096 : (⟨S_, .i32⟩ : BufTy).Contents (Elt F) → (⟨S4096, .i32⟩ : BufTy).Contents (Elt F)),
    binary main_v44 main_v68 main_v69 (cmpi .slt : (⟨S4096, .i32⟩ : BufTy).Contents (Elt F) → (⟨S4096, .i32⟩ : BufTy).Contents (Elt F) → (⟨S4096, .i1⟩ : BufTy).Contents (Elt F)),
    nullary main_c_22 (constantI S_ 32 8192#32) ]

set_option maxHeartbeats 2000000 in
theorem stretch12 (W : Valuation τ sig (Elt F)) (x0 x1 : (⟨S4096x8, .f32⟩ : BufTy).Contents (Elt F))
    (h_main_v43 : W (Proc.devRef .tc main_v43) = Read.val_main_v43 (F := F) x0 x1)
    (h_main_v44 : W (Proc.devRef .tc main_v44) = Read.val_main_v44 (F := F))
    (h_main_v60 : W (Proc.devRef .tc main_v60) = Read.val_main_v60 (F := F) x0 x1)
    (h_main_v62 : W (Proc.devRef .tc main_v62) = Read.val_main_v62 (F := F))
    (h_main_v64 : W (Proc.devRef .tc main_v64) = Read.val_main_v64 (F := F)) :
    after (L12 (F := F)) W (Proc.devRef .tc main_v43) = Read.val_main_v43 (F := F) x0 x1
    ∧ after (L12 (F := F)) W (Proc.devRef .tc main_v44) = Read.val_main_v44 (F := F)
    ∧ after (L12 (F := F)) W (Proc.devRef .tc main_v60) = Read.val_main_v60 (F := F) x0 x1
    ∧ after (L12 (F := F)) W (Proc.devRef .tc main_v67) = Read.val_main_v67 (F := F)
    ∧ after (L12 (F := F)) W (Proc.devRef .tc main_v69) = Read.val_main_v69 (F := F)
    ∧ after (L12 (F := F)) W (Proc.devRef .tc main_c_22) = Read.val_main_c_22 (F := F) := by
  refine ⟨?_, ?_, ?_, ?_, ?_, ?_⟩
  · after_results_simp
    exact h_main_v43
  · after_results_simp
    exact h_main_v44
  · after_results_simp
    exact h_main_v60
  · after_results_simp
    try simp only [h_main_v43, h_main_v44, h_main_v60, h_main_v62, h_main_v64]
    try rw [h_main_v43]
    try rw [h_main_v44]
    try rw [h_main_v60]
    try rw [h_main_v62]
    try rw [h_main_v64]
    try rfl
  · after_results_simp
    try simp only [h_main_v43, h_main_v44, h_main_v60, h_main_v62, h_main_v64]
    try rw [h_main_v43]
    try rw [h_main_v44]
    try rw [h_main_v60]
    try rw [h_main_v62]
    try rw [h_main_v64]
    try rfl
  · after_results_simp
    try simp only [h_main_v43, h_main_v44, h_main_v60, h_main_v62, h_main_v64]
    try rw [h_main_v43]
    try rw [h_main_v44]
    try rw [h_main_v60]
    try rw [h_main_v62]
    try rw [h_main_v64]
    try rfl

/-- Operations 105 to 109 of the 139. -/
abbrev L13 : List (HloOp τ sig (Elt F)) :=
  [ unary main_c_22 main_v70 (broadcastInDim S4096 ![] bcast_S_S4096 : (⟨S_, .i32⟩ : BufTy).Contents (Elt F) → (⟨S4096, .i32⟩ : BufTy).Contents (Elt F)),
    binary main_v44 main_v70 main_v71 (addi : (⟨S4096, .i32⟩ : BufTy).Contents (Elt F) → (⟨S4096, .i32⟩ : BufTy).Contents (Elt F) → (⟨S4096, .i32⟩ : BufTy).Contents (Elt F)),
    ternary main_v69 main_v71 main_v44 main_v72 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v67 main_v73 (broadcastInDim S4096x1 ![0] bcast_S4096_S4096x1_0 : (⟨S4096, .i32⟩ : BufTy).Contents (Elt F) → (⟨S4096x1, .i32⟩ : BufTy).Contents (Elt F)),
    unary main_v72 main_v74 (broadcastInDim S4096x1 ![0] bcast_S4096_S4096x1_0 : (⟨S4096, .i32⟩ : BufTy).Contents (Elt F) → (⟨S4096x1, .i32⟩ : BufTy).Contents (Elt F)) ]

set_option maxHeartbeats 2000000 in
theorem stretch13 (W : Valuation τ sig (Elt F)) (x0 x1 : (⟨S4096x8, .f32⟩ : BufTy).Contents (Elt F))
    (h_main_v43 : W (Proc.devRef .tc main_v43) = Read.val_main_v43 (F := F) x0 x1)
    (h_main_v44 : W (Proc.devRef .tc main_v44) = Read.val_main_v44 (F := F))
    (h_main_v60 : W (Proc.devRef .tc main_v60) = Read.val_main_v60 (F := F) x0 x1)
    (h_main_v67 : W (Proc.devRef .tc main_v67) = Read.val_main_v67 (F := F))
    (h_main_v69 : W (Proc.devRef .tc main_v69) = Read.val_main_v69 (F := F))
    (h_main_c_22 : W (Proc.devRef .tc main_c_22) = Read.val_main_c_22 (F := F)) :
    after (L13 (F := F)) W (Proc.devRef .tc main_v43) = Read.val_main_v43 (F := F) x0 x1
    ∧ after (L13 (F := F)) W (Proc.devRef .tc main_v60) = Read.val_main_v60 (F := F) x0 x1
    ∧ after (L13 (F := F)) W (Proc.devRef .tc main_v73) = Read.val_main_v73 (F := F)
    ∧ after (L13 (F := F)) W (Proc.devRef .tc main_v74) = Read.val_main_v74 (F := F) := by
  refine ⟨?_, ?_, ?_, ?_⟩
  · after_results_simp
    exact h_main_v43
  · after_results_simp
    exact h_main_v60
  · after_results_simp
    try simp only [h_main_v43, h_main_v44, h_main_v60, h_main_v67, h_main_v69, h_main_c_22]
    try rw [h_main_v43]
    try rw [h_main_v44]
    try rw [h_main_v60]
    try rw [h_main_v67]
    try rw [h_main_v69]
    try rw [h_main_c_22]
    try rfl
  · after_results_simp
    try simp only [h_main_v43, h_main_v44, h_main_v60, h_main_v67, h_main_v69, h_main_c_22]
    try rw [h_main_v43]
    try rw [h_main_v44]
    try rw [h_main_v60]
    try rw [h_main_v67]
    try rw [h_main_v69]
    try rw [h_main_c_22]
    try rfl

/-- Operations 110 to 111 of the 139. -/
abbrev L14 : List (HloOp τ sig (Elt F)) :=
  [ binary main_v73 main_v74 main_v75 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v43 main_v75 main_v76 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

set_option maxHeartbeats 2000000 in
theorem stretch14 (W : Valuation τ sig (Elt F)) (x0 x1 : (⟨S4096x8, .f32⟩ : BufTy).Contents (Elt F))
    (h_main_v43 : W (Proc.devRef .tc main_v43) = Read.val_main_v43 (F := F) x0 x1)
    (h_main_v60 : W (Proc.devRef .tc main_v60) = Read.val_main_v60 (F := F) x0 x1)
    (h_main_v73 : W (Proc.devRef .tc main_v73) = Read.val_main_v73 (F := F))
    (h_main_v74 : W (Proc.devRef .tc main_v74) = Read.val_main_v74 (F := F)) :
    after (L14 (F := F)) W (Proc.devRef .tc main_v43) = Read.val_main_v43 (F := F) x0 x1
    ∧ after (L14 (F := F)) W (Proc.devRef .tc main_v60) = Read.val_main_v60 (F := F) x0 x1
    ∧ after (L14 (F := F)) W (Proc.devRef .tc main_v76) = Read.val_main_v76 (F := F) x0 x1 := by
  refine ⟨?_, ?_, ?_⟩
  · after_results_simp
    exact h_main_v43
  · after_results_simp
    exact h_main_v60
  · after_results_simp
    try simp only [h_main_v43, h_main_v60, h_main_v73, h_main_v74]
    try rw [h_main_v43]
    try rw [h_main_v60]
    try rw [h_main_v73]
    try rw [h_main_v74]
    try rfl

/-- Operations 112 to 112 of the 139. -/
abbrev L15 : List (HloOp τ sig (Elt F)) :=
  [ binary main_v60 main_v76 main_v77 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)) ]

set_option maxHeartbeats 2000000 in
theorem stretch15 (W : Valuation τ sig (Elt F)) (x0 x1 : (⟨S4096x8, .f32⟩ : BufTy).Contents (Elt F))
    (h_main_v43 : W (Proc.devRef .tc main_v43) = Read.val_main_v43 (F := F) x0 x1)
    (h_main_v60 : W (Proc.devRef .tc main_v60) = Read.val_main_v60 (F := F) x0 x1)
    (h_main_v76 : W (Proc.devRef .tc main_v76) = Read.val_main_v76 (F := F) x0 x1) :
    after (L15 (F := F)) W (Proc.devRef .tc main_v43) = Read.val_main_v43 (F := F) x0 x1
    ∧ after (L15 (F := F)) W (Proc.devRef .tc main_v77) = Read.val_main_v77 (F := F) x0 x1 := by
  refine ⟨?_, ?_⟩
  · after_results_simp
    exact h_main_v43
  · after_results_simp
    try simp only [h_main_v43, h_main_v60, h_main_v76]
    try rw [h_main_v43]
    try rw [h_main_v60]
    try rw [h_main_v76]
    try rfl

/-- Operations 113 to 120 of the 139. -/
abbrev L16 : List (HloOp τ sig (Elt F)) :=
  [ nullary main_v78 (iotaInDim S8192x8192 32 0),
    nullary main_v79 (iotaInDim S8192x8192 32 1),
    nullary main_c_23 (constantI S_ 32 0#32),
    unary main_c_23 main_v80 (broadcastInDim S8192x8192 ![] bcast_S_S8192x8192 : (⟨S_, .i32⟩ : BufTy).Contents (Elt F) → (⟨S8192x8192, .i32⟩ : BufTy).Contents (Elt F)),
    binary main_v78 main_v80 main_v81 (addi : (⟨S8192x8192, .i32⟩ : BufTy).Contents (Elt F) → (⟨S8192x8192, .i32⟩ : BufTy).Contents (Elt F) → (⟨S8192x8192, .i32⟩ : BufTy).Contents (Elt F)),
    binary main_v81 main_v79 main_v82 (cmpi .eq : (⟨S8192x8192, .i32⟩ : BufTy).Contents (Elt F) → (⟨S8192x8192, .i32⟩ : BufTy).Contents (Elt F) → (⟨S8192x8192, .i1⟩ : BufTy).Contents (Elt F)),
    unary main_v82 main_v83 (uitofp .f32 : (⟨S8192x8192, .i1⟩ : BufTy).Contents (Elt F) → (⟨S8192x8192, .f32⟩ : BufTy).Contents (Elt F)),
    nullary main_cst_24 (constant S_ .f32 0x3F800000#32) ]

set_option maxHeartbeats 2000000 in
theorem stretch16 (W : Valuation τ sig (Elt F)) (x0 x1 : (⟨S4096x8, .f32⟩ : BufTy).Contents (Elt F))
    (h_main_v43 : W (Proc.devRef .tc main_v43) = Read.val_main_v43 (F := F) x0 x1)
    (h_main_v77 : W (Proc.devRef .tc main_v77) = Read.val_main_v77 (F := F) x0 x1) :
    after (L16 (F := F)) W (Proc.devRef .tc main_v43) = Read.val_main_v43 (F := F) x0 x1
    ∧ after (L16 (F := F)) W (Proc.devRef .tc main_v77) = Read.val_main_v77 (F := F) x0 x1
    ∧ after (L16 (F := F)) W (Proc.devRef .tc main_v83) = Read.val_main_v83 (F := F)
    ∧ after (L16 (F := F)) W (Proc.devRef .tc main_cst_24) = Read.val_main_cst_24 (F := F) := by
  refine ⟨?_, ?_, ?_, ?_⟩
  · after_results_simp
    exact h_main_v43
  · after_results_simp
    exact h_main_v77
  · after_results_simp
    try simp only [h_main_v43, h_main_v77]
    try rw [h_main_v43]
    try rw [h_main_v77]
    try rfl
  · after_results_simp
    try simp only [h_main_v43, h_main_v77]
    try rw [h_main_v43]
    try rw [h_main_v77]
    try rfl

/-- Operations 121 to 128 of the 139. -/
abbrev L17 : List (HloOp τ sig (Elt F)) :=
  [ unary main_cst_24 main_v84 (broadcastInDim S8192x8192 ![] bcast_S_S8192x8192 : (⟨S_, .f32⟩ : BufTy).Contents (Elt F) → (⟨S8192x8192, .f32⟩ : BufTy).Contents (Elt F)),
    binary main_v84 main_v83 main_v85 (subf : (⟨S8192x8192, .f32⟩ : BufTy).Contents (Elt F) → (⟨S8192x8192, .f32⟩ : BufTy).Contents (Elt F) → (⟨S8192x8192, .f32⟩ : BufTy).Contents (Elt F)),
    nullary main_cst_25 (constant S_ .f32 0x3F000000#32),
    unary main_cst_25 main_v86 (broadcastInDim S8192x8192 ![] bcast_S_S8192x8192 : (⟨S_, .f32⟩ : BufTy).Contents (Elt F) → (⟨S8192x8192, .f32⟩ : BufTy).Contents (Elt F)),
    binary main_v43 main_v86 main_v87 (Host.divf : (⟨S8192x8192, .f32⟩ : BufTy).Contents (Elt F) → (⟨S8192x8192, .f32⟩ : BufTy).Contents (Elt F) → (⟨S8192x8192, .f32⟩ : BufTy).Contents (Elt F)),
    unary main_v87 main_v88 (Host.exp : (⟨S8192x8192, .f32⟩ : BufTy).Contents (Elt F) → (⟨S8192x8192, .f32⟩ : BufTy).Contents (Elt F)),
    binary main_v85 main_v88 main_v89 (mulf : (⟨S8192x8192, .f32⟩ : BufTy).Contents (Elt F) → (⟨S8192x8192, .f32⟩ : BufTy).Contents (Elt F) → (⟨S8192x8192, .f32⟩ : BufTy).Contents (Elt F)),
    nullary main_cst_26 (constant S_ .f32 0x00000000#32) ]

set_option maxHeartbeats 2000000 in
theorem stretch17 (W : Valuation τ sig (Elt F)) (x0 x1 : (⟨S4096x8, .f32⟩ : BufTy).Contents (Elt F))
    (h_main_v43 : W (Proc.devRef .tc main_v43) = Read.val_main_v43 (F := F) x0 x1)
    (h_main_v77 : W (Proc.devRef .tc main_v77) = Read.val_main_v77 (F := F) x0 x1)
    (h_main_v83 : W (Proc.devRef .tc main_v83) = Read.val_main_v83 (F := F))
    (h_main_cst_24 : W (Proc.devRef .tc main_cst_24) = Read.val_main_cst_24 (F := F)) :
    after (L17 (F := F)) W (Proc.devRef .tc main_v77) = Read.val_main_v77 (F := F) x0 x1
    ∧ after (L17 (F := F)) W (Proc.devRef .tc main_v89) = Read.val_main_v89 (F := F) x0 x1
    ∧ after (L17 (F := F)) W (Proc.devRef .tc main_cst_26) = Read.val_main_cst_26 (F := F) := by
  refine ⟨?_, ?_, ?_⟩
  · after_results_simp
    exact h_main_v77
  · after_results_simp
    try simp only [h_main_v43, h_main_v77, h_main_v83, h_main_cst_24]
    try rw [h_main_v43]
    try rw [h_main_v77]
    try rw [h_main_v83]
    try rw [h_main_cst_24]
    try rfl
  · after_results_simp
    try simp only [h_main_v43, h_main_v77, h_main_v83, h_main_cst_24]
    try rw [h_main_v43]
    try rw [h_main_v77]
    try rw [h_main_v83]
    try rw [h_main_cst_24]
    try rfl

/-- Operations 129 to 136 of the 139. -/
abbrev L18 : List (HloOp τ sig (Elt F)) :=
  [ binary main_v89 main_cst_26 main_v90 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_27 (constant S_ .f32 0x3F000000#32),
    unary main_cst_27 main_v91 (broadcastInDim S8192 ![] bcast_S_S8192 : (⟨S_, .f32⟩ : BufTy).Contents (Elt F) → (⟨S8192, .f32⟩ : BufTy).Contents (Elt F)),
    binary main_v77 main_v91 main_v92 (Host.divf : (⟨S8192, .f32⟩ : BufTy).Contents (Elt F) → (⟨S8192, .f32⟩ : BufTy).Contents (Elt F) → (⟨S8192, .f32⟩ : BufTy).Contents (Elt F)),
    unary main_v90 main_v93 (Host.log : (⟨S8192, .f32⟩ : BufTy).Contents (Elt F) → (⟨S8192, .f32⟩ : BufTy).Contents (Elt F)),
    binary main_v92 main_v93 main_v94 (subf : (⟨S8192, .f32⟩ : BufTy).Contents (Elt F) → (⟨S8192, .f32⟩ : BufTy).Contents (Elt F) → (⟨S8192, .f32⟩ : BufTy).Contents (Elt F)),
    unary main_v94 main_v95 (Host.negf : (⟨S8192, .f32⟩ : BufTy).Contents (Elt F) → (⟨S8192, .f32⟩ : BufTy).Contents (Elt F)),
    nullary main_cst_28 (constant S_ .f32 0x00000000#32) ]

set_option maxHeartbeats 2000000 in
theorem stretch18 (W : Valuation τ sig (Elt F)) (x0 x1 : (⟨S4096x8, .f32⟩ : BufTy).Contents (Elt F))
    (h_main_v77 : W (Proc.devRef .tc main_v77) = Read.val_main_v77 (F := F) x0 x1)
    (h_main_v89 : W (Proc.devRef .tc main_v89) = Read.val_main_v89 (F := F) x0 x1)
    (h_main_cst_26 : W (Proc.devRef .tc main_cst_26) = Read.val_main_cst_26 (F := F)) :
    after (L18 (F := F)) W (Proc.devRef .tc main_v95) = Read.val_main_v95 (F := F) x0 x1
    ∧ after (L18 (F := F)) W (Proc.devRef .tc main_cst_28) = Read.val_main_cst_28 (F := F) := by
  refine ⟨?_, ?_⟩
  · after_results_simp
    try simp only [h_main_v77, h_main_v89, h_main_cst_26]
    try rw [h_main_v77]
    try rw [h_main_v89]
    try rw [h_main_cst_26]
    try rfl
  · after_results_simp
    try simp only [h_main_v77, h_main_v89, h_main_cst_26]
    try rw [h_main_v77]
    try rw [h_main_v89]
    try rw [h_main_cst_26]
    try rfl

/-- Operations 137 to 139 of the 139. -/
abbrev L19 : List (HloOp τ sig (Elt F)) :=
  [ binary main_v95 main_cst_28 main_v96 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_29 (constant S_ .f32 0x46000000#32),
    binary main_v96 main_cst_29 main_v97 (Host.divf : (⟨S_, .f32⟩ : BufTy).Contents (Elt F) → (⟨S_, .f32⟩ : BufTy).Contents (Elt F) → (⟨S_, .f32⟩ : BufTy).Contents (Elt F)) ]

set_option maxHeartbeats 2000000 in
theorem stretch19 (W : Valuation τ sig (Elt F)) (x0 x1 : (⟨S4096x8, .f32⟩ : BufTy).Contents (Elt F))
    (h_main_v95 : W (Proc.devRef .tc main_v95) = Read.val_main_v95 (F := F) x0 x1)
    (h_main_cst_28 : W (Proc.devRef .tc main_cst_28) = Read.val_main_cst_28 (F := F)) :
    after (L19 (F := F)) W (Proc.devRef .tc main_v97) = Read.val_main_v97 (F := F) x0 x1 := by
  after_results_simp
  try simp only [h_main_v95, h_main_cst_28]
  try rw [h_main_v95]
  try rw [h_main_cst_28]
  try rfl

/-- The reference's 139 host operations, in order. -/
abbrev allOps : List (HloOp τ sig (Elt F)) :=
  [ binary main_arg0 main_arg1 main_v0 ((fun a b => concatenate S8192x8 0 [⟨S4096x8, a⟩, ⟨S4096x8, b⟩] concatenates_S4096x8_S4096x8_S8192x8_d0) : (⟨S4096x8, .f32⟩ : BufTy).Contents (Elt F) → (⟨S4096x8, .f32⟩ : BufTy).Contents (Elt F) → (⟨S8192x8, .f32⟩ : BufTy).Contents (Elt F)),
    binary main_v0 main_v0 main_v1 (mulf : (⟨S8192x8, .f32⟩ : BufTy).Contents (Elt F) → (⟨S8192x8, .f32⟩ : BufTy).Contents (Elt F) → (⟨S8192x8, .f32⟩ : BufTy).Contents (Elt F)),
    nullary main_cst (constant S_ .f32 0x00000000#32),
    binary main_v1 main_cst main_v2 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
    nullary main_cst_0 (constant S_ .f32 0x00000000#32),
    nullary main_cst_1 (constant S_ .f32 0x3F7FFF58#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_v2) (TRef.of (T := ⟨S8192, .f32⟩) main_call0_v2) maximumf,
    TRef.unary (TRef.of (T := ⟨S_, .f32⟩) main_cst_1) (TRef.of (T := ⟨S_, .f32⟩) main_call0_v3) id,
    TRef.unary (TRef.of (T := ⟨S_, .f32⟩) main_call0_v3) (TRef.of (T := ⟨S8192, .f32⟩) main_call0_v4) (broadcastInDim S8192 ![] bcast_S_S8192),
    TRef.binary (TRef.of (T := ⟨S8192, .f32⟩) main_call0_v4) (TRef.of (T := ⟨S8192, .f32⟩) main_call0_v2) (TRef.of (T := ⟨S8192, .f32⟩) main_v3) minimumf,
    unary main_v2 main_v4 (broadcastInDim S8192x1 ![0] bcast_S8192_S8192x1_0 : (⟨S8192, .f32⟩ : BufTy).Contents (Elt F) → (⟨S8192x1, .f32⟩ : BufTy).Contents (Elt F)),
    unary main_v2 main_v5 (broadcastInDim S1x8192 ![1] bcast_S8192_S1x8192_1 : (⟨S8192, .f32⟩ : BufTy).Contents (Elt F) → (⟨S1x8192, .f32⟩ : BufTy).Contents (Elt F)),
    unary main_v4 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    unary main_v0 main_v9 ((transpose S8x8192 [1, 0] · transposes_S8192x8_S8x8192_1_0) : (⟨S8192x8, .f32⟩ : BufTy).Contents (Elt F) → (⟨S8x8192, .f32⟩ : BufTy).Contents (Elt F)),
    binary main_v0 main_v9 main_v10 ((fun l r => Host.dotGeneral dot_S8192x8_S8x8192_S8192x8192_1_0_0_1_n_n none l r) : (⟨S8192x8, .f32⟩ : BufTy).Contents (Elt F) → (⟨S8x8192, .f32⟩ : BufTy).Contents (Elt F) → (⟨S8192x8192, .f32⟩ : BufTy).Contents (Elt F)),
    nullary main_cst_2 (constant S_ .f32 0x40000000#32),
    unary main_cst_2 main_v11 (broadcastInDim S8192x8192 ![] bcast_S_S8192x8192 : (⟨S_, .f32⟩ : BufTy).Contents (Elt F) → (⟨S8192x8192, .f32⟩ : BufTy).Contents (Elt F)),
    binary main_v11 main_v10 main_v12 (mulf : (⟨S8192x8192, .f32⟩ : BufTy).Contents (Elt F) → (⟨S8192x8192, .f32⟩ : BufTy).Contents (Elt F) → (⟨S8192x8192, .f32⟩ : BufTy).Contents (Elt F)),
    binary main_v8 main_v12 main_v13 (subf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x00000000#32),
    unary main_cst_3 main_v14 (broadcastInDim S8192x8192 ![] bcast_S_S8192x8192 : (⟨S_, .f32⟩ : BufTy).Contents (Elt F) → (⟨S8192x8192, .f32⟩ : BufTy).Contents (Elt F)),
    binary main_v13 main_v14 main_v15 (maximumf : (⟨S8192x8192, .f32⟩ : BufTy).Contents (Elt F) → (⟨S8192x8192, .f32⟩ : BufTy).Contents (Elt F) → (⟨S8192x8192, .f32⟩ : BufTy).Contents (Elt F)),
    unary main_v3 main_v16 (broadcastInDim S8192x1 ![0] bcast_S8192_S8192x1_0 : (⟨S8192, .f32⟩ : BufTy).Contents (Elt F) → (⟨S8192x1, .f32⟩ : BufTy).Contents (Elt F)),
    nullary main_cst_4 (constant S_ .f32 0x3F800000#32),
    unary main_cst_4 main_v17 (broadcastInDim S8192x1 ![] bcast_S_S8192x1 : (⟨S_, .f32⟩ : BufTy).Contents (Elt F) → (⟨S8192x1, .f32⟩ : BufTy).Contents (Elt F)),
    binary main_v17 main_v16 main_v18 (subf : (⟨S8192x1, .f32⟩ : BufTy).Contents (Elt F) → (⟨S8192x1, .f32⟩ : BufTy).Contents (Elt F) → (⟨S8192x1, .f32⟩ : BufTy).Contents (Elt F)),
    unary main_v3 main_v19 (broadcastInDim S1x8192 ![1] bcast_S8192_S1x8192_1 : (⟨S8192, .f32⟩ : BufTy).Contents (Elt F) → (⟨S1x8192, .f32⟩ : BufTy).Contents (Elt F)),
    nullary main_cst_5 (constant S_ .f32 0x3F800000#32),
    unary main_cst_5 main_v20 (broadcastInDim S1x8192 ![] bcast_S_S1x8192 : (⟨S_, .f32⟩ : BufTy).Contents (Elt F) → (⟨S1x8192, .f32⟩ : BufTy).Contents (Elt F)),
    binary main_v20 main_v19 main_v21 (subf : (⟨S1x8192, .f32⟩ : BufTy).Contents (Elt F) → (⟨S1x8192, .f32⟩ : BufTy).Contents (Elt F) → (⟨S1x8192, .f32⟩ : BufTy).Contents (Elt F)),
    unary main_v18 main_v22 (broadcastInDim S8192x8192 ![0, 1] bcast_S8192x1_S8192x8192_0_1 : (⟨S8192x1, .f32⟩ : BufTy).Contents (Elt F) → (⟨S8192x8192, .f32⟩ : BufTy).Contents (Elt F)),
    unary main_v21 main_v23 (broadcastInDim S8192x8192 ![0, 1] bcast_S1x8192_S8192x8192_0_1 : (⟨S1x8192, .f32⟩ : BufTy).Contents (Elt F) → (⟨S8192x8192, .f32⟩ : BufTy).Contents (Elt F)),
    binary main_v22 main_v23 main_v24 (mulf : (⟨S8192x8192, .f32⟩ : BufTy).Contents (Elt F) → (⟨S8192x8192, .f32⟩ : BufTy).Contents (Elt F) → (⟨S8192x8192, .f32⟩ : BufTy).Contents (Elt F)),
    binary main_v15 main_v24 main_v25 (Host.divf : (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0x40000000#32),
    unary main_cst_6 main_v26 (broadcastInDim S8192x8192 ![] bcast_S_S8192x8192 : (⟨S_, .f32⟩ : BufTy).Contents (Elt F) → (⟨S8192x8192, .f32⟩ : BufTy).Contents (Elt F)),
    binary main_v25 main_v26 main_v27 (mulf : (⟨S8192x8192, .f32⟩ : BufTy).Contents (Elt F) → (⟨S8192x8192, .f32⟩ : BufTy).Contents (Elt F) → (⟨S8192x8192, .f32⟩ : BufTy).Contents (Elt F)),
    nullary main_cst_7 (constant S_ .f32 0x3F800000#32),
    unary main_cst_7 main_v28 (broadcastInDim S8192x8192 ![] bcast_S_S8192x8192 : (⟨S_, .f32⟩ : BufTy).Contents (Elt F) → (⟨S8192x8192, .f32⟩ : BufTy).Contents (Elt F)),
    binary main_v27 main_v28 main_v29 (addf : (⟨S8192x8192, .f32⟩ : BufTy).Contents (Elt F) → (⟨S8192x8192, .f32⟩ : BufTy).Contents (Elt F) → (⟨S8192x8192, .f32⟩ : BufTy).Contents (Elt F)),
    binary main_v29 main_v29 main_v30 (mulf : (⟨S8192x8192, .f32⟩ : BufTy).Contents (Elt F) → (⟨S8192x8192, .f32⟩ : BufTy).Contents (Elt F) → (⟨S8192x8192, .f32⟩ : BufTy).Contents (Elt F)),
    nullary main_cst_8 (constant S_ .f32 0x3F800000#32),
    unary main_cst_8 main_v31 (broadcastInDim S8192x8192 ![] bcast_S_S8192x8192 : (⟨S_, .f32⟩ : BufTy).Contents (Elt F) → (⟨S8192x8192, .f32⟩ : BufTy).Contents (Elt F)),
    binary main_v30 main_v31 main_v32 (subf : (⟨S8192x8192, .f32⟩ : BufTy).Contents (Elt F) → (⟨S8192x8192, .f32⟩ : BufTy).Contents (Elt F) → (⟨S8192x8192, .f32⟩ : BufTy).Contents (Elt F)),
    nullary main_cst_9 (constant S_ .f32 0x00000000#32),
    unary main_cst_9 main_v33 (broadcastInDim S8192x8192 ![] bcast_S_S8192x8192 : (⟨S_, .f32⟩ : BufTy).Contents (Elt F) → (⟨S8192x8192, .f32⟩ : BufTy).Contents (Elt F)),
    binary main_v32 main_v33 main_v34 (cmpf .ogt : (⟨S8192x8192, .f32⟩ : BufTy).Contents (Elt F) → (⟨S8192x8192, .f32⟩ : BufTy).Contents (Elt F) → (⟨S8192x8192, .i1⟩ : BufTy).Contents (Elt F)),
    nullary main_cst_10 (constant S_ .f32 0x3F800000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v34) (TRef.of (T := ⟨S8192x8192, .f32⟩) main_v32) (TRef.of (T := ⟨S8192x8192, .f32⟩) main_call1_v1) (TRef.of (T := ⟨S8192x8192, .f32⟩) main_v35) select,
    unary main_v35 main_v36 (Host.sqrt : (⟨S8192x8192, .f32⟩ : BufTy).Contents (Elt F) → (⟨S8192x8192, .f32⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v34) (TRef.of (T := ⟨S8192x8192, .f32⟩) main_v36) (TRef.of (T := ⟨S8192x8192, .f32⟩) main_call2_v1) (TRef.of (T := ⟨S8192x8192, .f32⟩) main_v37) select,
    binary main_v29 main_v37 main_v38 (addf : (⟨S8192x8192, .f32⟩ : BufTy).Contents (Elt F) → (⟨S8192x8192, .f32⟩ : BufTy).Contents (Elt F) → (⟨S8192x8192, .f32⟩ : BufTy).Contents (Elt F)),
    unary main_v38 main_v39 (Host.log : (⟨S8192x8192, .f32⟩ : BufTy).Contents (Elt F) → (⟨S8192x8192, .f32⟩ : BufTy).Contents (Elt F)),
    nullary main_cst_12 (constant S_ .f32 0x3F800000#32),
    unary main_cst_12 main_v40 (broadcastInDim S8192x8192 ![] bcast_S_S8192x8192 : (⟨S_, .f32⟩ : BufTy).Contents (Elt F) → (⟨S8192x8192, .f32⟩ : BufTy).Contents (Elt F)),
    binary main_v40 main_v39 main_v41 (addf : (⟨S8192x8192, .f32⟩ : BufTy).Contents (Elt F) → (⟨S8192x8192, .f32⟩ : BufTy).Contents (Elt F) → (⟨S8192x8192, .f32⟩ : BufTy).Contents (Elt F)),
    nullary main_cst_13 (constant S_ .f32 0x3F800000#32),
    unary main_cst_13 main_v42 (broadcastInDim S8192x8192 ![] bcast_S_S8192x8192 : (⟨S_, .f32⟩ : BufTy).Contents (Elt F) → (⟨S8192x8192, .f32⟩ : BufTy).Contents (Elt F)),
    binary main_v42 main_v41 main_v43 (Host.divf : (⟨S8192x8192, .f32⟩ : BufTy).Contents (Elt F) → (⟨S8192x8192, .f32⟩ : BufTy).Contents (Elt F) → (⟨S8192x8192, .f32⟩ : BufTy).Contents (Elt F)),
    nullary main_v44 (iotaInDim S4096 32 0),
    nullary main_c (constantI S_ 32 4096#32),
    unary main_c main_v45 (broadcastInDim S4096 ![] bcast_S_S4096 : (⟨S_, .i32⟩ : BufTy).Contents (Elt F) → (⟨S4096, .i32⟩ : BufTy).Contents (Elt F)),
    binary main_v44 main_v45 main_v46 (addi : (⟨S4096, .i32⟩ : BufTy).Contents (Elt F) → (⟨S4096, .i32⟩ : BufTy).Contents (Elt F) → (⟨S4096, .i32⟩ : BufTy).Contents (Elt F)),
    nullary main_c_14 (constantI S_ 32 0#32),
    unary main_c_14 main_v47 (broadcastInDim S4096 ![] bcast_S_S4096 : (⟨S_, .i32⟩ : BufTy).Contents (Elt F) → (⟨S4096, .i32⟩ : BufTy).Contents (Elt F)),
    binary main_v44 main_v47 main_v48 (cmpi .slt : (⟨S4096, .i32⟩ : BufTy).Contents (Elt F) → (⟨S4096, .i32⟩ : BufTy).Contents (Elt F) → (⟨S4096, .i1⟩ : BufTy).Contents (Elt F)),
    nullary main_c_15 (constantI S_ 32 8192#32),
    unary main_c_15 main_v49 (broadcastInDim S4096 ![] bcast_S_S4096 : (⟨S_, .i32⟩ : BufTy).Contents (Elt F) → (⟨S4096, .i32⟩ : BufTy).Contents (Elt F)),
    binary main_v44 main_v49 main_v50 (addi : (⟨S4096, .i32⟩ : BufTy).Contents (Elt F) → (⟨S4096, .i32⟩ : BufTy).Contents (Elt F) → (⟨S4096, .i32⟩ : BufTy).Contents (Elt F)),
    ternary main_v48 main_v50 main_v44 main_v51 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_16 (constantI S_ 32 0#32),
    unary main_c_16 main_v52 (broadcastInDim S4096 ![] bcast_S_S4096 : (⟨S_, .i32⟩ : BufTy).Contents (Elt F) → (⟨S4096, .i32⟩ : BufTy).Contents (Elt F)),
    binary main_v46 main_v52 main_v53 (cmpi .slt : (⟨S4096, .i32⟩ : BufTy).Contents (Elt F) → (⟨S4096, .i32⟩ : BufTy).Contents (Elt F) → (⟨S4096, .i1⟩ : BufTy).Contents (Elt F)),
    nullary main_c_17 (constantI S_ 32 8192#32),
    unary main_c_17 main_v54 (broadcastInDim S4096 ![] bcast_S_S4096 : (⟨S_, .i32⟩ : BufTy).Contents (Elt F) → (⟨S4096, .i32⟩ : BufTy).Contents (Elt F)),
    binary main_v46 main_v54 main_v55 (addi : (⟨S4096, .i32⟩ : BufTy).Contents (Elt F) → (⟨S4096, .i32⟩ : BufTy).Contents (Elt F) → (⟨S4096, .i32⟩ : BufTy).Contents (Elt F)),
    ternary main_v53 main_v55 main_v46 main_v56 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v51 main_v57 (broadcastInDim S4096x1 ![0] bcast_S4096_S4096x1_0 : (⟨S4096, .i32⟩ : BufTy).Contents (Elt F) → (⟨S4096x1, .i32⟩ : BufTy).Contents (Elt F)),
    unary main_v56 main_v58 (broadcastInDim S4096x1 ![0] bcast_S4096_S4096x1_0 : (⟨S4096, .i32⟩ : BufTy).Contents (Elt F) → (⟨S4096x1, .i32⟩ : BufTy).Contents (Elt F)),
    binary main_v57 main_v58 main_v59 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v43 main_v59 main_v60 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    nullary main_c_18 (constantI S_ 32 4096#32),
    unary main_c_18 main_v61 (broadcastInDim S4096 ![] bcast_S_S4096 : (⟨S_, .i32⟩ : BufTy).Contents (Elt F) → (⟨S4096, .i32⟩ : BufTy).Contents (Elt F)),
    binary main_v44 main_v61 main_v62 (addi : (⟨S4096, .i32⟩ : BufTy).Contents (Elt F) → (⟨S4096, .i32⟩ : BufTy).Contents (Elt F) → (⟨S4096, .i32⟩ : BufTy).Contents (Elt F)),
    nullary main_c_19 (constantI S_ 32 0#32),
    unary main_c_19 main_v63 (broadcastInDim S4096 ![] bcast_S_S4096 : (⟨S_, .i32⟩ : BufTy).Contents (Elt F) → (⟨S4096, .i32⟩ : BufTy).Contents (Elt F)),
    binary main_v62 main_v63 main_v64 (cmpi .slt : (⟨S4096, .i32⟩ : BufTy).Contents (Elt F) → (⟨S4096, .i32⟩ : BufTy).Contents (Elt F) → (⟨S4096, .i1⟩ : BufTy).Contents (Elt F)),
    nullary main_c_20 (constantI S_ 32 8192#32),
    unary main_c_20 main_v65 (broadcastInDim S4096 ![] bcast_S_S4096 : (⟨S_, .i32⟩ : BufTy).Contents (Elt F) → (⟨S4096, .i32⟩ : BufTy).Contents (Elt F)),
    binary main_v62 main_v65 main_v66 (addi : (⟨S4096, .i32⟩ : BufTy).Contents (Elt F) → (⟨S4096, .i32⟩ : BufTy).Contents (Elt F) → (⟨S4096, .i32⟩ : BufTy).Contents (Elt F)),
    ternary main_v64 main_v66 main_v62 main_v67 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_21 (constantI S_ 32 0#32),
    unary main_c_21 main_v68 (broadcastInDim S4096 ![] bcast_S_S4096 : (⟨S_, .i32⟩ : BufTy).Contents (Elt F) → (⟨S4096, .i32⟩ : BufTy).Contents (Elt F)),
    binary main_v44 main_v68 main_v69 (cmpi .slt : (⟨S4096, .i32⟩ : BufTy).Contents (Elt F) → (⟨S4096, .i32⟩ : BufTy).Contents (Elt F) → (⟨S4096, .i1⟩ : BufTy).Contents (Elt F)),
    nullary main_c_22 (constantI S_ 32 8192#32),
    unary main_c_22 main_v70 (broadcastInDim S4096 ![] bcast_S_S4096 : (⟨S_, .i32⟩ : BufTy).Contents (Elt F) → (⟨S4096, .i32⟩ : BufTy).Contents (Elt F)),
    binary main_v44 main_v70 main_v71 (addi : (⟨S4096, .i32⟩ : BufTy).Contents (Elt F) → (⟨S4096, .i32⟩ : BufTy).Contents (Elt F) → (⟨S4096, .i32⟩ : BufTy).Contents (Elt F)),
    ternary main_v69 main_v71 main_v44 main_v72 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v67 main_v73 (broadcastInDim S4096x1 ![0] bcast_S4096_S4096x1_0 : (⟨S4096, .i32⟩ : BufTy).Contents (Elt F) → (⟨S4096x1, .i32⟩ : BufTy).Contents (Elt F)),
    unary main_v72 main_v74 (broadcastInDim S4096x1 ![0] bcast_S4096_S4096x1_0 : (⟨S4096, .i32⟩ : BufTy).Contents (Elt F) → (⟨S4096x1, .i32⟩ : BufTy).Contents (Elt F)),
    binary main_v73 main_v74 main_v75 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v43 main_v75 main_v76 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    binary main_v60 main_v76 main_v77 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    nullary main_v78 (iotaInDim S8192x8192 32 0),
    nullary main_v79 (iotaInDim S8192x8192 32 1),
    nullary main_c_23 (constantI S_ 32 0#32),
    unary main_c_23 main_v80 (broadcastInDim S8192x8192 ![] bcast_S_S8192x8192 : (⟨S_, .i32⟩ : BufTy).Contents (Elt F) → (⟨S8192x8192, .i32⟩ : BufTy).Contents (Elt F)),
    binary main_v78 main_v80 main_v81 (addi : (⟨S8192x8192, .i32⟩ : BufTy).Contents (Elt F) → (⟨S8192x8192, .i32⟩ : BufTy).Contents (Elt F) → (⟨S8192x8192, .i32⟩ : BufTy).Contents (Elt F)),
    binary main_v81 main_v79 main_v82 (cmpi .eq : (⟨S8192x8192, .i32⟩ : BufTy).Contents (Elt F) → (⟨S8192x8192, .i32⟩ : BufTy).Contents (Elt F) → (⟨S8192x8192, .i1⟩ : BufTy).Contents (Elt F)),
    unary main_v82 main_v83 (uitofp .f32 : (⟨S8192x8192, .i1⟩ : BufTy).Contents (Elt F) → (⟨S8192x8192, .f32⟩ : BufTy).Contents (Elt F)),
    nullary main_cst_24 (constant S_ .f32 0x3F800000#32),
    unary main_cst_24 main_v84 (broadcastInDim S8192x8192 ![] bcast_S_S8192x8192 : (⟨S_, .f32⟩ : BufTy).Contents (Elt F) → (⟨S8192x8192, .f32⟩ : BufTy).Contents (Elt F)),
    binary main_v84 main_v83 main_v85 (subf : (⟨S8192x8192, .f32⟩ : BufTy).Contents (Elt F) → (⟨S8192x8192, .f32⟩ : BufTy).Contents (Elt F) → (⟨S8192x8192, .f32⟩ : BufTy).Contents (Elt F)),
    nullary main_cst_25 (constant S_ .f32 0x3F000000#32),
    unary main_cst_25 main_v86 (broadcastInDim S8192x8192 ![] bcast_S_S8192x8192 : (⟨S_, .f32⟩ : BufTy).Contents (Elt F) → (⟨S8192x8192, .f32⟩ : BufTy).Contents (Elt F)),
    binary main_v43 main_v86 main_v87 (Host.divf : (⟨S8192x8192, .f32⟩ : BufTy).Contents (Elt F) → (⟨S8192x8192, .f32⟩ : BufTy).Contents (Elt F) → (⟨S8192x8192, .f32⟩ : BufTy).Contents (Elt F)),
    unary main_v87 main_v88 (Host.exp : (⟨S8192x8192, .f32⟩ : BufTy).Contents (Elt F) → (⟨S8192x8192, .f32⟩ : BufTy).Contents (Elt F)),
    binary main_v85 main_v88 main_v89 (mulf : (⟨S8192x8192, .f32⟩ : BufTy).Contents (Elt F) → (⟨S8192x8192, .f32⟩ : BufTy).Contents (Elt F) → (⟨S8192x8192, .f32⟩ : BufTy).Contents (Elt F)),
    nullary main_cst_26 (constant S_ .f32 0x00000000#32),
    binary main_v89 main_cst_26 main_v90 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_27 (constant S_ .f32 0x3F000000#32),
    unary main_cst_27 main_v91 (broadcastInDim S8192 ![] bcast_S_S8192 : (⟨S_, .f32⟩ : BufTy).Contents (Elt F) → (⟨S8192, .f32⟩ : BufTy).Contents (Elt F)),
    binary main_v77 main_v91 main_v92 (Host.divf : (⟨S8192, .f32⟩ : BufTy).Contents (Elt F) → (⟨S8192, .f32⟩ : BufTy).Contents (Elt F) → (⟨S8192, .f32⟩ : BufTy).Contents (Elt F)),
    unary main_v90 main_v93 (Host.log : (⟨S8192, .f32⟩ : BufTy).Contents (Elt F) → (⟨S8192, .f32⟩ : BufTy).Contents (Elt F)),
    binary main_v92 main_v93 main_v94 (subf : (⟨S8192, .f32⟩ : BufTy).Contents (Elt F) → (⟨S8192, .f32⟩ : BufTy).Contents (Elt F) → (⟨S8192, .f32⟩ : BufTy).Contents (Elt F)),
    unary main_v94 main_v95 (Host.negf : (⟨S8192, .f32⟩ : BufTy).Contents (Elt F) → (⟨S8192, .f32⟩ : BufTy).Contents (Elt F)),
    nullary main_cst_28 (constant S_ .f32 0x00000000#32),
    binary main_v95 main_cst_28 main_v96 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_29 (constant S_ .f32 0x46000000#32),
    binary main_v96 main_cst_29 main_v97 (Host.divf : (⟨S_, .f32⟩ : BufTy).Contents (Elt F) → (⟨S_, .f32⟩ : BufTy).Contents (Elt F) → (⟨S_, .f32⟩ : BufTy).Contents (Elt F)) ]

/-- The program's operations are the stretches in order. -/
theorem ops_eq : (allOps (F := F)) = L0 ++ (L1 ++ (L2 ++ (L3 ++ (L4 ++ (L5 ++ (L6 ++ (L7 ++ (L8 ++ (L9 ++ (L10 ++ (L11 ++ (L12 ++ (L13 ++ (L14 ++ (L15 ++ (L16 ++ (L17 ++ (L18 ++ (L19))))))))))))))))))) := rfl

set_option maxHeartbeats 8000000 in
/-- From contents at which the two argument buffers hold x0 and x1, the result buffer ends at the last stage. -/
theorem after_all (V : Valuation τ sig (Elt F)) (x0 x1 : (⟨S4096x8, .f32⟩ : BufTy).Contents (Elt F))
    (h_main_arg0 : V (Proc.devRef .tc main_arg0) = x0) (h_main_arg1 : V (Proc.devRef .tc main_arg1) = x1) :
    after (allOps (F := F)) V (Proc.devRef .tc main_v97) = Read.val_main_v97 (F := F) x0 x1 := by
  rw [ops_eq]
  simp only [after_append]
  obtain ⟨h_main_v0, h_main_v2, h_main_cst_1, h_main_call0_v1⟩ := stretch0 (F := F) (V) x0 x1 h_main_arg0 h_main_arg1
  obtain ⟨h_main_v0, h_main_v3, h_main_v6, h_main_v7⟩ := stretch1 (F := F) (after L0 (V)) x0 x1 h_main_v0 h_main_v2 h_main_cst_1 h_main_call0_v1
  obtain ⟨h_main_v3, h_main_v13, h_main_cst_3⟩ := stretch2 (F := F) (after L1 (after L0 (V))) x0 x1 h_main_v0 h_main_v3 h_main_v6 h_main_v7
  obtain ⟨h_main_v15, h_main_v18, h_main_v19, h_main_cst_5⟩ := stretch3 (F := F) (after L2 (after L1 (after L0 (V)))) x0 x1 h_main_v3 h_main_v13 h_main_cst_3
  obtain ⟨h_main_v25, h_main_v26⟩ := stretch4 (F := F) (after L3 (after L2 (after L1 (after L0 (V))))) x0 x1 h_main_v15 h_main_v18 h_main_v19 h_main_cst_5
  obtain ⟨h_main_v29, h_main_v32⟩ := stretch5 (F := F) (after L4 (after L3 (after L2 (after L1 (after L0 (V)))))) x0 x1 h_main_v25 h_main_v26
  obtain ⟨h_main_v29, h_main_v34, h_main_v36⟩ := stretch6 (F := F) (after L5 (after L4 (after L3 (after L2 (after L1 (after L0 (V))))))) x0 x1 h_main_v29 h_main_v32
  obtain ⟨h_main_v39, h_main_v40⟩ := stretch7 (F := F) (after L6 (after L5 (after L4 (after L3 (after L2 (after L1 (after L0 (V)))))))) x0 x1 h_main_v29 h_main_v34 h_main_v36
  obtain ⟨h_main_v43, h_main_v44, h_main_v46⟩ := stretch8 (F := F) (after L7 (after L6 (after L5 (after L4 (after L3 (after L2 (after L1 (after L0 (V))))))))) x0 x1 h_main_v39 h_main_v40
  obtain ⟨h_main_v43, h_main_v44, h_main_v46, h_main_v51, h_main_c_16⟩ := stretch9 (F := F) (after L8 (after L7 (after L6 (after L5 (after L4 (after L3 (after L2 (after L1 (after L0 (V)))))))))) x0 x1 h_main_v43 h_main_v44 h_main_v46
  obtain ⟨h_main_v43, h_main_v44, h_main_v57, h_main_v58⟩ := stretch10 (F := F) (after L9 (after L8 (after L7 (after L6 (after L5 (after L4 (after L3 (after L2 (after L1 (after L0 (V))))))))))) x0 x1 h_main_v43 h_main_v44 h_main_v46 h_main_v51 h_main_c_16
  obtain ⟨h_main_v43, h_main_v44, h_main_v60, h_main_v62, h_main_v64⟩ := stretch11 (F := F) (after L10 (after L9 (after L8 (after L7 (after L6 (after L5 (after L4 (after L3 (after L2 (after L1 (after L0 (V)))))))))))) x0 x1 h_main_v43 h_main_v44 h_main_v57 h_main_v58
  obtain ⟨h_main_v43, h_main_v44, h_main_v60, h_main_v67, h_main_v69, h_main_c_22⟩ := stretch12 (F := F) (after L11 (after L10 (after L9 (after L8 (after L7 (after L6 (after L5 (after L4 (after L3 (after L2 (after L1 (after L0 (V))))))))))))) x0 x1 h_main_v43 h_main_v44 h_main_v60 h_main_v62 h_main_v64
  obtain ⟨h_main_v43, h_main_v60, h_main_v73, h_main_v74⟩ := stretch13 (F := F) (after L12 (after L11 (after L10 (after L9 (after L8 (after L7 (after L6 (after L5 (after L4 (after L3 (after L2 (after L1 (after L0 (V)))))))))))))) x0 x1 h_main_v43 h_main_v44 h_main_v60 h_main_v67 h_main_v69 h_main_c_22
  obtain ⟨h_main_v43, h_main_v60, h_main_v76⟩ := stretch14 (F := F) (after L13 (after L12 (after L11 (after L10 (after L9 (after L8 (after L7 (after L6 (after L5 (after L4 (after L3 (after L2 (after L1 (after L0 (V))))))))))))))) x0 x1 h_main_v43 h_main_v60 h_main_v73 h_main_v74
  obtain ⟨h_main_v43, h_main_v77⟩ := stretch15 (F := F) (after L14 (after L13 (after L12 (after L11 (after L10 (after L9 (after L8 (after L7 (after L6 (after L5 (after L4 (after L3 (after L2 (after L1 (after L0 (V)))))))))))))))) x0 x1 h_main_v43 h_main_v60 h_main_v76
  obtain ⟨h_main_v43, h_main_v77, h_main_v83, h_main_cst_24⟩ := stretch16 (F := F) (after L15 (after L14 (after L13 (after L12 (after L11 (after L10 (after L9 (after L8 (after L7 (after L6 (after L5 (after L4 (after L3 (after L2 (after L1 (after L0 (V))))))))))))))))) x0 x1 h_main_v43 h_main_v77
  obtain ⟨h_main_v77, h_main_v89, h_main_cst_26⟩ := stretch17 (F := F) (after L16 (after L15 (after L14 (after L13 (after L12 (after L11 (after L10 (after L9 (after L8 (after L7 (after L6 (after L5 (after L4 (after L3 (after L2 (after L1 (after L0 (V)))))))))))))))))) x0 x1 h_main_v43 h_main_v77 h_main_v83 h_main_cst_24
  obtain ⟨h_main_v95, h_main_cst_28⟩ := stretch18 (F := F) (after L17 (after L16 (after L15 (after L14 (after L13 (after L12 (after L11 (after L10 (after L9 (after L8 (after L7 (after L6 (after L5 (after L4 (after L3 (after L2 (after L1 (after L0 (V))))))))))))))))))) x0 x1 h_main_v77 h_main_v89 h_main_cst_26
  have h_main_v97 := stretch19 (F := F) (after L18 (after L17 (after L16 (after L15 (after L14 (after L13 (after L12 (after L11 (after L10 (after L9 (after L8 (after L7 (after L6 (after L5 (after L4 (after L3 (after L2 (after L1 (after L0 (V)))))))))))))))))))) x0 x1 h_main_v95 h_main_cst_28
  exact h_main_v97

end Cert.ReferenceIdeal.Stretch

end
-- ==== Proof.KBBase.lean ====
/-
  What the frame of this program is stated over: @main as the host lines before the region, the region and the host
  lines after it; each window's block at a grid point; the two conditions of the body decided over the 16 x 16 grid
  (point t is row tile t / 16, column tile t % 16); where the pairs' window is idle; the staging memrefs at a point.
-/
import proofs.«107719_j5016521802072_1_alg».proof.Proof.Gen.Kernel.Launch
import proofs.«107719_j5016521802072_1_alg».proof.Proof.Gen.Kernel.Skeleton
import proofs.«107719_j5016521802072_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- The core's buffer contents when the region is entered, as a valuation: after the host lines before it (the two
    arrays joined, the rows' squared norms, their clipped values, and the re-laid copies the windows stage). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The lines after the region touch TensorCore buffers only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the arrays the windows stage (each writes only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- The first `pl.when` (reset the accumulators) holds where the column tile is the first. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
/-- The second (add the tile's diagonal to the pairs) holds where the column tile is eight to the right of the row tile. -/
theorem hcond2 : ∀ t : Fin cfg0.N, k0_cond2 (grid0.coords t) = 1#1 ↔ t.val % 16 = t.val / 16 + 8 :=
  (by decide +kernel : ∀ t : Fin grid0.N, k0_cond2 (grid0.coords t) = 1#1 ↔ t.val % 16 = t.val / 16 + 8)

/-! ## Where the pairs' window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- The pairs' window is idle exactly where neither condition holds. -/
theorem idleAt0_7 : ∀ t : Fin cfg0.N, ¬t.val % 16 = 0 → ¬t.val % 16 = t.val / 16 + 8 → cfg0.idle 7 (grid0.coords t) = true := by decide +kernel
theorem liveAt0_7_A : ∀ t : Fin cfg0.N, t.val % 16 = 0 → cfg0.idle 7 (grid0.coords t) = false := by decide +kernel
theorem liveAt0_7_C : ∀ t : Fin cfg0.N, t.val % 16 = t.val / 16 + 8 → cfg0.idle 7 (grid0.coords t) = false := by decide +kernel
/-- The outputs' blocks are written back after the last column tile of each row tile, and only there. -/
theorem flush6_iff : ∀ t : Fin cfg0.N, (cfg0.win 6).flush t = true ↔ t.val % 16 = 15 := flush0_6
theorem flush7_iff : ∀ t : Fin cfg0.N, (cfg0.win 7).flush t = true ↔ t.val % 16 = 15 := flush0_7

/-! ## The staging memrefs at a point -/

abbrev VO6 : View sig .tc .vmem S512x1 .f32 := (Memref.whole cc0_stg6_0 : Memref sig .tc .vmem S512x1 .f32).view
abbrev VO7 : View sig .tc .vmem S512x1 .f32 := (Memref.whole cc0_stg7_0 : Memref sig .tc .vmem S512x1 .f32).view
abbrev ms0 (t : Fin cfg0.N) : Memref sig .tc .vmem S512x8 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x8 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1 .f32 := win0_7.stage (cfg0.slots t 7)
abbrev hs7 (t : Fin cfg0.N) : (ms7 t).IsWhole := hstage0_7 ((cfg0.slots t 7).cast nbuf0_7)

end Cert.Kernel.Frame

end
-- ==== Proof.KBRunA.lean ====
/-
  The kernel body run where the column tile is the first: both accumulators are reset, then the tile's row sums are added to the denominators.
  On whole staging memrefs, the inputs' at their blocks, the body runs to its end holding the inputs' as they were and
  each output's buffer with the stores it made written, in order (last first); the list of stores is what the run finds.
-/
import proofs.«107719_j5016521802072_1_alg».proof.Proof.KBBase

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_A (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) :
    Σ' (L6 : List (View.Piece (Elt F) S512x1 .f32)), { L7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__poincare_block_kernel i arg2 harg2 arg3 harg3 arg4 harg4 arg5 harg5 arg6 harg6 arg7 harg7 arg8 harg8 arg9 harg9) K } := by
  refine ⟨?_, ?_, fun E K => ?run⟩
  case run =>
    simp only [cc0__poincare_block_kernel_eq_skeleton]; unfold cc0__poincare_block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    iexists _; iexact H9

end Cert.Kernel.Frame

end
-- ==== Proof.KBRunB.lean ====
/-
  The kernel body run where neither condition holds: the tile's row sums are added to the denominators, the pairs' buffer is not touched.
  On whole staging memrefs, the inputs' at their blocks, the body runs to its end holding the inputs' as they were and
  each output's buffer with the stores it made written, in order (last first); the list of stores is what the run finds.
-/
import proofs.«107719_j5016521802072_1_alg».proof.Proof.KBRunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_B (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) :
    { L6 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__poincare_block_kernel i arg2 harg2 arg3 harg3 arg4 harg4 arg5 harg5 arg6 harg6 arg7 harg7 arg8 harg8 arg9 harg9) K } := by
  refine ⟨?_, fun E K => ?run⟩
  case run =>
    simp only [cc0__poincare_block_kernel_eq_skeleton]; unfold cc0__poincare_block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H8

end Cert.Kernel.Frame

end
-- ==== Proof.KBRunC.lean ====
/-
  The kernel body run where the column tile is eight to the right of the row tile: the tile's row sums are added to the denominators and its diagonal to the pairs.
  On whole staging memrefs, the inputs' at their blocks, the body runs to its end holding the inputs' as they were and
  each output's buffer with the stores it made written, in order (last first); the list of stores is what the run finds.
-/
import proofs.«107719_j5016521802072_1_alg».proof.Proof.KBRunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_C (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) :
    Σ' (L6 : List (View.Piece (Elt F) S512x1 .f32)), { L7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__poincare_block_kernel i arg2 harg2 arg3 harg3 arg4 harg4 arg5 harg5 arg6 harg6 arg7 harg7 arg8 harg8 arg9 harg9) K } := by
  refine ⟨?_, ?_, fun E K => ?run⟩
  case run =>
    simp only [cc0__poincare_block_kernel_eq_skeleton]; unfold cc0__poincare_block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg9.eq_unread hf9
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    iexists _; iexact H9

end Cert.Kernel.Frame

end
-- ==== Proof.KBOuts.lean ====
/-
  What the kernel's two outputs hold point by point. Per case of the body's two conditions the stores into each output's
  staging buffer cover it, so the buffer's contents after the body are those stores read back; by recursion on the grid
  point this names the contents after every point; and what the body FINDS in each buffer at a point is its block for
  an input, and for an output what the point before left (the pairs' buffer through its idle stretches untouched).
-/
import proofs.«107719_j5016521802072_1_alg».proof.Proof.KBRunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores of this case into the denominators' buffer cover it. -/
theorem cover_A_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (y : S512x1.Idx) :
    ∃ pc ∈ (kernelRun_A c i arg2 harg2 arg3 harg3 arg4 harg4 arg5 harg5 arg6 harg6 arg7 harg7 arg8 harg8 arg9 harg9 hc1 hc2 x0 x1 x2 x3 x4 x5).1, y ∈ pc.1.set :=
  View.cover_of_tiledL (kernelRun_A c i arg2 harg2 arg3 harg3 arg4 harg4 arg5 harg5 arg6 harg6 arg7 harg7 arg8 harg8 arg9 harg9 hc1 hc2 x0 x1 x2 x3 x4 x5).1 S512x1.size (by sl_kernel_rfl) y

/-- What this case leaves in the denominators' buffer: its stores read back. -/
def out_A_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) : Vec F S512x1 .f32 :=
  VO6.read (Elt F) (VO6.writes (Elt F) VO6.junk (kernelRun_A c i arg2 harg2 arg3 harg3 arg4 harg4 arg5 harg5 arg6 harg6 arg7 harg7 arg8 harg8 arg9 harg9 hc1 hc2 x0 x1 x2 x3 x4 x5).1)

/-- The stores of this case into the pairs' buffer cover it. -/
theorem cover_A_7 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (y : S512x1.Idx) :
    ∃ pc ∈ (kernelRun_A c i arg2 harg2 arg3 harg3 arg4 harg4 arg5 harg5 arg6 harg6 arg7 harg7 arg8 harg8 arg9 harg9 hc1 hc2 x0 x1 x2 x3 x4 x5).2.1, y ∈ pc.1.set :=
  View.cover_of_tiledL (kernelRun_A c i arg2 harg2 arg3 harg3 arg4 harg4 arg5 harg5 arg6 harg6 arg7 harg7 arg8 harg8 arg9 harg9 hc1 hc2 x0 x1 x2 x3 x4 x5).2.1 S512x1.size (by sl_kernel_rfl) y

/-- What this case leaves in the pairs' buffer: its stores read back. -/
def out_A_7 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) : Vec F S512x1 .f32 :=
  VO7.read (Elt F) (VO7.writes (Elt F) VO7.junk (kernelRun_A c i arg2 harg2 arg3 harg3 arg4 harg4 arg5 harg5 arg6 harg6 arg7 harg7 arg8 harg8 arg9 harg9 hc1 hc2 x0 x1 x2 x3 x4 x5).2.1)

/-- The stores of this case into the denominators' buffer cover it. -/
theorem cover_B_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (y : S512x1.Idx) :
    ∃ pc ∈ (kernelRun_B c i arg2 harg2 arg3 harg3 arg4 harg4 arg5 harg5 arg6 harg6 arg7 harg7 arg8 harg8 arg9 harg9 hc1 hc2 x0 x1 x2 x3 x4 x5 xo6).1, y ∈ pc.1.set :=
  View.cover_of_tiledL (kernelRun_B c i arg2 harg2 arg3 harg3 arg4 harg4 arg5 harg5 arg6 harg6 arg7 harg7 arg8 harg8 arg9 harg9 hc1 hc2 x0 x1 x2 x3 x4 x5 xo6).1 S512x1.size (by sl_kernel_rfl) y

/-- What this case leaves in the denominators' buffer: its stores read back. -/
def out_B_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) : Vec F S512x1 .f32 :=
  VO6.read (Elt F) (VO6.writes (Elt F) VO6.junk (kernelRun_B c i arg2 harg2 arg3 harg3 arg4 harg4 arg5 harg5 arg6 harg6 arg7 harg7 arg8 harg8 arg9 harg9 hc1 hc2 x0 x1 x2 x3 x4 x5 xo6).1)

/-- The stores of this case into the denominators' buffer cover it. -/
theorem cover_C_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) (y : S512x1.Idx) :
    ∃ pc ∈ (kernelRun_C c i arg2 harg2 arg3 harg3 arg4 harg4 arg5 harg5 arg6 harg6 arg7 harg7 arg8 harg8 arg9 harg9 hc1 hc2 x0 x1 x2 x3 x4 x5 xo6 xo7).1, y ∈ pc.1.set :=
  View.cover_of_tiledL (kernelRun_C c i arg2 harg2 arg3 harg3 arg4 harg4 arg5 harg5 arg6 harg6 arg7 harg7 arg8 harg8 arg9 harg9 hc1 hc2 x0 x1 x2 x3 x4 x5 xo6 xo7).1 S512x1.size (by sl_kernel_rfl) y

/-- What this case leaves in the denominators' buffer: its stores read back. -/
def out_C_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) : Vec F S512x1 .f32 :=
  VO6.read (Elt F) (VO6.writes (Elt F) VO6.junk (kernelRun_C c i arg2 harg2 arg3 harg3 arg4 harg4 arg5 harg5 arg6 harg6 arg7 harg7 arg8 harg8 arg9 harg9 hc1 hc2 x0 x1 x2 x3 x4 x5 xo6 xo7).1)

/-- The stores of this case into the pairs' buffer cover it. -/
theorem cover_C_7 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) (y : S512x1.Idx) :
    ∃ pc ∈ (kernelRun_C c i arg2 harg2 arg3 harg3 arg4 harg4 arg5 harg5 arg6 harg6 arg7 harg7 arg8 harg8 arg9 harg9 hc1 hc2 x0 x1 x2 x3 x4 x5 xo6 xo7).2.1, y ∈ pc.1.set :=
  View.cover_of_tiledL (kernelRun_C c i arg2 harg2 arg3 harg3 arg4 harg4 arg5 harg5 arg6 harg6 arg7 harg7 arg8 harg8 arg9 harg9 hc1 hc2 x0 x1 x2 x3 x4 x5 xo6 xo7).2.1 S512x1.size (by sl_kernel_rfl) y

/-- What this case leaves in the pairs' buffer: its stores read back. -/
def out_C_7 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) : Vec F S512x1 .f32 :=
  VO7.read (Elt F) (VO7.writes (Elt F) VO7.junk (kernelRun_C c i arg2 harg2 arg3 harg3 arg4 harg4 arg5 harg5 arg6 harg6 arg7 harg7 arg8 harg8 arg9 harg9 hc1 hc2 x0 x1 x2 x3 x4 x5 xo6 xo7).2.1)

/-! ## The cases at a grid point -/

def outA6At (c : Dev nD) (t : Fin cfg0.N) (h0 : t.val % 16 = 0) : Vec F S512x1 .f32 := out_A_6 c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond1 t).mpr h0) (fun h => by have := (hcond2 t).mp h; omega) (iblk m c 0 t) (iblk m c 1 t) (iblk m c 2 t) (iblk m c 3 t) (iblk m c 4 t) (iblk m c 5 t)
def outA7At (c : Dev nD) (t : Fin cfg0.N) (h0 : t.val % 16 = 0) : Vec F S512x1 .f32 := out_A_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond1 t).mpr h0) (fun h => by have := (hcond2 t).mp h; omega) (iblk m c 0 t) (iblk m c 1 t) (iblk m c 2 t) (iblk m c 3 t) (iblk m c 4 t) (iblk m c 5 t)
def outB6At (c : Dev nD) (t : Fin cfg0.N) (h0 : ¬t.val % 16 = 0) (h1 : ¬t.val % 16 = t.val / 16 + 8) (xo6 : Vec F S512x1 .f32) : Vec F S512x1 .f32 := out_B_6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) (fun h => h1 ((hcond2 t).mp h)) (iblk m c 0 t) (iblk m c 1 t) (iblk m c 2 t) (iblk m c 3 t) (iblk m c 4 t) (iblk m c 5 t) xo6
def outC6At (c : Dev nD) (t : Fin cfg0.N) (h0 : ¬t.val % 16 = 0) (h1 : t.val % 16 = t.val / 16 + 8) (xo6 xo7 : Vec F S512x1 .f32) : Vec F S512x1 .f32 := out_C_6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) ((hcond2 t).mpr h1) (iblk m c 0 t) (iblk m c 1 t) (iblk m c 2 t) (iblk m c 3 t) (iblk m c 4 t) (iblk m c 5 t) xo6 xo7
def outC7At (c : Dev nD) (t : Fin cfg0.N) (h0 : ¬t.val % 16 = 0) (h1 : t.val % 16 = t.val / 16 + 8) (xo6 xo7 : Vec F S512x1 .f32) : Vec F S512x1 .f32 := out_C_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) ((hcond2 t).mpr h1) (iblk m c 0 t) (iblk m c 1 t) (iblk m c 2 t) (iblk m c 3 t) (iblk m c 4 t) (iblk m c 5 t) xo6 xo7

/-! ## What the two outputs' buffers hold after each point -/

/-- The denominators' and the pairs' staging buffers after the body at point `n`: at a first column tile both reset and
    the tile added; at the tile eight to the right of the row tile both added to; elsewhere the denominators added to and
    the pairs as the point before left them. -/
def outsAt (c : Dev nD) : (n : ℕ) → n < cfg0.N → Vec F S512x1 .f32 × Vec F S512x1 .f32
  | 0, hn => (outA6At m c ⟨0, hn⟩ (Nat.zero_mod _), outA7At m c ⟨0, hn⟩ (Nat.zero_mod _))
  | n + 1, hn =>
    if h0 : (n + 1) % 16 = 0 then (outA6At m c ⟨n + 1, hn⟩ h0, outA7At m c ⟨n + 1, hn⟩ h0)
    else if h1 : (n + 1) % 16 = (n + 1) / 16 + 8 then
      (outC6At m c ⟨n + 1, hn⟩ h0 h1 (outsAt c n (Nat.lt_of_succ_lt hn)).1 (outsAt c n (Nat.lt_of_succ_lt hn)).2,
       outC7At m c ⟨n + 1, hn⟩ h0 h1 (outsAt c n (Nat.lt_of_succ_lt hn)).1 (outsAt c n (Nat.lt_of_succ_lt hn)).2)
    else (outB6At m c ⟨n + 1, hn⟩ h0 h1 (outsAt c n (Nat.lt_of_succ_lt hn)).1, (outsAt c n (Nat.lt_of_succ_lt hn)).2)

theorem outsAt_A (c : Dev nD) (t : Fin cfg0.N) (h0 : t.val % 16 = 0) :
    outsAt m c t.val t.isLt = (outA6At m c t h0, outA7At m c t h0) := by
  obtain ⟨n, hn⟩ := t
  cases n with
  | zero => exact rfl
  | succ n => exact (dif_pos h0).trans rfl

theorem outsAt_C (c : Dev nD) (t : Fin cfg0.N) (h0 : ¬t.val % 16 = 0) (h1 : t.val % 16 = t.val / 16 + 8) :
    outsAt m c t.val t.isLt
      = (outC6At m c t h0 h1 (outsAt m c (t.val - 1) (Nat.lt_of_le_of_lt (Nat.sub_le _ _) t.isLt)).1 (outsAt m c (t.val - 1) (Nat.lt_of_le_of_lt (Nat.sub_le _ _) t.isLt)).2,
         outC7At m c t h0 h1 (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

theorem outsAt_B (c : Dev nD) (t : Fin cfg0.N) (h0 : ¬t.val % 16 = 0) (h1 : ¬t.val % 16 = t.val / 16 + 8) :
    outsAt m c t.val t.isLt
      = (outB6At m c t h0 h1 (outsAt m c (t.val - 1) (Nat.lt_of_le_of_lt (Nat.sub_le _ _) t.isLt)).1,
         (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-! ## The pipeline's proof data -/

/-- The arrays as the region finds them; after the body each input's buffer at its block, the outputs' at `outsAt`; the
    array the two row-block windows share held by each at one half; nothing owed; the invariant the scoped rest (empty). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Off a first column tile the denominators' buffer holds what the point before left: it is written back only after a
    last column tile. -/
theorem before6 (c : Dev nD) (t : Fin cfg0.N) (h0 : ¬t.val % 16 = 0) (d) :
    (dats m 0 c).before 6 t d = (outsAt m c (t.val - 1) (Nat.lt_of_le_of_lt (Nat.sub_le _ _) t.isLt)).1 := by
  have hN : t.val < 256 := lt_of_lt_of_eq t.isLt (show cfg0.N = 256 from N_0)
  rw [Dat.before_out_kept _ 6 rfl t (by omega) (Bool.eq_false_iff.mpr fun h => by have := (flush0_6 _).mp h; dsimp only at this; omega)
    (fun _ => rfl) (fun _ _ => rfl)]
  dsimp only [dats]

/-- What a live point leaves in the pairs' buffer is what the next point finds (the window's blocks are whole). -/
theorem kept7 (c : Dev nD) (t : Fin cfg0.N) (d) : (dats m 0 c).kept 7 t d = (dats m 0 c).after 7 t := by
  unfold Dat.kept
  rw [Pipeline.fill_of_clip_none (7 : Fin cfg0.W) _ (fun _ => rfl) d ((dats m 0 c).after 7 t), Window.fill_cut]

/-- Off a first column tile the pairs' buffer holds what `outsAt` says of the point before: through a stretch of idle
    points the buffer is not touched, and `outsAt`'s second component does not change. -/
theorem before7_aux (c : Dev nD) : ∀ (n : ℕ) (hn : n < cfg0.N), ¬n % 16 = 0 → ∀ d,
    (dats m 0 c).before 7 ⟨n, hn⟩ d = (outsAt m c (n - 1) (Nat.lt_of_le_of_lt (Nat.sub_le _ _) hn)).2
  | 0, _, h, _ => absurd (Nat.zero_mod _) h
  | n + 1, hn, h, d => by
    have hN : n + 1 < 256 := lt_of_lt_of_eq hn (show cfg0.N = 256 from N_0)
    have hn' : n < cfg0.N := Nat.lt_of_succ_lt hn
    rw [Dat.before_of_pos _ 7 ⟨n + 1, hn⟩ (Nat.succ_ne_zero n) ((cfg0.win 7).fetch_out rfl _)]
    have hfl : (cfg0.win 7).flush ⟨n + 1 - 1, Nat.lt_of_le_of_lt (Nat.sub_le _ _) hn⟩ = false :=
      Bool.eq_false_iff.mpr fun h' => by have := (flush0_7 _).mp h'; dsimp only at this; omega
    rw [hfl, if_neg Bool.false_ne_true]
    show (dats m 0 c).left 7 ⟨n, hn'⟩ d = (outsAt m c n hn').2
    unfold Dat.left
    by_cases hA : n % 16 = 0
    · rw [liveAt0_7_A ⟨n, hn'⟩ hA]; dsimp only; rw [kept7, after7]
    · by_cases hC : n % 16 = n / 16 + 8
      · rw [liveAt0_7_C ⟨n, hn'⟩ hC]; dsimp only; rw [kept7, after7]
      · rw [idleAt0_7 ⟨n, hn'⟩ hA hC]; dsimp only
        rw [before7_aux c n hn' hA d, outsAt_B m c ⟨n, hn'⟩ hA hC]

theorem before7 (c : Dev nD) (t : Fin cfg0.N) (h0 : ¬t.val % 16 = 0) (d) :
    (dats m 0 c).before 7 t d = (outsAt m c (t.val - 1) (Nat.lt_of_le_of_lt (Nat.sub_le _ _) t.isLt)).2 :=
  before7_aux m c t.val t.isLt h0 d

end Cert.Kernel.Frame

end
-- ==== Proof.KBBody.lean ====
/-
  The body obligation of the pipeline: at every grid point, from each window's staging buffer at what it then holds, the
  kernel body runs and leaves every buffer at what the proof data names. The closed forms of the two conditions say which
  case the point is in; the inputs' buffers hold their blocks, the outputs' what the point before left; where the pairs'
  window is idle its buffer is handed back as found (and, after a last column tile, that is what is written back).
-/
import proofs.«107719_j5016521802072_1_alg».proof.Proof.KBOuts

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [liveAt0_0 t]]
  rw [show (dats m 0 c).leavesExact 1 t = owns (c : Thread nD τ) (ms1 t) fullShare ((dats m 0 c).after 1 t) from by
    unfold Dat.leavesExact; rw [liveAt0_1 t]]
  rw [show (dats m 0 c).leavesExact 2 t = owns (c : Thread nD τ) (ms2 t) fullShare ((dats m 0 c).after 2 t) from by
    unfold Dat.leavesExact; rw [liveAt0_2 t]]
  rw [show (dats m 0 c).leavesExact 3 t = owns (c : Thread nD τ) (ms3 t) fullShare ((dats m 0 c).after 3 t) from by
    unfold Dat.leavesExact; rw [liveAt0_3 t]]
  rw [show (dats m 0 c).leavesExact 4 t = owns (c : Thread nD τ) (ms4 t) fullShare ((dats m 0 c).after 4 t) from by
    unfold Dat.leavesExact; rw [liveAt0_4 t]]
  rw [show (dats m 0 c).leavesExact 5 t = owns (c : Thread nD τ) (ms5 t) fullShare ((dats m 0 c).after 5 t) from by
    unfold Dat.leavesExact; rw [liveAt0_5 t]]
  rw [show (dats m 0 c).leavesExact 6 t = owns (c : Thread nD τ) (ms6 t) fullShare ((dats m 0 c).after 6 t) from by
    unfold Dat.leavesExact; rw [liveAt0_6 t]]
  rw [after0, after1, after2, after3, after4, after5, after6]
  have hN : t.val < 256 := lt_of_lt_of_eq t.isLt (show cfg0.N = 256 from N_0)
  by_cases h0 : t.val % 16 = 0
  · rw [show (dats m 0 c).leavesExact 7 t = owns (c : Thread nD τ) (ms7 t) fullShare ((dats m 0 c).after 7 t) from by
      unfold Dat.leavesExact; rw [liveAt0_7_A t h0], after7, outsAt_A m c t h0]
    unfold outA6At outA7At out_A_6 out_A_7
    (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun_A c (grid0.coords t) _ _ _ _ _ _ _ _ _ _ _ _ _ _ _ _ ((hcond1 t).mpr h0) (fun h => by have := (hcond2 t).mp h; omega) (iblk m c 0 t) (iblk m c 1 t) (iblk m c 2 t) (iblk m c 3 t) (iblk m c 4 t) (iblk m c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover_A_6 (F := F) c _ _ _ _ _ _ _ _ _ _ _ _ _ _ _ _ _ _ _ _ _ _ _ _ _)
    unfold owns; iexists _; isplitr
    swap; · iexact H7
    ipureintro; exact View.read_writes_of_cover _ _ _ _ _ (cover_A_7 (F := F) c _ _ _ _ _ _ _ _ _ _ _ _ _ _ _ _ _ _ _ _ _ _ _ _ _)
  · simp only [before6 m c t h0]
    by_cases h1 : t.val % 16 = t.val / 16 + 8
    · rw [show (dats m 0 c).leavesExact 7 t = owns (c : Thread nD τ) (ms7 t) fullShare ((dats m 0 c).after 7 t) from by
        unfold Dat.leavesExact; rw [liveAt0_7_C t h1], after7, outsAt_C m c t h0 h1]
      simp only [before7 m c t h0]
      unfold outC6At outC7At out_C_6 out_C_7
      (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_C c (grid0.coords t) _ _ _ _ _ _ _ _ _ _ _ _ _ _ _ _ (fun h => h0 ((hcond1 t).mp h)) ((hcond2 t).mpr h1) (iblk m c 0 t) (iblk m c 1 t) (iblk m c 2 t) (iblk m c 3 t) (iblk m c 4 t) (iblk m c 5 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover_C_6 (F := F) c _ _ _ _ _ _ _ _ _ _ _ _ _ _ _ _ _ _ _ _ _ _ _ _ _ _ _)
      unfold owns; iexists _; isplitr
      swap; · iexact H7
      ipureintro; exact View.read_writes_of_cover _ _ _ _ _ (cover_C_7 (F := F) c _ _ _ _ _ _ _ _ _ _ _ _ _ _ _ _ _ _ _ _ _ _ _ _ _ _ _)
    · rw [outsAt_B m c t h0 h1]
      unfold outB6At out_B_6
      by_cases hf : t.val % 16 = 15
      · rw [show (dats m 0 c).leavesExact 7 t = owns (c : Thread nD τ) (ms7 t) fullShare ((dats m 0 c).after 7 t) from by
          unfold Dat.leavesExact; rw [idleAt0_7 t h0 h1, (flush7_iff t).mpr hf], after7, outsAt_B m c t h0 h1]
        simp only [before7 m c t h0]
        (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_B c (grid0.coords t) _ _ _ _ _ _ _ _ _ _ _ _ _ _ _ _ (fun h => h0 ((hcond1 t).mp h)) (fun h => h1 ((hcond2 t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover_B_6 (F := F) c _ _ _ _ _ _ _ _ _ _ _ _ _ _ _ _ _ _ _ _ _ _ _ _ _ _)
        iexact H7
      · rw [Dat.leavesExact_idle (dats m 0 c) 7 t (idleAt0_7 t h0 h1) (Bool.eq_false_iff.mpr fun h => hf ((flush7_iff t).mp h))]
        (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_B c (grid0.coords t) _ _ _ _ _ _ _ _ _ _ _ _ _ _ _ _ (fun h => h0 ((hcond1 t).mp h)) (fun h => h1 ((hcond2 t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover_B_6 (F := F) c _ _ _ _ _ _ _ _ _ _ _ _ _ _ _ _ _ _ _ _ _ _ _ _ _ _)
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.LibFrameSharedTail.lean ====
/-
  The frame run of a one-region pipeline kernel that is handed ONE array through SEVERAL input windows, carries an
  invariant of its own from grid point to grid point (a scratch accumulator), and is followed in @main by lines of
  host operations.

  When two input windows stage blocks of one array, the array's buffer is dealt among the windows at the region's
  entry (hsplit) and collected again at its exit (hjoin): between the two the pipeline holds one share per window.
  The lines after the region run holding every unscoped buffer whole: the arrays as the region leaves them (the exit
  valuation E, which agrees with the entry contents off the arrays), everything else as the region found it. They
  write no array, so what they leave is dealt to the windows once more (hsplitN) for the pipeline's own bookkeeping,
  and the final state has every window's array at what the write-backs left there and every other unscoped buffer at
  what the lines computed from the exit valuation.
-/
import Idealize.ShloMosaic.Lib.Pipeline.FrameSuffix

noncomputable section

namespace Idealize.ShloMosaic.Pipeline

open Idealize.SL
open Idealize.SL.BI (sProp bigSep bigSep_map bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- What the frame run around a region with shared arrays concludes: every window's array at what the write-backs
    leave, every other unscoped buffer at what the lines after the region compute from the exit valuation. -/
def SharedPost (cfgs : P → Cfg sig Λ₀) (dats : (p : P) → (c : Dev nD) → Dat τ Val Unit ℕ (UR sig nD τ) ℕ (cfgs p) c) (p : P)
    (E : Dev nD → Valuation τ sig Val) (opss : List (List (HloOp τ sig Val))) (r : PUnit × MemSt nD τ sig Val) : Prop :=
  ∀ c : Dev nD, (∀ w, r.2.mem (((cfgs p).spec w).arr.view.loc (c.tc : Thread nD τ)) = (dats p c).arrAt w (cfgs p).N)
    ∧ ∀ b ∈ restRefs sig (cfgs p).spec, r.2.mem ((c.tc : Thread nD τ).loc b) = StableHlo.after opss.flatten (E c) (Proc.devRef .tc b)

set_option backward.isDefEq.respectTransparency.types false in
theorem θ_run_frame_shared_around (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄) ⊢ (dats p c).arrays ((dats p c).arrAt · 0))
    (E : Dev nD → Valuation τ sig Val)
    (hE : ∀ c, ∀ b ∈ restRefs sig (cfgs p).spec, E c (Proc.devRef .tc b) = V₀ c (Proc.devRef .tc b))
    (hjoin : ∀ c, ((dats p c).arrays ((dats p c).arrAt · (cfgs p).N) : sProp 𝕄) ⊢ arrBufs (cfgs p).spec c (fun b => E c (Proc.devRef .tc b)))
    (hsplitN : ∀ c, (arrBufs (cfgs p).spec c (fun b => E c (Proc.devRef .tc b)) : sProp 𝕄) ⊢ (dats p c).arrays ((dats p c).arrAt · (cfgs p).N))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (SharedPost cfgs dats p E opss) := by
  classical
  exact θ_run_region_noSem_pf_tail (fun q => (cfgs q).toPCfg) (fun q => (cfgs q).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (E c) (Proc.devRef .tc b)))
    (hX := fun c => by
      rw [unscopedRestP_none]
      iintro H
      isplitr
      · iempintro
      · iexact H)
    (hin := fun c => (show _ ⊢ (scopedRest (cfgs p).spec c : sProp 𝕄) from by iintro ⟨-, -, HR⟩; iexact HR).trans (hin c))
    (hout := fun c => (hout c).trans (by
      iintro H
      isplitr
      · iempintro
      · iexact H))
    (htail := fun c Q' => by
      have hEZ : (unscopedRest (Ix := Unit) (Name := ℕ) (U := UR sig nD τ) (Lvl := ℕ) (cfgs p).spec c (fun b => V₀ c (Proc.devRef .tc b)) : sProp 𝕄)
          = unscopedRest (cfgs p).spec c (fun b => E c (Proc.devRef .tc b)) := by
        unfold unscopedRest
        exact bigSep_congr fun b hb => by dsimp only; rw [hE c b hb]
      have hkeepA : (arrBufs (cfgs p).spec c (fun b => StableHlo.after opss.flatten (E c) (Proc.devRef .tc b)) : sProp 𝕄)
          = arrBufs (cfgs p).spec c (fun b => E c (Proc.devRef .tc b)) := by
        unfold arrBufs
        exact bigSep_congr fun b hb => by
          obtain ⟨w, -, rfl⟩ := Finset.mem_image.mp hb
          dsimp only
          rw [StableHlo.after_of_forall_not_mem _ _ fun op hop => ?_]
          obtain ⟨ops, hops, hop'⟩ := List.mem_flatten.mp hop
          exact hkeep ops hops op hop' w
      have hheld : ∀ Wv : Valuation τ sig Val,
          (StableHlo.held (c.tc : Thread nD τ) (ucRefs τ sig) Wv : sProp 𝕄)
            = iprop(arrBufs (cfgs p).spec c (fun b => Wv (Proc.devRef .tc b)) ∗ unscopedRest (cfgs p).spec c (fun b => Wv (Proc.devRef .tc b))) := fun Wv => by
        rw [← unscopedBufs_held (Ix := Unit) (Name := ℕ) (U := UR sig nD τ) (Lvl := ℕ) c Wv]
        exact unscopedBufs_split₀ cfgs p hw.arr_unscoped c _
      have h1 : iprop(boundary (c.tc : Thread nD τ) ∗ (dats p c).arrays ((dats p c).arrAt · (cfgs p).N)
            ∗ (unscopedRest (cfgs p).spec c (fun b => V₀ c (Proc.devRef .tc b)) : sProp 𝕄))
          ⊢ iprop(boundary (c.tc : Thread nD τ) ∗ (StableHlo.held (c.tc : Thread nD τ) (ucRefs τ sig) (E c) : sProp 𝕄)) := by
        rw [hheld (E c), hEZ]
        iintro ⟨Hb, HA, HZ⟩
        isplitl [Hb]
        · iexact Hb
        isplitl [HA]
        · iapply (hjoin c) $$ HA
        · iexact HZ
      have h2 : iprop(boundary (c.tc : Thread nD τ) ∗ (StableHlo.held (c.tc : Thread nD τ) (ucRefs τ sig) (StableHlo.after opss.flatten (E c)) : sProp 𝕄))
          ⊢ iprop((dats p c).arrays ((dats p c).arrAt · (cfgs p).N)
            ∗ (unscopedRest (cfgs p).spec c (fun b => StableHlo.after opss.flatten (E c) (Proc.devRef .tc b)) : sProp 𝕄)) := by
        rw [hheld, hkeepA]
        iintro ⟨-, HA, HZ⟩
        isplitl [HA]
        · iapply (hsplitN c) $$ HA
        · iexact HZ
      have h3 := wp_seqs_then (Ix := Unit) (Name := ℕ) (U := UR sig nD τ) (Lvl := ℕ) (fun q => Cfg.toPCfg (Val := Val) (cfgs q)) defs₀ 𝒱₀ c (ucRefs τ sig) [] (K := Q') opss
        (fun ops ho op h => sub_ucRefs op (hsub ops ho op h)) hfresh (E c)
      rw [chain_nil, wp_pure, List.append_nil] at h3
      iintro ⟨Hk, Hrest⟩
      ihave H := h1 $$ Hrest
      iapply h3 $$ H
      iintro H
      ihave H := h2 $$ H
      imodintro
      iapply Hk
      iexact H)
    (QY := fun c s => ∀ b ∈ restRefs sig (cfgs p).spec, s.mem ((c.tc : Thread nD τ).loc b) = StableHlo.after opss.flatten (E c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (E c) (Proc.devRef .tc b)) s')
      isplitl [HU] <;> iassumption)
    (hQ := fun s h c => ⟨(h c).1, (h c).2.2⟩)

end Idealize.ShloMosaic.Pipeline

end
-- ==== Proof.KBRun.lean ====
/-
  The frame run of this program. The two row-block windows stage one array: its buffer is dealt to them by halves at the
  region's entry and put together again at its exit. After the region the two result arrays hold what the write-backs
  left and every other buffer what the host lines before the region computed; the host lines after it run from there.
  So every weakly fair execution of @main terminates without a fault, each array a window stages ends at what the
  write-backs leave in it, and every other buffer at what the last host lines compute from the region's exit.
-/
import proofs.«107719_j5016521802072_1_alg».proof.Proof.KBBody
import proofs.«107719_j5016521802072_1_alg».proof.Proof.LibFrameSharedTail

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs restRefs SharedPost)

/-- The buffers' contents at the region's exit: the two result arrays as the write-backs leave them, everything else as
    the region found it. -/
def E (c : Dev nD) : Valuation τ sig (Elt F) := by
  classical
  exact Function.update (Function.update (V0 m c) (Proc.devRef .tc main_v9_0) ((dats m 0 c).arrAt 6 cfg0.N))
    (Proc.devRef .tc main_v9_1) ((dats m 0 c).arrAt 7 cfg0.N)

theorem E_of_ne (c : Dev nD) (b : Ref sig .tc) (h6 : b ≠ main_v9_0) (h7 : b ≠ main_v9_1) :
    E m c (Proc.devRef .tc b) = V m c b := by
  classical
  unfold E
  rw [Function.update_of_ne (fun h => h7 (Proc.devRef_injective _ h)), Function.update_of_ne (fun h => h6 (Proc.devRef_injective _ h))]

theorem E_v9_0 (c : Dev nD) : E m c (Proc.devRef .tc main_v9_0) = (dats m 0 c).arrAt 6 cfg0.N := by
  classical
  unfold E
  rw [Function.update_of_ne (fun h => absurd (Proc.devRef_injective _ h) (by decide)), Function.update_self]

theorem E_v9_1 (c : Dev nD) : E m c (Proc.devRef .tc main_v9_1) = (dats m 0 c).arrAt 7 cfg0.N := by
  classical
  unfold E
  rw [Function.update_self]

theorem hE (c : Dev nD) : ∀ b ∈ restRefs sig spec0, E m c (Proc.devRef .tc b) = V0 m c (Proc.devRef .tc b) := by
  intro b hb
  have hb' : b ∉ Finset.univ.image (Pipeline.arrRef spec0) := (Finset.mem_sdiff.mp hb).2
  exact E_of_ne m c b (fun h => hb' (h ▸ Finset.mem_image.mpr ⟨6, Finset.mem_univ _, rfl⟩))
    (fun h => hb' (h ▸ Finset.mem_image.mpr ⟨7, Finset.mem_univ _, rfl⟩))

/-- The arrays behind the windows are seven buffers. -/
theorem arrRefs_eq : Finset.univ.image (Pipeline.arrRef spec0) = ([main_v4, main_v5, main_v7, main_v6, main_v8, main_v9_0, main_v9_1] : List (Ref sig .tc)).toFinset := by decide

/-- The buffers behind the windows' arrays, one by one. -/
theorem arrBufs_chain (c : Dev nD) (W : (b : Ref sig .tc) → Buf (Elt F) ((c.tc : Thread nD τ).loc b)) :
    (arrBufs spec0 c W : sProp 𝕄)
      = iprop((((c.tc : Thread nD τ).loc main_v4) ↦{fullShare} W main_v4) ∗ (((c.tc : Thread nD τ).loc main_v5) ↦{fullShare} W main_v5) ∗ (((c.tc : Thread nD τ).loc main_v7) ↦{fullShare} W main_v7)
          ∗ (((c.tc : Thread nD τ).loc main_v6) ↦{fullShare} W main_v6) ∗ (((c.tc : Thread nD τ).loc main_v8) ↦{fullShare} W main_v8)
          ∗ (((c.tc : Thread nD τ).loc main_v9_0) ↦{fullShare} W main_v9_0) ∗ (((c.tc : Thread nD τ).loc main_v9_1) ↦{fullShare} W main_v9_1)) := by
  unfold Pipeline.arrBufs
  exact bigSep_eq_bigSepL_of_eq [main_v4, main_v5, main_v7, main_v6, main_v8, main_v9_0, main_v9_1] arrRefs_eq (by decide) _

set_option maxHeartbeats 1000000 in
/-- The windows' arrays as the pipeline holds them, one by one: the shared array by halves. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_v4) ↦{fullShare.left} G 0) ∗ (((c.tc : Thread nD τ).loc main_v4) ↦{fullShare.right} G 1) ∗ (((c.tc : Thread nD τ).loc main_v5) ↦{fullShare} G 2)
          ∗ (((c.tc : Thread nD τ).loc main_v7) ↦{fullShare} G 3) ∗ (((c.tc : Thread nD τ).loc main_v6) ↦{fullShare} G 4) ∗ (((c.tc : Thread nD τ).loc main_v8) ↦{fullShare} G 5)
          ∗ (((c.tc : Thread nD τ).loc main_v9_0) ↦{fullShare} G 6) ∗ (((c.tc : Thread nD τ).loc main_v9_1) ↦{fullShare} G 7)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

set_option maxHeartbeats 1000000 in
/-- At the region's entry: the shared array dealt by halves, every other array handed whole to its one window. -/
theorem hsplit (c : Dev nD) : (arrBufs spec0 c (V m c) : sProp 𝕄) ⊢ (dats m 0 c).arrays ((dats m 0 c).arrAt · 0) := by
  rw [arrBufs_chain, arrays_chain]
  iintro ⟨H4, H5, H7, H6, H8, H90, H91⟩
  ihave H4 := (pointsTo_share (PosShare.mem_left_op_right _)).1 $$ H4
  icases H4 with ⟨H4l, H4r⟩
  isplitl [H4l]; · iexact H4l
  isplitl [H4r]; · iexact H4r
  isplitl [H5]; · iexact H5
  isplitl [H7]; · iexact H7
  isplitl [H6]; · iexact H6
  isplitl [H8]; · iexact H8
  isplitl [H90]; · iexact H90
  iexact H91

/-- What the read-only windows' arrays hold after the run is what they held. -/
theorem arrAt_in_eq (c : Dev nD) (n : ℕ) :
    (dats m 0 c).arrAt 0 n = V m c main_v4 ∧ (dats m 0 c).arrAt 1 n = V m c main_v4 ∧ (dats m 0 c).arrAt 2 n = V m c main_v5
      ∧ (dats m 0 c).arrAt 3 n = V m c main_v7 ∧ (dats m 0 c).arrAt 4 n = V m c main_v6 ∧ (dats m 0 c).arrAt 5 n = V m c main_v8 :=
  ⟨((dats m 0 c).arrAt_in 0 rfl n).trans (A_eq m c 0), ((dats m 0 c).arrAt_in 1 rfl n).trans (A_eq m c 1),
   ((dats m 0 c).arrAt_in 2 rfl n).trans (A_eq m c 2), ((dats m 0 c).arrAt_in 3 rfl n).trans (A_eq m c 3),
   ((dats m 0 c).arrAt_in 4 rfl n).trans (A_eq m c 4), ((dats m 0 c).arrAt_in 5 rfl n).trans (A_eq m c 5)⟩

set_option maxHeartbeats 1000000 in
/-- At the region's exit the two halves of the shared array are put together again, -/
theorem hjoin (c : Dev nD) : ((dats m 0 c).arrays ((dats m 0 c).arrAt · cfg0.N) : sProp 𝕄) ⊢ arrBufs spec0 c (fun b => E m c (Proc.devRef .tc b)) := by
  rw [arrBufs_chain, arrays_chain]
  obtain ⟨e0, e1, e2, e3, e4, e5⟩ := arrAt_in_eq m c cfg0.N
  iintro ⟨H0, H1, H2, H3, H4, H5, H6, H7⟩
  isplitl [H0 H1]
  · rw [E_of_ne m c main_v4 (by decide) (by decide)]
    iapply (pointsTo_share (PosShare.mem_left_op_right _)).2
    isplitl [H0]
    · rw [← e0]; iexact H0
    · rw [← e1]; iexact H1
  isplitl [H2]; · rw [E_of_ne m c main_v5 (by decide) (by decide), ← e2]; iexact H2
  isplitl [H3]; · rw [E_of_ne m c main_v7 (by decide) (by decide), ← e3]; iexact H3
  isplitl [H4]; · rw [E_of_ne m c main_v6 (by decide) (by decide), ← e4]; iexact H4
  isplitl [H5]; · rw [E_of_ne m c main_v8 (by decide) (by decide), ← e5]; iexact H5
  isplitl [H6]; · rw [E_v9_0]; iexact H6
  rw [E_v9_1]; iexact H7

set_option maxHeartbeats 1000000 in
/-- and dealt once more after the last host lines, which write none of them. -/
theorem hsplitN (c : Dev nD) : (arrBufs spec0 c (fun b => E m c (Proc.devRef .tc b)) : sProp 𝕄) ⊢ (dats m 0 c).arrays ((dats m 0 c).arrAt · cfg0.N) := by
  rw [arrBufs_chain, arrays_chain]
  obtain ⟨e0, e1, e2, e3, e4, e5⟩ := arrAt_in_eq m c cfg0.N
  iintro ⟨H4, H5, H7, H6, H8, H90, H91⟩
  ihave H4 := (pointsTo_share (PosShare.mem_left_op_right _)).1 $$ H4
  icases H4 with ⟨H4l, H4r⟩
  isplitl [H4l]; · rw [e0, ← E_of_ne m c main_v4 (by decide) (by decide)]; iexact H4l
  isplitl [H4r]; · rw [e1, ← E_of_ne m c main_v4 (by decide) (by decide)]; iexact H4r
  isplitl [H5]; · rw [e2, ← E_of_ne m c main_v5 (by decide) (by decide)]; iexact H5
  isplitl [H7]; · rw [e3, ← E_of_ne m c main_v7 (by decide) (by decide)]; iexact H7
  isplitl [H6]; · rw [e4, ← E_of_ne m c main_v6 (by decide) (by decide)]; iexact H6
  isplitl [H8]; · rw [e5, ← E_of_ne m c main_v8 (by decide) (by decide)]; iexact H8
  isplitl [H90]; · rw [← E_v9_0]; iexact H90
  rw [← E_v9_1]; iexact H91

/-! ## The run and the frame -/

set_option backward.isDefEq.respectTransparency.types false in
/-- Every weakly fair execution of @main terminates without a fault; each array a window stages ends at what the
    write-backs leave in it, and every other buffer at what the last host lines compute from the region's exit. -/
theorem run_main : θ_run defs (onTc (τ := τ) (main (F := F))) (s₀ m ρ) (SharedPost cfgs (dats m) 0 (E m) [hostOps1]) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V₀ := V0 m) (opss := [hostOps1])
    (hsub := sfx_sub) (hfresh := sfx_fresh) (hkeep := sfx_keeps) (hmain := hmain m Variants.none)
    (hsplit := hsplit m) (E := E m) (hE := hE m) (hjoin := hjoin m) (hsplitN := hsplitN m)
    (hin := fun c => Idealize.SL.BI.Entails.refl _) (hout := fun c => Idealize.SL.BI.Entails.refl _)

/-- The two argument arrays are written by no host line: after the run they hold what they held. -/
theorem tail_arg0 (c : Dev nD) : StableHlo.after (List.flatten [hostOps1]) (E m c) (Proc.devRef .tc main_arg0) = m ((c.tc : Thread nD τ).loc main_arg0) := by
  show StableHlo.after hostOps1 (E m c) (Proc.devRef .tc main_arg0) = _
  after_results
  rw [E_of_ne m c main_arg0 (by decide) (by decide)]
  show StableHlo.after (List.flatten [hostOps0, hostOps0_1, hostOps0_2]) (fun b => m (c, b)) (Proc.devRef .tc main_arg0) = _
  simp only [hostOps0, hostOps0_1, hostOps0_2, List.flatten_cons, List.flatten_nil, List.append_nil, List.cons_append, List.nil_append]
  after_results
  try rfl
theorem tail_arg1 (c : Dev nD) : StableHlo.after (List.flatten [hostOps1]) (E m c) (Proc.devRef .tc main_arg1) = m ((c.tc : Thread nD τ).loc main_arg1) := by
  show StableHlo.after hostOps1 (E m c) (Proc.devRef .tc main_arg1) = _
  after_results
  rw [E_of_ne m c main_arg1 (by decide) (by decide)]
  show StableHlo.after (List.flatten [hostOps0, hostOps0_1, hostOps0_2]) (fun b => m (c, b)) (Proc.devRef .tc main_arg1) = _
  simp only [hostOps0, hostOps0_1, hostOps0_2, List.flatten_cons, List.flatten_nil, List.append_nil, List.cons_append, List.nil_append]
  after_results
  try rfl

/-- THE FRAME: the program runs to its end from any memory and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (tail_arg0 m c),
     ((h c).2 main_arg1 (Pipeline.mem_restRefs_of main_arg1 (by decide) (by decide))).trans (tail_arg1 m c)⟩) (run_main m ρ)

end Cert.Kernel.Frame

end
-- ==== Proof.KIBase.lean ====
/-
  What the frame of this program is stated over: @main as the host lines before the region, the region and the host
  lines after it; each window's block at a grid point; the two conditions of the body decided over the 16 x 16 grid
  (point t is row tile t / 16, column tile t % 16); where the pairs' window is idle; the staging memrefs at a point.
-/
import proofs.«107719_j5016521802072_1_alg».proof.Proof.Gen.KernelIdeal.Launch
import proofs.«107719_j5016521802072_1_alg».proof.Proof.Gen.KernelIdeal.Skeleton
import proofs.«107719_j5016521802072_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- The core's buffer contents when the region is entered, as a valuation: after the host lines before it (the two
    arrays joined, the rows' squared norms, their clipped values, and the re-laid copies the windows stage). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The lines after the region touch TensorCore buffers only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the arrays the windows stage (each writes only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- The first `pl.when` (reset the accumulators) holds where the column tile is the first. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
/-- The second (add the tile's diagonal to the pairs) holds where the column tile is eight to the right of the row tile. -/
theorem hcond2 : ∀ t : Fin cfg0.N, k0_cond2 (grid0.coords t) = 1#1 ↔ t.val % 16 = t.val / 16 + 8 :=
  (by decide +kernel : ∀ t : Fin grid0.N, k0_cond2 (grid0.coords t) = 1#1 ↔ t.val % 16 = t.val / 16 + 8)

/-! ## Where the pairs' window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- The pairs' window is idle exactly where neither condition holds. -/
theorem idleAt0_7 : ∀ t : Fin cfg0.N, ¬t.val % 16 = 0 → ¬t.val % 16 = t.val / 16 + 8 → cfg0.idle 7 (grid0.coords t) = true := by decide +kernel
theorem liveAt0_7_A : ∀ t : Fin cfg0.N, t.val % 16 = 0 → cfg0.idle 7 (grid0.coords t) = false := by decide +kernel
theorem liveAt0_7_C : ∀ t : Fin cfg0.N, t.val % 16 = t.val / 16 + 8 → cfg0.idle 7 (grid0.coords t) = false := by decide +kernel
/-- The outputs' blocks are written back after the last column tile of each row tile, and only there. -/
theorem flush6_iff : ∀ t : Fin cfg0.N, (cfg0.win 6).flush t = true ↔ t.val % 16 = 15 := flush0_6
theorem flush7_iff : ∀ t : Fin cfg0.N, (cfg0.win 7).flush t = true ↔ t.val % 16 = 15 := flush0_7

/-! ## The staging memrefs at a point -/

abbrev VO6 : View sig .tc .vmem S512x1 .f32 := (Memref.whole cc0_stg6_0 : Memref sig .tc .vmem S512x1 .f32).view
abbrev VO7 : View sig .tc .vmem S512x1 .f32 := (Memref.whole cc0_stg7_0 : Memref sig .tc .vmem S512x1 .f32).view
abbrev ms0 (t : Fin cfg0.N) : Memref sig .tc .vmem S512x8 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x8 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1 .f32 := win0_7.stage (cfg0.slots t 7)
abbrev hs7 (t : Fin cfg0.N) : (ms7 t).IsWhole := hstage0_7 ((cfg0.slots t 7).cast nbuf0_7)

end Cert.KernelIdeal.Frame

end
-- ==== Proof.KIRunA.lean ====
/-
  The kernel body run where the column tile is the first: both accumulators are reset, then the tile's row sums are added to the denominators.
  On whole staging memrefs, the inputs' at their blocks, the body runs to its end holding the inputs' as they were and
  each output's buffer with the stores it made written, in order (last first); the list of stores is what the run finds.
-/
import proofs.«107719_j5016521802072_1_alg».proof.Proof.KIBase

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_A (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) :
    Σ' (L6 : List (View.Piece (Elt F) S512x1 .f32)), { L7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__poincare_block_kernel i arg2 harg2 arg3 harg3 arg4 harg4 arg5 harg5 arg6 harg6 arg7 harg7 arg8 harg8 arg9 harg9) K } := by
  refine ⟨?_, ?_, fun E K => ?run⟩
  case run =>
    simp only [cc0__poincare_block_kernel_eq_skeleton]; unfold cc0__poincare_block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    iexists _; iexact H9

end Cert.KernelIdeal.Frame

end
-- ==== Proof.KIRunB.lean ====
/-
  The kernel body run where neither condition holds: the tile's row sums are added to the denominators, the pairs' buffer is not touched.
  On whole staging memrefs, the inputs' at their blocks, the body runs to its end holding the inputs' as they were and
  each output's buffer with the stores it made written, in order (last first); the list of stores is what the run finds.
-/
import proofs.«107719_j5016521802072_1_alg».proof.Proof.KIRunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_B (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) :
    { L6 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__poincare_block_kernel i arg2 harg2 arg3 harg3 arg4 harg4 arg5 harg5 arg6 harg6 arg7 harg7 arg8 harg8 arg9 harg9) K } := by
  refine ⟨?_, fun E K => ?run⟩
  case run =>
    simp only [cc0__poincare_block_kernel_eq_skeleton]; unfold cc0__poincare_block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H8

end Cert.KernelIdeal.Frame

end
-- ==== Proof.KIRunC.lean ====
/-
  The kernel body run where the column tile is eight to the right of the row tile: the tile's row sums are added to the denominators and its diagonal to the pairs.
  On whole staging memrefs, the inputs' at their blocks, the body runs to its end holding the inputs' as they were and
  each output's buffer with the stores it made written, in order (last first); the list of stores is what the run finds.
-/
import proofs.«107719_j5016521802072_1_alg».proof.Proof.KIRunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_C (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) :
    Σ' (L6 : List (View.Piece (Elt F) S512x1 .f32)), { L7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__poincare_block_kernel i arg2 harg2 arg3 harg3 arg4 harg4 arg5 harg5 arg6 harg6 arg7 harg7 arg8 harg8 arg9 harg9) K } := by
  refine ⟨?_, ?_, fun E K => ?run⟩
  case run =>
    simp only [cc0__poincare_block_kernel_eq_skeleton]; unfold cc0__poincare_block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg9.eq_unread hf9
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    iexists _; iexact H9

end Cert.KernelIdeal.Frame

end
-- ==== Proof.KIOuts.lean ====
/-
  What the kernel's two outputs hold point by point. Per case of the body's two conditions the stores into each output's
  staging buffer cover it, so the buffer's contents after the body are those stores read back; by recursion on the grid
  point this names the contents after every point; and what the body FINDS in each buffer at a point is its block for
  an input, and for an output what the point before left (the pairs' buffer through its idle stretches untouched).
-/
import proofs.«107719_j5016521802072_1_alg».proof.Proof.KIRunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores of this case into the denominators' buffer cover it. -/
theorem cover_A_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (y : S512x1.Idx) :
    ∃ pc ∈ (kernelRun_A c i arg2 harg2 arg3 harg3 arg4 harg4 arg5 harg5 arg6 harg6 arg7 harg7 arg8 harg8 arg9 harg9 hc1 hc2 x0 x1 x2 x3 x4 x5).1, y ∈ pc.1.set :=
  View.cover_of_tiledL (kernelRun_A c i arg2 harg2 arg3 harg3 arg4 harg4 arg5 harg5 arg6 harg6 arg7 harg7 arg8 harg8 arg9 harg9 hc1 hc2 x0 x1 x2 x3 x4 x5).1 S512x1.size (by sl_kernel_rfl) y

/-- What this case leaves in the denominators' buffer: its stores read back. -/
def out_A_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) : Vec F S512x1 .f32 :=
  VO6.read (Elt F) (VO6.writes (Elt F) VO6.junk (kernelRun_A c i arg2 harg2 arg3 harg3 arg4 harg4 arg5 harg5 arg6 harg6 arg7 harg7 arg8 harg8 arg9 harg9 hc1 hc2 x0 x1 x2 x3 x4 x5).1)

/-- The stores of this case into the pairs' buffer cover it. -/
theorem cover_A_7 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (y : S512x1.Idx) :
    ∃ pc ∈ (kernelRun_A c i arg2 harg2 arg3 harg3 arg4 harg4 arg5 harg5 arg6 harg6 arg7 harg7 arg8 harg8 arg9 harg9 hc1 hc2 x0 x1 x2 x3 x4 x5).2.1, y ∈ pc.1.set :=
  View.cover_of_tiledL (kernelRun_A c i arg2 harg2 arg3 harg3 arg4 harg4 arg5 harg5 arg6 harg6 arg7 harg7 arg8 harg8 arg9 harg9 hc1 hc2 x0 x1 x2 x3 x4 x5).2.1 S512x1.size (by sl_kernel_rfl) y

/-- What this case leaves in the pairs' buffer: its stores read back. -/
def out_A_7 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) : Vec F S512x1 .f32 :=
  VO7.read (Elt F) (VO7.writes (Elt F) VO7.junk (kernelRun_A c i arg2 harg2 arg3 harg3 arg4 harg4 arg5 harg5 arg6 harg6 arg7 harg7 arg8 harg8 arg9 harg9 hc1 hc2 x0 x1 x2 x3 x4 x5).2.1)

/-- The stores of this case into the denominators' buffer cover it. -/
theorem cover_B_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (y : S512x1.Idx) :
    ∃ pc ∈ (kernelRun_B c i arg2 harg2 arg3 harg3 arg4 harg4 arg5 harg5 arg6 harg6 arg7 harg7 arg8 harg8 arg9 harg9 hc1 hc2 x0 x1 x2 x3 x4 x5 xo6).1, y ∈ pc.1.set :=
  View.cover_of_tiledL (kernelRun_B c i arg2 harg2 arg3 harg3 arg4 harg4 arg5 harg5 arg6 harg6 arg7 harg7 arg8 harg8 arg9 harg9 hc1 hc2 x0 x1 x2 x3 x4 x5 xo6).1 S512x1.size (by sl_kernel_rfl) y

/-- What this case leaves in the denominators' buffer: its stores read back. -/
def out_B_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) : Vec F S512x1 .f32 :=
  VO6.read (Elt F) (VO6.writes (Elt F) VO6.junk (kernelRun_B c i arg2 harg2 arg3 harg3 arg4 harg4 arg5 harg5 arg6 harg6 arg7 harg7 arg8 harg8 arg9 harg9 hc1 hc2 x0 x1 x2 x3 x4 x5 xo6).1)

/-- The stores of this case into the denominators' buffer cover it. -/
theorem cover_C_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) (y : S512x1.Idx) :
    ∃ pc ∈ (kernelRun_C c i arg2 harg2 arg3 harg3 arg4 harg4 arg5 harg5 arg6 harg6 arg7 harg7 arg8 harg8 arg9 harg9 hc1 hc2 x0 x1 x2 x3 x4 x5 xo6 xo7).1, y ∈ pc.1.set :=
  View.cover_of_tiledL (kernelRun_C c i arg2 harg2 arg3 harg3 arg4 harg4 arg5 harg5 arg6 harg6 arg7 harg7 arg8 harg8 arg9 harg9 hc1 hc2 x0 x1 x2 x3 x4 x5 xo6 xo7).1 S512x1.size (by sl_kernel_rfl) y

/-- What this case leaves in the denominators' buffer: its stores read back. -/
def out_C_6 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) : Vec F S512x1 .f32 :=
  VO6.read (Elt F) (VO6.writes (Elt F) VO6.junk (kernelRun_C c i arg2 harg2 arg3 harg3 arg4 harg4 arg5 harg5 arg6 harg6 arg7 harg7 arg8 harg8 arg9 harg9 hc1 hc2 x0 x1 x2 x3 x4 x5 xo6 xo7).1)

/-- The stores of this case into the pairs' buffer cover it. -/
theorem cover_C_7 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) (y : S512x1.Idx) :
    ∃ pc ∈ (kernelRun_C c i arg2 harg2 arg3 harg3 arg4 harg4 arg5 harg5 arg6 harg6 arg7 harg7 arg8 harg8 arg9 harg9 hc1 hc2 x0 x1 x2 x3 x4 x5 xo6 xo7).2.1, y ∈ pc.1.set :=
  View.cover_of_tiledL (kernelRun_C c i arg2 harg2 arg3 harg3 arg4 harg4 arg5 harg5 arg6 harg6 arg7 harg7 arg8 harg8 arg9 harg9 hc1 hc2 x0 x1 x2 x3 x4 x5 xo6 xo7).2.1 S512x1.size (by sl_kernel_rfl) y

/-- What this case leaves in the pairs' buffer: its stores read back. -/
def out_C_7 (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) : Vec F S512x1 .f32 :=
  VO7.read (Elt F) (VO7.writes (Elt F) VO7.junk (kernelRun_C c i arg2 harg2 arg3 harg3 arg4 harg4 arg5 harg5 arg6 harg6 arg7 harg7 arg8 harg8 arg9 harg9 hc1 hc2 x0 x1 x2 x3 x4 x5 xo6 xo7).2.1)

/-! ## The cases at a grid point -/

def outA6At (c : Dev nD) (t : Fin cfg0.N) (h0 : t.val % 16 = 0) : Vec F S512x1 .f32 := out_A_6 c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond1 t).mpr h0) (fun h => by have := (hcond2 t).mp h; omega) (iblk m c 0 t) (iblk m c 1 t) (iblk m c 2 t) (iblk m c 3 t) (iblk m c 4 t) (iblk m c 5 t)
def outA7At (c : Dev nD) (t : Fin cfg0.N) (h0 : t.val % 16 = 0) : Vec F S512x1 .f32 := out_A_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond1 t).mpr h0) (fun h => by have := (hcond2 t).mp h; omega) (iblk m c 0 t) (iblk m c 1 t) (iblk m c 2 t) (iblk m c 3 t) (iblk m c 4 t) (iblk m c 5 t)
def outB6At (c : Dev nD) (t : Fin cfg0.N) (h0 : ¬t.val % 16 = 0) (h1 : ¬t.val % 16 = t.val / 16 + 8) (xo6 : Vec F S512x1 .f32) : Vec F S512x1 .f32 := out_B_6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) (fun h => h1 ((hcond2 t).mp h)) (iblk m c 0 t) (iblk m c 1 t) (iblk m c 2 t) (iblk m c 3 t) (iblk m c 4 t) (iblk m c 5 t) xo6
def outC6At (c : Dev nD) (t : Fin cfg0.N) (h0 : ¬t.val % 16 = 0) (h1 : t.val % 16 = t.val / 16 + 8) (xo6 xo7 : Vec F S512x1 .f32) : Vec F S512x1 .f32 := out_C_6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) ((hcond2 t).mpr h1) (iblk m c 0 t) (iblk m c 1 t) (iblk m c 2 t) (iblk m c 3 t) (iblk m c 4 t) (iblk m c 5 t) xo6 xo7
def outC7At (c : Dev nD) (t : Fin cfg0.N) (h0 : ¬t.val % 16 = 0) (h1 : t.val % 16 = t.val / 16 + 8) (xo6 xo7 : Vec F S512x1 .f32) : Vec F S512x1 .f32 := out_C_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond1 t).mp h)) ((hcond2 t).mpr h1) (iblk m c 0 t) (iblk m c 1 t) (iblk m c 2 t) (iblk m c 3 t) (iblk m c 4 t) (iblk m c 5 t) xo6 xo7

/-! ## What the two outputs' buffers hold after each point -/

/-- The denominators' and the pairs' staging buffers after the body at point `n`: at a first column tile both reset and
    the tile added; at the tile eight to the right of the row tile both added to; elsewhere the denominators added to and
    the pairs as the point before left them. -/
def outsAt (c : Dev nD) : (n : ℕ) → n < cfg0.N → Vec F S512x1 .f32 × Vec F S512x1 .f32
  | 0, hn => (outA6At m c ⟨0, hn⟩ (Nat.zero_mod _), outA7At m c ⟨0, hn⟩ (Nat.zero_mod _))
  | n + 1, hn =>
    if h0 : (n + 1) % 16 = 0 then (outA6At m c ⟨n + 1, hn⟩ h0, outA7At m c ⟨n + 1, hn⟩ h0)
    else if h1 : (n + 1) % 16 = (n + 1) / 16 + 8 then
      (outC6At m c ⟨n + 1, hn⟩ h0 h1 (outsAt c n (Nat.lt_of_succ_lt hn)).1 (outsAt c n (Nat.lt_of_succ_lt hn)).2,
       outC7At m c ⟨n + 1, hn⟩ h0 h1 (outsAt c n (Nat.lt_of_succ_lt hn)).1 (outsAt c n (Nat.lt_of_succ_lt hn)).2)
    else (outB6At m c ⟨n + 1, hn⟩ h0 h1 (outsAt c n (Nat.lt_of_succ_lt hn)).1, (outsAt c n (Nat.lt_of_succ_lt hn)).2)

theorem outsAt_A (c : Dev nD) (t : Fin cfg0.N) (h0 : t.val % 16 = 0) :
    outsAt m c t.val t.isLt = (outA6At m c t h0, outA7At m c t h0) := by
  obtain ⟨n, hn⟩ := t
  cases n with
  | zero => exact rfl
  | succ n => exact (dif_pos h0).trans rfl

theorem outsAt_C (c : Dev nD) (t : Fin cfg0.N) (h0 : ¬t.val % 16 = 0) (h1 : t.val % 16 = t.val / 16 + 8) :
    outsAt m c t.val t.isLt
      = (outC6At m c t h0 h1 (outsAt m c (t.val - 1) (Nat.lt_of_le_of_lt (Nat.sub_le _ _) t.isLt)).1 (outsAt m c (t.val - 1) (Nat.lt_of_le_of_lt (Nat.sub_le _ _) t.isLt)).2,
         outC7At m c t h0 h1 (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

theorem outsAt_B (c : Dev nD) (t : Fin cfg0.N) (h0 : ¬t.val % 16 = 0) (h1 : ¬t.val % 16 = t.val / 16 + 8) :
    outsAt m c t.val t.isLt
      = (outB6At m c t h0 h1 (outsAt m c (t.val - 1) (Nat.lt_of_le_of_lt (Nat.sub_le _ _) t.isLt)).1,
         (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-! ## The pipeline's proof data -/

/-- The arrays as the region finds them; after the body each input's buffer at its block, the outputs' at `outsAt`; the
    array the two row-block windows share held by each at one half; nothing owed; the invariant the scoped rest (empty). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Off a first column tile the denominators' buffer holds what the point before left: it is written back only after a
    last column tile. -/
theorem before6 (c : Dev nD) (t : Fin cfg0.N) (h0 : ¬t.val % 16 = 0) (d) :
    (dats m 0 c).before 6 t d = (outsAt m c (t.val - 1) (Nat.lt_of_le_of_lt (Nat.sub_le _ _) t.isLt)).1 := by
  have hN : t.val < 256 := lt_of_lt_of_eq t.isLt (show cfg0.N = 256 from N_0)
  rw [Dat.before_out_kept _ 6 rfl t (by omega) (Bool.eq_false_iff.mpr fun h => by have := (flush0_6 _).mp h; dsimp only at this; omega)
    (fun _ => rfl) (fun _ _ => rfl)]
  dsimp only [dats]

/-- What a live point leaves in the pairs' buffer is what the next point finds (the window's blocks are whole). -/
theorem kept7 (c : Dev nD) (t : Fin cfg0.N) (d) : (dats m 0 c).kept 7 t d = (dats m 0 c).after 7 t := by
  unfold Dat.kept
  rw [Pipeline.fill_of_clip_none (7 : Fin cfg0.W) _ (fun _ => rfl) d ((dats m 0 c).after 7 t), Window.fill_cut]

/-- Off a first column tile the pairs' buffer holds what `outsAt` says of the point before: through a stretch of idle
    points the buffer is not touched, and `outsAt`'s second component does not change. -/
theorem before7_aux (c : Dev nD) : ∀ (n : ℕ) (hn : n < cfg0.N), ¬n % 16 = 0 → ∀ d,
    (dats m 0 c).before 7 ⟨n, hn⟩ d = (outsAt m c (n - 1) (Nat.lt_of_le_of_lt (Nat.sub_le _ _) hn)).2
  | 0, _, h, _ => absurd (Nat.zero_mod _) h
  | n + 1, hn, h, d => by
    have hN : n + 1 < 256 := lt_of_lt_of_eq hn (show cfg0.N = 256 from N_0)
    have hn' : n < cfg0.N := Nat.lt_of_succ_lt hn
    rw [Dat.before_of_pos _ 7 ⟨n + 1, hn⟩ (Nat.succ_ne_zero n) ((cfg0.win 7).fetch_out rfl _)]
    have hfl : (cfg0.win 7).flush ⟨n + 1 - 1, Nat.lt_of_le_of_lt (Nat.sub_le _ _) hn⟩ = false :=
      Bool.eq_false_iff.mpr fun h' => by have := (flush0_7 _).mp h'; dsimp only at this; omega
    rw [hfl, if_neg Bool.false_ne_true]
    show (dats m 0 c).left 7 ⟨n, hn'⟩ d = (outsAt m c n hn').2
    unfold Dat.left
    by_cases hA : n % 16 = 0
    · rw [liveAt0_7_A ⟨n, hn'⟩ hA]; dsimp only; rw [kept7, after7]
    · by_cases hC : n % 16 = n / 16 + 8
      · rw [liveAt0_7_C ⟨n, hn'⟩ hC]; dsimp only; rw [kept7, after7]
      · rw [idleAt0_7 ⟨n, hn'⟩ hA hC]; dsimp only
        rw [before7_aux c n hn' hA d, outsAt_B m c ⟨n, hn'⟩ hA hC]

theorem before7 (c : Dev nD) (t : Fin cfg0.N) (h0 : ¬t.val % 16 = 0) (d) :
    (dats m 0 c).before 7 t d = (outsAt m c (t.val - 1) (Nat.lt_of_le_of_lt (Nat.sub_le _ _) t.isLt)).2 :=
  before7_aux m c t.val t.isLt h0 d

end Cert.KernelIdeal.Frame

end
-- ==== Proof.KIPieces.lean ====
/-
  What each case's stores leave, as the body's payloads: the stored blocks read back are the skeleton's pure terms of
  the loads (the input blocks, and for an accumulated output what its buffer held, or the zero block just stored).
-/
import proofs.«107719_j5016521802072_1_alg».proof.Proof.KIOuts
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl

/-- At a first column tile the denominators' buffer ends at the tile's row sums added to the zero block just stored, -/
theorem out_A_6_eq (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) :
    out_A_6 c i arg2 harg2 arg3 harg3 arg4 harg4 arg5 harg5 arg6 harg6 arg7 harg7 arg8 harg8 arg9 harg9 hc1 hc2 x0 x1 x2 x3 x4 x5 = k0_pay6 (BitVec.ofNat 32 (i 0).val) (BitVec.ofNat 32 (i 1).val) (k0_pay3 x0 x1 x2 x3 x4 x5) (k0_pay4 (F := F)) (k0_pay1 (F := F)) := by
  unfold out_A_6
  rw [View.read_writes_eq_canon _ _ _ (cover_A_6 c i arg2 harg2 arg3 harg3 arg4 harg4 arg5 harg5 arg6 harg6 arg7 harg7 arg8 harg8 arg9 harg9 hc1 hc2 x0 x1 x2 x3 x4 x5)]
  unfold kernelRun_A; dsimp only
  sl_unfold_words
  rw [View.canon_cons_unit_zero hz2, View.readCov_unit_zero arg8.view hz2]
  simp only [View.readAt_eq_ld, harg2.read_unread, harg3.read_unread, harg4.read_unread, harg5.read_unread, harg6.read_unread, harg7.read_unread, harg8.read_unread, harg9.read_unread, View.ld_unit_zero (S := S512x8) hz2, View.ld_unit_zero (S := S512x1) hz2, View.ld_unit_zero (S := S1x512) hz2]

/-- and the pairs' at the zero block. -/
theorem out_A_7_eq (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) :
    out_A_7 c i arg2 harg2 arg3 harg3 arg4 harg4 arg5 harg5 arg6 harg6 arg7 harg7 arg8 harg8 arg9 harg9 hc1 hc2 x0 x1 x2 x3 x4 x5 = k0_pay2 (F := F) := by
  unfold out_A_7
  rw [View.read_writes_eq_canon _ _ _ (cover_A_7 c i arg2 harg2 arg3 harg3 arg4 harg4 arg5 harg5 arg6 harg6 arg7 harg7 arg8 harg8 arg9 harg9 hc1 hc2 x0 x1 x2 x3 x4 x5)]
  unfold kernelRun_A; dsimp only
  sl_unfold_words
  rw [View.canon_unit_zero hz2]

/-- At a generic point the denominators' buffer ends at the tile's row sums added to what it held. -/
theorem out_B_6_eq (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : ¬k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) :
    out_B_6 c i arg2 harg2 arg3 harg3 arg4 harg4 arg5 harg5 arg6 harg6 arg7 harg7 arg8 harg8 arg9 harg9 hc1 hc2 x0 x1 x2 x3 x4 x5 xo6 = k0_pay6 (BitVec.ofNat 32 (i 0).val) (BitVec.ofNat 32 (i 1).val) (k0_pay3 x0 x1 x2 x3 x4 x5) (k0_pay4 (F := F)) xo6 := by
  unfold out_B_6
  rw [View.read_writes_eq_canon _ _ _ (cover_B_6 c i arg2 harg2 arg3 harg3 arg4 harg4 arg5 harg5 arg6 harg6 arg7 harg7 arg8 harg8 arg9 harg9 hc1 hc2 x0 x1 x2 x3 x4 x5 xo6)]
  unfold kernelRun_B; dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x8) hz2, View.ld_unit_zero (S := S512x1) hz2, View.ld_unit_zero (S := S1x512) hz2]

/-- At the tile eight to the right the same, -/
theorem out_C_6_eq (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) :
    out_C_6 c i arg2 harg2 arg3 harg3 arg4 harg4 arg5 harg5 arg6 harg6 arg7 harg7 arg8 harg8 arg9 harg9 hc1 hc2 x0 x1 x2 x3 x4 x5 xo6 xo7 = k0_pay6 (BitVec.ofNat 32 (i 0).val) (BitVec.ofNat 32 (i 1).val) (k0_pay3 x0 x1 x2 x3 x4 x5) (k0_pay4 (F := F)) xo6 := by
  unfold out_C_6
  rw [View.read_writes_eq_canon _ _ _ (cover_C_6 c i arg2 harg2 arg3 harg3 arg4 harg4 arg5 harg5 arg6 harg6 arg7 harg7 arg8 harg8 arg9 harg9 hc1 hc2 x0 x1 x2 x3 x4 x5 xo6 xo7)]
  unfold kernelRun_C; dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x8) hz2, View.ld_unit_zero (S := S512x1) hz2, View.ld_unit_zero (S := S1x512) hz2]

/-- and the pairs' buffer ends at the tile's diagonal added to what it held. -/
theorem out_C_7_eq (c : Dev nD) (i : grid0.Coords) (arg2 : Memref sig .tc .vmem S512x8 .bf16) (harg2 : arg2.IsWhole) (arg3 : Memref sig .tc .vmem S512x8 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x1 .f32) (harg9 : arg9.IsWhole) (hc1 : ¬k0_cond1 i = 1#1) (hc2 : k0_cond2 i = 1#1)
    (x0 : Vec F S512x8 .bf16) (x1 : Vec F S512x8 .bf16) (x2 : Vec F S512x1 .f32) (x3 : Vec F S1x512 .f32) (x4 : Vec F S512x1 .f32) (x5 : Vec F S1x512 .f32) (xo6 : Vec F S512x1 .f32) (xo7 : Vec F S512x1 .f32) :
    out_C_7 c i arg2 harg2 arg3 harg3 arg4 harg4 arg5 harg5 arg6 harg6 arg7 harg7 arg8 harg8 arg9 harg9 hc1 hc2 x0 x1 x2 x3 x4 x5 xo6 xo7 = k0_pay7 (k0_pay3 x0 x1 x2 x3 x4 x5) (k0_pay4 (F := F)) xo7 := by
  unfold out_C_7
  rw [View.read_writes_eq_canon _ _ _ (cover_C_7 c i arg2 harg2 arg3 harg3 arg4 harg4 arg5 harg5 arg6 harg6 arg7 harg7 arg8 harg8 arg9 harg9 hc1 hc2 x0 x1 x2 x3 x4 x5 xo6 xo7)]
  unfold kernelRun_C; dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x8) hz2, View.ld_unit_zero (S := S512x1) hz2, View.ld_unit_zero (S := S1x512) hz2]

end Cert.KernelIdeal.Frame

end
-- ==== Proof.LibVecToColumn.lean ====
/-
  A reshape keeps the row-major position of every element: a vector of length `n` and the column `[n, 1]` it is
  reshaped to hold element `r` at positions `r` and `r · 1 + 0`.
-/
import Idealize.ShloMosaic.Lib.Pipeline.Value
import Idealize.ShloMosaic.Lib.ValueIdx

noncomputable section

namespace LibVecToColumn

open Idealize.ShloMosaic Idealize.ShloMosaic.ValueIdx

/-- A vector of length `n` laid out as a column `[n, 1]` reads, at `(r, 0)`, the vector at `r`. -/
theorem vec_to_col_apply {α : Type} {n : Nat} (x : (⟨1, ![n]⟩ : Shape).Idx → α)
    (h : (⟨1, ![n]⟩ : Shape).ShapeCasts ⟨2, ![n, 1]⟩) (r : Fin n) :
    shapeCast ⟨2, ![n, 1]⟩ x h (ix2 r (0 : Fin 1)) = x (ix1 r) :=
  shapeCast_apply x h _ _ (by
    rw [Shape.rowMajor_val_one, Shape.rowMajor_val_two]
    show r.val = r.val * 1 + 0
    rw [Nat.mul_one, Nat.add_zero])

end LibVecToColumn

end
-- ==== Proof.LibReshapeRead.lean ====
import Idealize.ShloMosaic.Lib.ValueIdx
import Idealize.ShloMosaic.Lib.ValueLayout
import Idealize.ShloMosaic.Lib.Pipeline.Value

/-! # Two reshapes read at an index

A reshape keeps the row-major position of every element. A column `[m, 1]` and the vector `[m]` it is reshaped to
hold element `p` at positions `p * 1 + 0` and `p`; a vector `[n]` and the one-row array `[1, n]` it is reshaped to hold
element `k` at positions `k` and `0 * n + k`. -/

namespace Cert.DistSeams

open Idealize.ShloMosaic Idealize.ShloMosaic.ValueIdx

/-- A column `[m, 1]` viewed as a vector of length `m` reads, at `p`, the column at `(p, 0)`. -/
theorem col_to_vec_apply {α : Type} {m : Nat} (x : (⟨2, ![m, 1]⟩ : Shape).Idx → α)
    (h : (⟨2, ![m, 1]⟩ : Shape).ShapeCasts ⟨1, ![m]⟩) (p : Fin m) :
    shapeCast ⟨1, ![m]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A vector of length `n` viewed as the one row of a `[1, n]` array reads, at `(u, k)`, the vector at `k`, whatever the
    unit coordinate `u`. -/
theorem vec_to_row_apply {α : Type} {n : Nat} (x : (⟨1, ![n]⟩ : Shape).Idx → α)
    (h : (⟨1, ![n]⟩ : Shape).ShapeCasts ⟨2, ![1, n]⟩) (u : Fin 1) (k : Fin n) :
    shapeCast ⟨2, ![1, n]⟩ x h (ix2 u k) = x (ix1 k) :=
  shapeCast_a_1a_apply x h u k

end Cert.DistSeams
-- ==== Proof.KIEntry.lean ====
/-
  The arrays the windows stage, read at an index at the region's entry, on the extended reals: the row blocks' array
  is the joined array, the columns and rows of squared norms and of clipped values are re-laid copies of those vectors.
-/
import proofs.«107719_j5016521802072_1_alg».proof.Proof.KIBase
import proofs.«107719_j5016521802072_1_alg».proof.Proof.LibVecToColumn
import proofs.«107719_j5016521802072_1_alg».proof.Proof.LibReshapeRead
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx

variable (c : Dev nD)

/-- The joined array's rows, the rows' squared norms and their clipped values, as the region finds them. -/
def Zf (r : Fin 8192) (k : Fin 8) : EReal := (V m c main_v0 : S8192x8.Idx → EReal) (ix2 r k)
def rawf (r : Fin 8192) : EReal := (V m c main_v2 : S8192.Idx → EReal) (ix1 r)
def sqcf (r : Fin 8192) : EReal := (V m c main_v3 : S8192.Idx → EReal) (ix1 r)

theorem e_v4 : (V m c main_v4 : S8192x8.Idx → EReal) = truncf (F := Ideal) .bf16 (V m c main_v0 : S8192x8.Idx → EReal) bitsLt_bf16_f32 := by
  dsimp only [V, V0]; simp only [hostOps0, hostOps0_1, hostOps0_2, List.flatten_cons, List.flatten_nil, List.append_nil, List.cons_append, List.nil_append]
  after_results
  try rfl
theorem e_v5 : (V m c main_v5 : S8192x1.Idx → EReal) = shapeCast S8192x1 (V m c main_v2 : S8192.Idx → EReal) shapeCasts_S8192_S8192x1 := by
  dsimp only [V, V0]; simp only [hostOps0, hostOps0_1, hostOps0_2, List.flatten_cons, List.flatten_nil, List.append_nil, List.cons_append, List.nil_append]
  after_results
  try rfl
theorem e_v6 : (V m c main_v6 : S8192x1.Idx → EReal) = shapeCast S8192x1 (V m c main_v3 : S8192.Idx → EReal) shapeCasts_S8192_S8192x1 := by
  dsimp only [V, V0]; simp only [hostOps0, hostOps0_1, hostOps0_2, List.flatten_cons, List.flatten_nil, List.append_nil, List.cons_append, List.nil_append]
  after_results
  try rfl
theorem e_v7 : (V m c main_v7 : S1x8192.Idx → EReal) = shapeCast S1x8192 (V m c main_v2 : S8192.Idx → EReal) shapeCasts_S8192_S1x8192 := by
  dsimp only [V, V0]; simp only [hostOps0, hostOps0_1, hostOps0_2, List.flatten_cons, List.flatten_nil, List.append_nil, List.cons_append, List.nil_append]
  after_results
  try rfl
theorem e_v8 : (V m c main_v8 : S1x8192.Idx → EReal) = shapeCast S1x8192 (V m c main_v3 : S8192.Idx → EReal) shapeCasts_S8192_S1x8192 := by
  dsimp only [V, V0]; simp only [hostOps0, hostOps0_1, hostOps0_2, List.flatten_cons, List.flatten_nil, List.append_nil, List.cons_append, List.nil_append]
  after_results
  try rfl

/-- The row blocks' array is the joined array (a change of float format is the identity on extended reals), -/
theorem v4_at (r : Fin 8192) (k : Fin 8) : (V m c main_v4 : S8192x8.Idx → EReal) (ix2 r k) = Zf m c r k := by
  rw [e_v4]; rfl
/-- the column and the row of squared norms hold the squared norms, -/
theorem v5_at (r : Fin 8192) : (V m c main_v5 : S8192x1.Idx → EReal) (ix2 r (0 : Fin 1)) = rawf m c r := by
  rw [e_v5]; exact LibVecToColumn.vec_to_col_apply _ _ _
theorem v7_at (q : Fin 8192) : (V m c main_v7 : S1x8192.Idx → EReal) (ix2 (0 : Fin 1) q) = rawf m c q := by
  rw [e_v7]; exact Cert.DistSeams.vec_to_row_apply _ _ _ _
/-- and the column and the row of clipped values the clipped values. -/
theorem v6_at (r : Fin 8192) : (V m c main_v6 : S8192x1.Idx → EReal) (ix2 r (0 : Fin 1)) = sqcf m c r := by
  rw [e_v6]; exact LibVecToColumn.vec_to_col_apply _ _ _
theorem v8_at (q : Fin 8192) : (V m c main_v8 : S1x8192.Idx → EReal) (ix2 (0 : Fin 1) q) = sqcf m c q := by
  rw [e_v8]; exact Cert.DistSeams.vec_to_row_apply _ _ _ _

end Cert.KernelIdeal.Frame

end
-- ==== Proof.Spec.lean ====
/-
  The loss both programs compute, as functions of the joined array `Z` (8192 rows of 8 coordinates), the rows'
  squared norms `raw` and their clipped values `sqc`, on the extended reals.

  For two rows the Poincare similarity is `1 / (1 + arcosh x)` with
  `x = 1 + 2 * max (|u|^2 + |v|^2 - 2 u.v) 0 / ((1 - sqc u) (1 - sqc v))` and `arcosh x = log (x + sqrt' (x*x - 1))`,
  `sqrt'` the square root that is zero where its argument is not positive. Each row k is paired with row
  k +- 4096; the loss of row k is `-(sim(k, pair k) / (1/2) - log (sum over c != k of exp (sim(k, c) / (1/2))))`, and
  the result is the mean over the 8192 rows.

  The reference sums each row of the masked exponentials in one piece and looks its pairs up in both halves;
  the kernel accumulates the row sums tile by tile (16 tiles of 512 columns, starting from zero) and reads the
  pair of a row of the second half from the first half, `sim` being symmetric.
-/
import Idealize.ShloMosaic.PureOps.Ideal.Laws

noncomputable section

namespace Cert.Spec

open Idealize.ShloMosaic

/-- The float words of the two programs, kept as patterns: 0, 1, 2, 1/2, 8192. -/
abbrev w0 : EReal := Ideal.ofBits .f32 0x00000000#32
abbrev w1 : EReal := Ideal.ofBits .f32 0x3F800000#32
abbrev w2 : EReal := Ideal.ofBits .f32 0x40000000#32
abbrev wh : EReal := Ideal.ofBits .f32 0x3F000000#32
abbrev wN : EReal := Ideal.ofBits .f32 0x46000000#32

/-- The similarity of two rows, from their coordinates, squared norms and clipped squared norms. -/
def simB (u v : Fin 8 → EReal) (ru rv su sv : EReal) : EReal :=
  let sqd := max (ru + rv - w2 * ∑ k : Fin 8, u k * v k) w0
  let den := (w1 - su) * (w1 - sv)
  let x := Ideal.div sqd den * w2 + w1
  let tt := x * x - w1
  let p := Ideal.cmp .ogt tt w0
  let ss := Scalar.select p (Ideal.sqrt (Scalar.select p tt w1)) w0
  Ideal.div w1 (w1 + Ideal.log (x + ss))

section
variable (Z : Fin 8192 → Fin 8 → EReal) (raw sqc : Fin 8192 → EReal)

/-- The similarity of rows `r` and `c`. -/
def sim (r c : Fin 8192) : EReal := simB (Z r) (Z c) (raw r) (raw c) (sqc r) (sqc c)

/-- `exp (sim / (1/2))`. -/
def ex (r c : Fin 8192) : EReal := Ideal.exp (Ideal.div (sim Z raw sqc r c) wh)

/-! ## The reference's arrangement -/

/-- Row `k`'s pair: `k + 4096` in the first half, `k - 4096` in the second. -/
def refPos (k : Fin 8192) : EReal :=
  if h : k.val < 4096 then sim Z raw sqc k ⟨k.val + 4096, by omega⟩ else sim Z raw sqc k ⟨k.val - 4096, by omega⟩

/-- One minus the identity matrix, as the reference computes it: 1 minus the 0/1 word of `r = c` read as a number. -/
def mask (r c : Fin 8192) : EReal := w1 - (((if r = c then 1 else 0 : ℕ) : ℝ) : EReal)

/-- Row `r`'s denominator: zero plus the sum of the masked exponentials. -/
def refDen (r : Fin 8192) : EReal := w0 + ∑ c : Fin 8192, mask r c * ex Z raw sqc r c

def refLoss : EReal :=
  Ideal.div (w0 + ∑ k : Fin 8192, -(Ideal.div (refPos Z raw sqc k) wh - Ideal.log (refDen Z raw sqc k))) wN

/-! ## The kernel's arrangement -/

/-- Row `p` of tile `i`. -/
def row (i : Fin 16) (p : Fin 512) : Fin 8192 := ⟨512 * i.val + p.val, by omega⟩

/-- What grid point `(i, j)` adds to row `p` of its block of denominators: the sum over the tile's 512 columns
    of the exponentials off the diagonal. -/
def tile (i j : Fin 16) (p : Fin 512) : EReal :=
  ∑ q : Fin 512, if row i p ≠ row j q then ex Z raw sqc (row i p) (row j q) else w0

/-- The denominators' block `i`, row `p`, after the first `n` column tiles: zero, then one tile's sum added per point. -/
def accDen (i : Fin 16) (p : Fin 512) : ℕ → EReal
  | 0 => w0
  | n + 1 => accDen i p n + (if h : n < 16 then tile Z raw sqc i ⟨n, h⟩ p else 0)

/-- The kernel's denominator of row `p` of tile `i`. -/
def kerDen (i : Fin 16) (p : Fin 512) : EReal := accDen Z raw sqc i p 16

/-- The pair of row `k` of the first half, as the kernel finds it: zero plus the lane sum, over the tile eight to
    the right, of the similarities on the tile's own diagonal. -/
def kerPos (k : Fin 4096) : EReal :=
  w0 + ∑ q : Fin 512, if (⟨k.val % 512, Nat.mod_lt _ (by norm_num)⟩ : Fin 512) = q
    then sim Z raw sqc ⟨k.val, by omega⟩ (row ⟨k.val / 512 + 8, by omega⟩ q) else w0

def kerLoss : EReal :=
  Ideal.div (w0 + ∑ k : Fin 8192,
    -(Ideal.div (kerPos Z raw sqc ⟨k.val % 4096, Nat.mod_lt _ (by norm_num)⟩) wh
      - Ideal.log (kerDen Z raw sqc ⟨k.val / 512, by omega⟩ ⟨k.val % 512, Nat.mod_lt _ (by norm_num)⟩))) wN

end

end Cert.Spec

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.KerPayMask.lean ====
/-
  Two facts on 32-bit words, and what a selection by such a word chooses.

  For positions p, q below 512 inside a tile and tile numbers i, j below 16, the words p + i * 512 and
  q + j * 512 are below 2^13, so neither the product nor the sum wraps: each word is the number 512 i + p
  (resp. 512 j + q), and the two words differ exactly when the two numbers differ. Likewise the words of p and
  q are equal exactly when p = q. A selection governed by the comparison word therefore chooses as the
  comparison of the numbers does.
-/
import Idealize.ShloMosaic.PureOps.Ideal.Laws

noncomputable section

namespace Cert.KernelIdeal.Payloads

open Idealize.ShloMosaic

/-- A truth value as a one-bit word is the word one exactly when it is true. -/
theorem ofBool_eq_one_iff {b : Bool} : BitVec.ofBool b = 1#1 ↔ b = true := by cases b <;> decide

/-- The word of a number below 2^32 is that number. -/
theorem toNat_word (n : Nat) (h : n < 2 ^ 32) : (BitVec.ofNat 32 n).toNat = n := by
  rw [BitVec.toNat_ofNat]; exact Nat.mod_eq_of_lt h

/-- The global position word: position p of tile i is the number 512 i + p, without wrapping. -/
theorem global_toNat (i p : Nat) (hi : i < 16) (hp : p < 512) :
    (IntOp.addi (BitVec.ofNat 32 p) (Scalar.muli (BitVec.ofNat 32 i) 512#32)).toNat = 512 * i + p := by
  show (BitVec.ofNat 32 p + BitVec.ofNat 32 i * 512#32).toNat = 512 * i + p
  rw [BitVec.toNat_add, BitVec.toNat_mul, toNat_word p (by omega), toNat_word i (by omega)]
  show (p + i * 512 % 2 ^ 32) % 2 ^ 32 = 512 * i + p
  omega

/-- The global position words of (i, p) and (j, q) differ exactly when 512 i + p and 512 j + q differ. -/
theorem global_ne_iff (i j p q : Nat) (hi : i < 16) (hj : j < 16) (hp : p < 512) (hq : q < 512) :
    IntOp.cmpi .ne (IntOp.addi (BitVec.ofNat 32 p) (Scalar.muli (BitVec.ofNat 32 i) 512#32))
        (IntOp.addi (BitVec.ofNat 32 q) (Scalar.muli (BitVec.ofNat 32 j) 512#32)) = 1#1
      ↔ 512 * i + p ≠ 512 * j + q := by
  have hi' := global_toNat i p hi hp
  have hj' := global_toNat j q hj hq
  simp only [IntOp.cmpi, ofBool_eq_one_iff, bne_iff_ne, ne_eq]
  constructor
  · intro h e; apply h; apply BitVec.eq_of_toNat_eq; rw [hi', hj', e]
  · intro h e; apply h; rw [← hi', ← hj', e]

/-- The words of two positions below 512 are equal exactly when the positions are. -/
theorem local_eq_iff (p q : Fin 512) :
    IntOp.cmpi .eq (BitVec.ofNat 32 p.val) (BitVec.ofNat 32 q.val) = 1#1 ↔ p = q := by
  simp only [IntOp.cmpi, ofBool_eq_one_iff, beq_iff_eq]
  constructor
  · intro h
    have := congrArg BitVec.toNat h
    rw [toNat_word p.val (by have := p.isLt; omega), toNat_word q.val (by have := q.isLt; omega)] at this
    exact Fin.ext this
  · intro h; rw [h]

/-- Selecting by the word of "the global positions differ" is choosing by the numbers. -/
theorem select_global_ne {α : Type} (i j : Fin 16) (p q : Fin 512) (a b : α) :
    Scalar.select (IntOp.cmpi .ne (IntOp.addi (BitVec.ofNat 32 p.val) (Scalar.muli (BitVec.ofNat 32 i.val) 512#32))
        (IntOp.addi (BitVec.ofNat 32 q.val) (Scalar.muli (BitVec.ofNat 32 j.val) 512#32))) a b
      = if 512 * i.val + p.val ≠ 512 * j.val + q.val then a else b := by
  unfold Scalar.select
  exact if_congr (global_ne_iff i.val j.val p.val q.val i.isLt j.isLt p.isLt q.isLt) rfl rfl

/-- Selecting by the word of "the positions inside the tile are equal" is choosing by p = q. -/
theorem select_local_eq {α : Type} (p q : Fin 512) (a b : α) :
    Scalar.select (IntOp.cmpi .eq (BitVec.ofNat 32 p.val) (BitVec.ofNat 32 q.val)) a b = if p = q then a else b := by
  unfold Scalar.select
  exact if_congr (local_eq_iff p q) rfl rfl

end Cert.KernelIdeal.Payloads

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.KerPaySim.lean ====
/-
  The similarity block of one grid point, read at an entry.

  For rows p of the left block and q of the right block the body forms
    x - 1 = 2 * max (|u|^2 + |v|^2 - 2 u.v, 0) / ((1 - sqc u) (1 - sqc v)),
  where u.v is entry (p, q) of the product of the left block with the transposed right block, accumulated into
  zero: the sum over the 8 coordinates of u_k v_k. The squared norms and their clipped values arrive as a column
  (indexed by p) and a row (indexed by q), each repeated along the other axis. The similarity is then the
  entrywise function x |-> 1 / (1 + log (x + sqrt' (x x - 1))) of x, sqrt' being zero where x x - 1 is not positive.
  Every other step is entrywise, so entry (p, q) of the similarity block is the similarity of the two rows.
-/
import Idealize.ShloMosaic.Lib.ValueIdx
import Idealize.ShloMosaic.Lib.Pipeline.Value
import Idealize.ShloMosaic.Lib.ValueLayout
import Idealize.ShloMosaic.PureOps.Ideal.Laws
import proofs.«107719_j5016521802072_1_alg».proof.Proof.Gen.KernelIdeal.Skeleton
import proofs.«107719_j5016521802072_1_alg».proof.Proof.Spec
import proofs.«107719_j5016521802072_1_alg».proof.Proof.LibMatmulNN
import proofs.«107719_j5016521802072_1_alg».proof.Proof.LibColumnLayout

noncomputable section

namespace Cert.KernelIdeal.Payloads

open Idealize.ShloMosaic Idealize.ShloMosaic.ValueIdx Cert.KernelIdeal Cert.KernelIdeal.Gen

variable [Cert.KernelIdeal.Facts]

/-- The similarity as a function of x alone: 1 / (1 + log (x + sqrt' (x x - 1))). -/
def simOfX (x : EReal) : EReal :=
  let tt := x * x - Cert.Spec.w1
  let p := Ideal.cmp .ogt tt Cert.Spec.w0
  let ss := Scalar.select p (Ideal.sqrt (Scalar.select p tt Cert.Spec.w1)) Cert.Spec.w0
  Ideal.div Cert.Spec.w1 (Cert.Spec.w1 + Ideal.log (x + ss))

/-- The similarity block is entrywise: at every entry it is `simOfX` of the sum of the two operands' entries. -/
theorem pay5_at (V34 V35 : FVec Ideal S512x512 .f32) (i : S512x512.Idx) :
    k0_pay5 (F := Ideal) V34 V35 i = simOfX (V34 i + V35 i) := rfl

/-- The block of ones. -/
theorem pay4_at (i : S512x512.Idx) : k0_pay4 (F := Ideal) i = Cert.Spec.w1 := rfl

/-- Entry (p, q) of the block x - 1: twice the clamped squared distance over the product of the two conformal
    factors, with the inner product as the plain sum over the 8 coordinates. -/
theorem pay3_at (v3 v5 : Vec Ideal S512x8 .bf16) (v9 v13 : Vec Ideal S512x1 .f32) (v11 v15 : Vec Ideal S1x512 .f32)
    (p q : Fin 512) :
    k0_pay3 (F := Ideal) v3 v5 v9 v11 v13 v15 (ix2 p q)
      = Ideal.div (max (v9 (ix2 p (0 : Fin 1)) + v11 (ix2 (0 : Fin 1) q)
            - Cert.Spec.w2 * ∑ k : Fin 8, v3 (ix2 p k) * v5 (ix2 q k)) Cert.Spec.w0)
          ((Cert.Spec.w1 - v13 (ix2 p (0 : Fin 1))) * (Cert.Spec.w1 - v15 (ix2 (0 : Fin 1) q))) * Cert.Spec.w2 := by
  -- the product with the transposed right block, into zero: entry (p, q) is the sum over k of u_k v_k
  have hm : matmul (F := Ideal) (φ₁ := .bf16) (φ₂ := .bf16) dot_S512x8_S8x512_S512x512_1_0_0_1_n_n none v3
        (transpose (α := Ideal .bf16) S8x512 [1, 0] v5 transposes_S512x8_p1_0_S8x512)
        (constant (F := Ideal) S512x512 .f32 0x00000000#32) (ix2 p q)
      = ∑ k : Fin 8, v3 (ix2 p k) * v5 (ix2 q k) := by
    refine (LibMatmulNN.matmul_zero_apply 512 8 512 (φ₁ := .bf16) (φ₂ := .bf16) none v3 _ p q).trans ?_
    refine Finset.sum_congr rfl fun k _ => ?_
    rw [transpose_ix2_apply]
  unfold k0_pay3
  simp only [shapeCast_self]
  rw [mulf_apply, divf_apply, maximumf_apply, subf_apply, addf_apply, mulf_apply, mulf_apply, hm]
  -- a column repeated along the lanes reads its row's entry, a row repeated down the rows its lane's entry
  simp only [broadcastTo_a1_ab_apply, broadcastTo_1b_ab_apply, broadcast_apply, subf_apply]
  rfl

/-- Entry (p, q) of the similarity block of the loaded blocks is the similarity of row p of the left block and
    row q of the right block. -/
theorem sim_at (v3 v5 : Vec Ideal S512x8 .bf16) (v9 v13 : Vec Ideal S512x1 .f32) (v11 v15 : Vec Ideal S1x512 .f32)
    (p q : Fin 512) :
    k0_pay5 (F := Ideal) (k0_pay3 v3 v5 v9 v11 v13 v15) k0_pay4 (ix2 p q)
      = Cert.Spec.simB (fun k => v3 (ix2 p k)) (fun k => v5 (ix2 q k)) (v9 (ix2 p (0 : Fin 1))) (v11 (ix2 (0 : Fin 1) q))
          (v13 (ix2 p (0 : Fin 1))) (v15 (ix2 (0 : Fin 1) q)) := by
  rw [pay5_at, pay4_at, pay3_at]
  rfl

end Cert.KernelIdeal.Payloads

end
-- ==== Proof.KerPayloads.lean ====
/-
  The accumulating blocks of one grid point, read at a row.

  * The denominators' block: to the value already there the body adds, for row p, the sum over the tile's 512
    columns q of exp (sim(p, q) / (1/2)) wherever the global row number 512 i + p differs from the global column
    number 512 j + q, and of zero on the diagonal. The row and column numbers are formed as 32-bit words from the
    positions inside the tile and the tile numbers; they do not wrap, so the word comparison is the comparison of
    the numbers. The sum is taken along the lanes and kept as a column.
  * The pairs' block: to the value already there the body adds, for row p, the sum over q of sim(p, q) where q is p
    (the tile's own diagonal) and of zero elsewhere.
  * The two initial blocks are zero at every row.
-/
import Idealize.ShloMosaic.Lib.ValueIdx
import Idealize.ShloMosaic.Lib.Pipeline.Value
import Idealize.ShloMosaic.PureOps.Ideal.Laws
import proofs.«107719_j5016521802072_1_alg».proof.Proof.Gen.KernelIdeal.Skeleton
import proofs.«107719_j5016521802072_1_alg».proof.Proof.Spec
import proofs.«107719_j5016521802072_1_alg».proof.Proof.LibLaneReduce
import proofs.«107719_j5016521802072_1_alg».proof.Proof.KerPayMask
import proofs.«107719_j5016521802072_1_alg».proof.Proof.KerPaySim

noncomputable section

namespace Cert.KernelIdeal.Payloads

open Idealize.ShloMosaic Idealize.ShloMosaic.ValueIdx Cert.KernelIdeal Cert.KernelIdeal.Gen

variable [Cert.KernelIdeal.Facts]

/-- Row p of the denominators' block after grid point (i, j): the value before, plus the sum over the tile's columns
    of the exponentials off the global diagonal. -/
theorem den_at (i j : Fin 16) (V34 V35 : FVec Ideal S512x512 .f32) (v69 : Vec Ideal S512x1 .f32) (p : Fin 512) :
    k0_pay6 (F := Ideal) (BitVec.ofNat 32 i.val) (BitVec.ofNat 32 j.val) V34 V35 v69 (ix2 p (0 : Fin 1))
      = v69 (ix2 p (0 : Fin 1)) + ∑ q : Fin 512, if 512 * i.val + p.val ≠ 512 * j.val + q.val
          then Ideal.exp (Ideal.div (k0_pay5 (F := Ideal) V34 V35 (ix2 p q)) Cert.Spec.wh) else Cert.Spec.w0 := by
  unfold k0_pay6
  simp only [shapeCast_self]
  rw [addf_apply]
  refine congrArg (v69 (ix2 p (0 : Fin 1)) + ·) ?_
  -- the lane sum kept as a column, at row p: the sum over the 512 entries of row p
  refine (LibLaneReduce.sumLanes_apply _ _ _ _ _ p).trans ?_
  refine Finset.sum_congr rfl fun q _ => ?_
  -- entry (p, q) of the masked exponentials, the mask being the comparison of the two global position words
  show Scalar.select (IntOp.cmpi .ne
        (IntOp.addi (iota .tc S512x512 32 [0] iota_S512x512_d0_w32 (ix2 p q)) (Scalar.muli (BitVec.ofNat 32 i.val) 512#32))
        (IntOp.addi (iota .tc S512x512 32 [1] iota_S512x512_d1_w32 (ix2 p q)) (Scalar.muli (BitVec.ofNat 32 j.val) 512#32)))
      (Ideal.exp (Ideal.div (k0_pay5 (F := Ideal) V34 V35 (ix2 p q)) Cert.Spec.wh)) Cert.Spec.w0 = _
  rw [iota_single_apply, iota_single_apply]
  exact select_global_ne i j p q _ _

/-- Row p of the pairs' block after a grid point on the paired diagonal: the value before, plus the sum over the
    tile's columns of the similarities on the tile's own diagonal. -/
theorem pos_at (V34 V35 : FVec Ideal S512x512 .f32) (v82 : Vec Ideal S512x1 .f32) (p : Fin 512) :
    k0_pay7 (F := Ideal) V34 V35 v82 (ix2 p (0 : Fin 1))
      = v82 (ix2 p (0 : Fin 1)) + ∑ q : Fin 512, if p = q then k0_pay5 (F := Ideal) V34 V35 (ix2 p q) else Cert.Spec.w0 := by
  unfold k0_pay7
  simp only [shapeCast_self]
  rw [addf_apply]
  refine congrArg (v82 (ix2 p (0 : Fin 1)) + ·) ?_
  refine (LibLaneReduce.sumLanes_apply _ _ _ _ _ p).trans ?_
  refine Finset.sum_congr rfl fun q _ => ?_
  -- entry (p, q) of the similarities kept where the row and column positions inside the tile agree
  show Scalar.select (IntOp.cmpi .eq
        (iota .tc S512x512 32 [0] iota_S512x512_d0_w32 (ix2 p q))
        (iota .tc S512x512 32 [1] iota_S512x512_d1_w32 (ix2 p q)))
      (k0_pay5 (F := Ideal) V34 V35 (ix2 p q)) Cert.Spec.w0 = _
  rw [iota_single_apply, iota_single_apply]
  exact select_local_eq p q _ _

/-- The initial denominators' block is zero at every row. -/
theorem zero1_at (p : Fin 512) : k0_pay1 (F := Ideal) (ix2 p (0 : Fin 1)) = Cert.Spec.w0 := rfl

/-- The initial pairs' block is zero at every row. -/
theorem zero2_at (p : Fin 512) : k0_pay2 (F := Ideal) (ix2 p (0 : Fin 1)) = Cert.Spec.w0 := rfl

end Cert.KernelIdeal.Payloads

end
-- ==== Proof.KerStep.lean ====
/-
  One grid point's step, over blocks known only through the rows they hold.

  Suppose the six operand blocks of grid point (i, j) hold rows 512 i + p of the joined array and of the squared norms
  and clipped squared norms (the left rows and the two columns), and rows 512 j + q (the right rows and the two rows).
  Then entry (p, q) of the similarity block is the similarity of rows 512 i + p and 512 j + q; the denominators' block
  gains, at row p, exactly the tile sum of the exponentials off the diagonal; and the pairs' block gains, at row p, the
  similarity on the tile's own diagonal. For the tile eight to the right (j = i + 8) and a zero block before, that gain is
  the pair of row 512 i + p as the specification finds it. The accumulated denominators advance by one tile sum per point.
-/
import proofs.«107719_j5016521802072_1_alg».proof.Proof.KerPayloads
import proofs.«107719_j5016521802072_1_alg».proof.Proof.Spec

noncomputable section

namespace Cert.KernelIdeal.Payloads

open Idealize.ShloMosaic Idealize.ShloMosaic.ValueIdx Cert.KernelIdeal Cert.KernelIdeal.Gen

variable (Z : Fin 8192 → Fin 8 → EReal) (raw sqc : Fin 8192 → EReal)

/-! ## The specification's own recurrences -/

/-- The accumulated denominators after one more column tile: one tile sum added. -/
theorem accDen_succ (i : Fin 16) (p : Fin 512) (n : ℕ) (hn : n < 16) :
    Cert.Spec.accDen Z raw sqc i p (n + 1)
      = Cert.Spec.accDen Z raw sqc i p n + Cert.Spec.tile Z raw sqc i ⟨n, hn⟩ p := by
  show Cert.Spec.accDen Z raw sqc i p n + (if h : n < 16 then Cert.Spec.tile Z raw sqc i ⟨n, h⟩ p else 0) = _
  rw [dif_pos hn]

/-- Zero plus the diagonal of the tile eight to the right of row tile i8, at row p, is the pair of row 512 i8 + p:
    that row's position inside its tile is p, and its tile number plus eight is i8 + 8. -/
theorem kerPos_of_diag (i8 : Fin 8) (p : Fin 512) :
    Cert.Spec.w0 + ∑ q : Fin 512, (if p = q then Cert.Spec.sim Z raw sqc (Cert.Spec.row ⟨i8.val, by omega⟩ p)
        (Cert.Spec.row ⟨i8.val + 8, by omega⟩ q) else Cert.Spec.w0)
      = Cert.Spec.kerPos Z raw sqc ⟨512 * i8.val + p.val, by omega⟩ := by
  unfold Cert.Spec.kerPos
  refine congrArg (Cert.Spec.w0 + ·) ?_
  refine Finset.sum_congr rfl fun q _ => ?_
  have hp := p.isLt
  refine if_congr ?_ ?_ rfl
  · rw [Fin.ext_iff, Fin.ext_iff]
    show p.val = q.val ↔ (512 * i8.val + p.val) % 512 = q.val
    omega
  · refine congrArg₂ (Cert.Spec.sim Z raw sqc) (Fin.ext rfl) (Fin.ext ?_)
    show 512 * (i8.val + 8) + q.val = 512 * ((512 * i8.val + p.val) / 512 + 8) + q.val
    omega

/-- The same with the value before given as any word equal to zero. -/
theorem kerPos_of_diag' (i8 : Fin 8) (p : Fin 512) (x : EReal) (hx : x = Cert.Spec.w0) :
    x + ∑ q : Fin 512, (if p = q then Cert.Spec.sim Z raw sqc (Cert.Spec.row ⟨i8.val, by omega⟩ p)
        (Cert.Spec.row ⟨i8.val + 8, by omega⟩ q) else Cert.Spec.w0)
      = Cert.Spec.kerPos Z raw sqc ⟨512 * i8.val + p.val, by omega⟩ := by
  rw [hx]; exact kerPos_of_diag Z raw sqc i8 p

/-! ## The body's blocks at grid point (i, j) -/

variable [Cert.KernelIdeal.Facts]

variable (i j : Fin 16) (b0 b1 : Vec Ideal S512x8 .bf16) (b2 : Vec Ideal S512x1 .f32) (b3 : Vec Ideal S1x512 .f32)
  (b4 : Vec Ideal S512x1 .f32) (b5 : Vec Ideal S1x512 .f32)

/-- Entry (p, q) of the similarity block is the similarity of rows 512 i + p and 512 j + q. -/
theorem sim_blocks (h0 : ∀ p k, b0 (ix2 p k) = Z (Cert.Spec.row i p) k) (h1 : ∀ q k, b1 (ix2 q k) = Z (Cert.Spec.row j q) k)
    (h2 : ∀ p, b2 (ix2 p (0 : Fin 1)) = raw (Cert.Spec.row i p)) (h3 : ∀ q, b3 (ix2 (0 : Fin 1) q) = raw (Cert.Spec.row j q))
    (h4 : ∀ p, b4 (ix2 p (0 : Fin 1)) = sqc (Cert.Spec.row i p)) (h5 : ∀ q, b5 (ix2 (0 : Fin 1) q) = sqc (Cert.Spec.row j q))
    (p q : Fin 512) :
    k0_pay5 (F := Ideal) (k0_pay3 b0 b1 b2 b3 b4 b5) k0_pay4 (ix2 p q)
      = Cert.Spec.sim Z raw sqc (Cert.Spec.row i p) (Cert.Spec.row j q) := by
  have e0 : (fun k => b0 (ix2 p k)) = Z (Cert.Spec.row i p) := funext fun k => h0 p k
  have e1 : (fun k => b1 (ix2 q k)) = Z (Cert.Spec.row j q) := funext fun k => h1 q k
  rw [sim_at, e0, e1, h2 p, h3 q, h4 p, h5 q]
  rfl

/-- The denominators' block gains, at row p, the tile sum of grid point (i, j). -/
theorem den_step (h0 : ∀ p k, b0 (ix2 p k) = Z (Cert.Spec.row i p) k) (h1 : ∀ q k, b1 (ix2 q k) = Z (Cert.Spec.row j q) k)
    (h2 : ∀ p, b2 (ix2 p (0 : Fin 1)) = raw (Cert.Spec.row i p)) (h3 : ∀ q, b3 (ix2 (0 : Fin 1) q) = raw (Cert.Spec.row j q))
    (h4 : ∀ p, b4 (ix2 p (0 : Fin 1)) = sqc (Cert.Spec.row i p)) (h5 : ∀ q, b5 (ix2 (0 : Fin 1) q) = sqc (Cert.Spec.row j q))
    (v69 : Vec Ideal S512x1 .f32) (p : Fin 512) :
    k0_pay6 (F := Ideal) (BitVec.ofNat 32 i.val) (BitVec.ofNat 32 j.val) (k0_pay3 b0 b1 b2 b3 b4 b5) k0_pay4 v69 (ix2 p (0 : Fin 1))
      = v69 (ix2 p (0 : Fin 1)) + Cert.Spec.tile Z raw sqc i j p := by
  rw [den_at]
  refine congrArg (v69 (ix2 p (0 : Fin 1)) + ·) ?_
  unfold Cert.Spec.tile
  refine Finset.sum_congr rfl fun q _ => ?_
  rw [sim_blocks Z raw sqc i j b0 b1 b2 b3 b4 b5 h0 h1 h2 h3 h4 h5 p q]
  -- two rows of the 8192 differ exactly when their numbers do
  have hne : 512 * i.val + p.val ≠ 512 * j.val + q.val ↔ Cert.Spec.row i p ≠ Cert.Spec.row j q := by
    unfold Cert.Spec.row
    rw [Ne, Ne, Fin.mk.injEq]
  exact if_congr hne rfl rfl

/-- The pairs' block gains, at row p, the similarity on the tile's own diagonal. -/
theorem pos_step (h0 : ∀ p k, b0 (ix2 p k) = Z (Cert.Spec.row i p) k) (h1 : ∀ q k, b1 (ix2 q k) = Z (Cert.Spec.row j q) k)
    (h2 : ∀ p, b2 (ix2 p (0 : Fin 1)) = raw (Cert.Spec.row i p)) (h3 : ∀ q, b3 (ix2 (0 : Fin 1) q) = raw (Cert.Spec.row j q))
    (h4 : ∀ p, b4 (ix2 p (0 : Fin 1)) = sqc (Cert.Spec.row i p)) (h5 : ∀ q, b5 (ix2 (0 : Fin 1) q) = sqc (Cert.Spec.row j q))
    (v82 : Vec Ideal S512x1 .f32) (p : Fin 512) :
    k0_pay7 (F := Ideal) (k0_pay3 b0 b1 b2 b3 b4 b5) k0_pay4 v82 (ix2 p (0 : Fin 1))
      = v82 (ix2 p (0 : Fin 1)) + ∑ q : Fin 512, if p = q
          then Cert.Spec.sim Z raw sqc (Cert.Spec.row i p) (Cert.Spec.row j q) else Cert.Spec.w0 := by
  rw [pos_at]
  refine congrArg (v82 (ix2 p (0 : Fin 1)) + ·) ?_
  refine Finset.sum_congr rfl fun q _ => ?_
  rw [sim_blocks Z raw sqc i j b0 b1 b2 b3 b4 b5 h0 h1 h2 h3 h4 h5 p q]

end Cert.KernelIdeal.Payloads

end
-- ==== Proof.KerBlocks.lean ====
/-
  Each window's block at a grid point, read at an entry.

  The grid is 16 by 16; point t is row tile t / 16 and column tile t % 16. Every window cuts its array into blocks
  of 512 along one axis, and its block number at point t is the row tile (windows 0, 2, 4 and the two result
  windows 6, 7) or the column tile (windows 1, 3, 5) on that axis and zero on the other. An entry of a block sits in
  the array, on each axis, at the block number times the block's extent plus the entry's own coordinate; so row p of
  a row-tile block is row 512 (t / 16) + p of the array, and lane q of a column-tile block is lane 512 (t % 16) + q.
  For the result windows, row r of the array lies in point t's block exactly when r / 512 is t's row tile.
  The block numbers are decided once over the 256 points.
-/
import proofs.«107719_j5016521802072_1_alg».proof.Proof.Gen.KernelIdeal.Points
import Idealize.ShloMosaic.Lib.Pipeline.Value
import Idealize.ShloMosaic.Lib.ValueIdx

noncomputable section

namespace Cert.KernelIdeal.Blocks

open Idealize.ShloMosaic Idealize.ShloMosaic.ValueIdx Idealize.ShloMosaic.TcCoe Cert.KernelIdeal Cert.KernelIdeal.Gen
open Idealize.SL Idealize.SL.Sem

variable {F : FTy → Type}

/-! ## The grid and its tiles -/

/-- The grid has 256 points. -/
theorem gridN : grid0.N = 256 := by decide

theorem point_lt (t : Fin cfg0.N) : t.val < 256 := by
  have h : t.val < grid0.N := t.isLt
  rw [gridN] at h; exact h

/-- Row p of point t's row tile is a row of the 8192. -/
theorem rowTile_lt (t : Fin cfg0.N) (p : Fin 512) : 512 * (t.val / 16) + p.val < 8192 := by
  have := point_lt t; have := p.isLt; omega

/-- Position q of point t's column tile is one of the 8192. -/
theorem colTile_lt (t : Fin cfg0.N) (q : Fin 512) : 512 * (t.val % 16) + q.val < 8192 := by
  have := q.isLt; omega

/-! ## The block numbers, decided over the grid -/

theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)
theorem idx5 : ∀ t : Fin cfg0.N, win0_5.index t (0 : Fin 2) = 0 ∧ win0_5.index t (1 : Fin 2) = t.val % 16 :=
  (by decide +kernel : ∀ t : Fin grid0.N, win0_5.index t (0 : Fin 2) = 0 ∧ win0_5.index t (1 : Fin 2) = t.val % 16)
theorem idx6 : ∀ t : Fin cfg0.N, win0_6.index t (0 : Fin 2) = t.val / 16 ∧ win0_6.index t (1 : Fin 2) = 0 :=
  (by decide +kernel : ∀ t : Fin grid0.N, win0_6.index t (0 : Fin 2) = t.val / 16 ∧ win0_6.index t (1 : Fin 2) = 0)
theorem idx7 : ∀ t : Fin cfg0.N, win0_7.index t (0 : Fin 2) = t.val / 16 ∧ win0_7.index t (1 : Fin 2) = 0 :=
  (by decide +kernel : ∀ t : Fin grid0.N, win0_7.index t (0 : Fin 2) = t.val / 16 ∧ win0_7.index t (1 : Fin 2) = 0)

/-! ## The operand blocks read at an entry -/

/-- Window 0 (the left rows): entry (p, k) of the block is entry (512 (t / 16) + p, k) of the array. -/
theorem blk0 (t : Fin cfg0.N) (A : S8192x8.Idx → Elt F .bf16) (p : Fin 512) (k : Fin 8) :
    ((cfg0.win 0).blk t).view.read (Elt F) A (ix2 p k)
      = A (ix2 (⟨512 * (t.val / 16) + p.val, rowTile_lt t p⟩ : Fin 8192) k) := by
  show A (((cfg0.win 0).blk t).view.emb (ix2 p k)) = _
  refine congrArg A ?_
  obtain ⟨e0, e1⟩ := idx0 t
  funext a; apply Fin.ext
  match a with
  | ⟨0, _⟩ => show win0_0.index t (0 : Fin 2) * 512 + 1 * p.val = 512 * (t.val / 16) + p.val; omega
  | ⟨1, _⟩ => show win0_0.index t (1 : Fin 2) * 8 + 1 * k.val = k.val; omega

/-- Window 1 (the right rows): entry (q, k) of the block is entry (512 (t % 16) + q, k) of the array. -/
theorem blk1 (t : Fin cfg0.N) (A : S8192x8.Idx → Elt F .bf16) (p : Fin 512) (k : Fin 8) :
    ((cfg0.win 1).blk t).view.read (Elt F) A (ix2 p k)
      = A (ix2 (⟨512 * (t.val % 16) + p.val, colTile_lt t p⟩ : Fin 8192) k) := by
  show A (((cfg0.win 1).blk t).view.emb (ix2 p k)) = _
  refine congrArg A ?_
  obtain ⟨e0, e1⟩ := idx1 t
  funext a; apply Fin.ext
  match a with
  | ⟨0, _⟩ => show win0_1.index t (0 : Fin 2) * 512 + 1 * p.val = 512 * (t.val % 16) + p.val; omega
  | ⟨1, _⟩ => show win0_1.index t (1 : Fin 2) * 8 + 1 * k.val = k.val; omega

/-- Window 2 (the squared norms as a column): row p of the block is row 512 (t / 16) + p of the array. -/
theorem blk2 (t : Fin cfg0.N) (A : S8192x1.Idx → Elt F .f32) (p : Fin 512) :
    ((cfg0.win 2).blk t).view.read (Elt F) A (ix2 p (0 : Fin 1))
      = A (ix2 (⟨512 * (t.val / 16) + p.val, rowTile_lt t p⟩ : Fin 8192) (0 : Fin 1)) := by
  show A (((cfg0.win 2).blk t).view.emb (ix2 p (0 : Fin 1))) = _
  refine congrArg A ?_
  obtain ⟨e0, e1⟩ := idx2 t
  funext a; apply Fin.ext
  match a with
  | ⟨0, _⟩ => show win0_2.index t (0 : Fin 2) * 512 + 1 * p.val = 512 * (t.val / 16) + p.val; omega
  | ⟨1, _⟩ => show win0_2.index t (1 : Fin 2) * 1 + 1 * 0 = 0; omega

/-- Window 3 (the squared norms as a row): lane q of the block is lane 512 (t % 16) + q of the array. -/
theorem blk3 (t : Fin cfg0.N) (A : S1x8192.Idx → Elt F .f32) (q : Fin 512) :
    ((cfg0.win 3).blk t).view.read (Elt F) A (ix2 (0 : Fin 1) q)
      = A (ix2 (0 : Fin 1) (⟨512 * (t.val % 16) + q.val, colTile_lt t q⟩ : Fin 8192)) := by
  show A (((cfg0.win 3).blk t).view.emb (ix2 (0 : Fin 1) q)) = _
  refine congrArg A ?_
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 512 + 1 * q.val = 512 * (t.val % 16) + q.val; omega

/-- Window 4 (the clipped squared norms as a column): row p of the block is row 512 (t / 16) + p of the array. -/
theorem blk4 (t : Fin cfg0.N) (A : S8192x1.Idx → Elt F .f32) (p : Fin 512) :
    ((cfg0.win 4).blk t).view.read (Elt F) A (ix2 p (0 : Fin 1))
      = A (ix2 (⟨512 * (t.val / 16) + p.val, rowTile_lt t p⟩ : Fin 8192) (0 : Fin 1)) := by
  show A (((cfg0.win 4).blk t).view.emb (ix2 p (0 : Fin 1))) = _
  refine congrArg A ?_
  obtain ⟨e0, e1⟩ := idx4 t
  funext a; apply Fin.ext
  match a with
  | ⟨0, _⟩ => show win0_4.index t (0 : Fin 2) * 512 + 1 * p.val = 512 * (t.val / 16) + p.val; omega
  | ⟨1, _⟩ => show win0_4.index t (1 : Fin 2) * 1 + 1 * 0 = 0; omega

/-- Window 5 (the clipped squared norms as a row): lane q of the block is lane 512 (t % 16) + q of the array. -/
theorem blk5 (t : Fin cfg0.N) (A : S1x8192.Idx → Elt F .f32) (q : Fin 512) :
    ((cfg0.win 5).blk t).view.read (Elt F) A (ix2 (0 : Fin 1) q)
      = A (ix2 (0 : Fin 1) (⟨512 * (t.val % 16) + q.val, colTile_lt t q⟩ : Fin 8192)) := by
  show A (((cfg0.win 5).blk t).view.emb (ix2 (0 : Fin 1) q)) = _
  refine congrArg A ?_
  obtain ⟨e0, e1⟩ := idx5 t
  funext a; apply Fin.ext
  match a with
  | ⟨0, _⟩ => show win0_5.index t (0 : Fin 2) * 1 + 1 * 0 = 0; omega
  | ⟨1, _⟩ => show win0_5.index t (1 : Fin 2) * 512 + 1 * q.val = 512 * (t.val % 16) + q.val; omega

/-! ## The result blocks: read at an entry, and which rows they hold -/

/-- Window 6 (the denominators): row p of the block is row 512 (t / 16) + p of the array. -/
theorem blk6 (t : Fin cfg0.N) (A : S8192x1.Idx → Elt F .f32) (p : Fin 512) :
    ((cfg0.win 6).blk t).view.read (Elt F) A (ix2 p (0 : Fin 1))
      = A (ix2 (⟨512 * (t.val / 16) + p.val, rowTile_lt t p⟩ : Fin 8192) (0 : Fin 1)) := by
  show A (((cfg0.win 6).blk t).view.emb (ix2 p (0 : Fin 1))) = _
  refine congrArg A ?_
  obtain ⟨e0, e1⟩ := idx6 t
  funext a; apply Fin.ext
  match a with
  | ⟨0, _⟩ => show win0_6.index t (0 : Fin 2) * 512 + 1 * p.val = 512 * (t.val / 16) + p.val; omega
  | ⟨1, _⟩ => show win0_6.index t (1 : Fin 2) * 1 + 1 * 0 = 0; omega

/-- Window 7 (the pairs): row p of the block is row 512 (t / 16) + p of the array. -/
theorem blk7 (t : Fin cfg0.N) (A : S8192x1.Idx → Elt F .f32) (p : Fin 512) :
    ((cfg0.win 7).blk t).view.read (Elt F) A (ix2 p (0 : Fin 1))
      = A (ix2 (⟨512 * (t.val / 16) + p.val, rowTile_lt t p⟩ : Fin 8192) (0 : Fin 1)) := by
  show A (((cfg0.win 7).blk t).view.emb (ix2 p (0 : Fin 1))) = _
  refine congrArg A ?_
  obtain ⟨e0, e1⟩ := idx7 t
  funext a; apply Fin.ext
  match a with
  | ⟨0, _⟩ => show win0_7.index t (0 : Fin 2) * 512 + 1 * p.val = 512 * (t.val / 16) + p.val; omega
  | ⟨1, _⟩ => show win0_7.index t (1 : Fin 2) * 1 + 1 * 0 = 0; omega

/-- Row r of the array lies in the block that point t writes back to window 6 exactly when r is in t's row tile. -/
theorem mem_blk6 (t : Fin cfg0.N) (r : Fin 8192) :
    (ix2 r (0 : Fin 1) : S8192x1.Idx) ∈ ((cfg0.win 6).blk t).view.set ↔ r.val / 512 = t.val / 16 := by
  show _ ∈ ((View.whole main_v9_0).slice (win0_6.rect t)).set ↔ _
  rw [View.set_slice_whole, Rect.mem_set_unit]
  obtain ⟨e0, e1⟩ := idx6 t
  have hr := r.isLt
  constructor
  · intro h
    have h0 : win0_6.index t (0 : Fin 2) * 512 ≤ r.val ∧ r.val < win0_6.index t (0 : Fin 2) * 512 + 512 := h 0
    omega
  · intro h a
    match a with
    | ⟨0, _⟩ => show win0_6.index t (0 : Fin 2) * 512 ≤ r.val ∧ r.val < win0_6.index t (0 : Fin 2) * 512 + 512; omega
    | ⟨1, _⟩ => show win0_6.index t (1 : Fin 2) * 1 ≤ 0 ∧ 0 < win0_6.index t (1 : Fin 2) * 1 + 1; omega

/-- Row r of the array lies in the block that point t writes back to window 7 exactly when r is in t's row tile. -/
theorem mem_blk7 (t : Fin cfg0.N) (r : Fin 8192) :
    (ix2 r (0 : Fin 1) : S8192x1.Idx) ∈ ((cfg0.win 7).blk t).view.set ↔ r.val / 512 = t.val / 16 := by
  show _ ∈ ((View.whole main_v9_1).slice (win0_7.rect t)).set ↔ _
  rw [View.set_slice_whole, Rect.mem_set_unit]
  obtain ⟨e0, e1⟩ := idx7 t
  have hr := r.isLt
  constructor
  · intro h
    have h0 : win0_7.index t (0 : Fin 2) * 512 ≤ r.val ∧ r.val < win0_7.index t (0 : Fin 2) * 512 + 512 := h 0
    omega
  · intro h a
    match a with
    | ⟨0, _⟩ => show win0_7.index t (0 : Fin 2) * 512 ≤ r.val ∧ r.val < win0_7.index t (0 : Fin 2) * 512 + 512; omega
    | ⟨1, _⟩ => show win0_7.index t (1 : Fin 2) * 1 ≤ 0 ∧ 0 < win0_7.index t (1 : Fin 2) * 1 + 1; omega

end Cert.KernelIdeal.Blocks

end
-- ==== Proof.KIValue.lean ====
/-
  What the kernel's two outputs hold along the grid, on the extended reals. At every point the six input blocks hold
  the rows of the point's row tile and column tile, so the denominators' payload adds the tile's row sums of the
  exponentials off the diagonal and the pairs' payload the similarity on the tile's own diagonal. Along a row tile the
  denominators therefore hold zero plus the first tiles' sums, and the pairs zero until the tile eight to the right,
  then the row's pair.
-/
import proofs.«107719_j5016521802072_1_alg».proof.Proof.KIPieces
import proofs.«107719_j5016521802072_1_alg».proof.Proof.KIEntry
import proofs.«107719_j5016521802072_1_alg».proof.Proof.KerStep
import proofs.«107719_j5016521802072_1_alg».proof.Proof.KerBlocks
import proofs.«107719_j5016521802072_1_alg».proof.Proof.Spec
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.KernelIdeal.Payloads Cert.KernelIdeal.Blocks

variable (c : Dev nD)

/-- Point `t` is row tile `t / 16`, column tile `t % 16`. -/
abbrev ti (t : Fin cfg0.N) : Fin 16 := ⟨t.val / 16, by have := point_lt t; omega⟩
abbrev tj (t : Fin cfg0.N) : Fin 16 := ⟨t.val % 16, Nat.mod_lt _ (by norm_num)⟩

theorem coords_eq : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-! ## The input blocks at a point hold the rows of the two tiles -/

theorem hb0 (t : Fin cfg0.N) (p : Fin 512) (k : Fin 8) : iblk m c 0 t (ix2 p k) = Zf m c (Cert.Spec.row (ti t) p) k := by
  unfold iblk; rw [blk0 t _ p k]; exact v4_at m c _ k
theorem hb1 (t : Fin cfg0.N) (q : Fin 512) (k : Fin 8) : iblk m c 1 t (ix2 q k) = Zf m c (Cert.Spec.row (tj t) q) k := by
  unfold iblk; rw [blk1 t _ q k]; exact v4_at m c _ k
theorem hb2 (t : Fin cfg0.N) (p : Fin 512) : iblk m c 2 t (ix2 p (0 : Fin 1)) = rawf m c (Cert.Spec.row (ti t) p) := by
  unfold iblk; rw [blk2 t _ p]; exact v5_at m c _
theorem hb3 (t : Fin cfg0.N) (q : Fin 512) : iblk m c 3 t (ix2 (0 : Fin 1) q) = rawf m c (Cert.Spec.row (tj t) q) := by
  unfold iblk; rw [blk3 t _ q]; exact v7_at m c _
theorem hb4 (t : Fin cfg0.N) (p : Fin 512) : iblk m c 4 t (ix2 p (0 : Fin 1)) = sqcf m c (Cert.Spec.row (ti t) p) := by
  unfold iblk; rw [blk4 t _ p]; exact v6_at m c _
theorem hb5 (t : Fin cfg0.N) (q : Fin 512) : iblk m c 5 t (ix2 (0 : Fin 1) q) = sqcf m c (Cert.Spec.row (tj t) q) := by
  unfold iblk; rw [blk5 t _ q]; exact v8_at m c _

/-! ## One grid point -/

/-- The denominators' payload at a point adds the tile's row sums to what it is given. -/
theorem den_point (t : Fin cfg0.N) (v : Vec Ideal S512x1 .f32) (p : Fin 512) :
    k0_pay6 (F := Ideal) (BitVec.ofNat 32 (grid0.coords t 0).val) (BitVec.ofNat 32 (grid0.coords t 1).val)
        (k0_pay3 (iblk m c 0 t) (iblk m c 1 t) (iblk m c 2 t) (iblk m c 3 t) (iblk m c 4 t) (iblk m c 5 t)) k0_pay4 v (ix2 p (0 : Fin 1))
      = v (ix2 p (0 : Fin 1)) + Cert.Spec.tile (Zf m c) (rawf m c) (sqcf m c) (ti t) (tj t) p := by
  rw [(coords_eq t).1, (coords_eq t).2]
  exact den_step (Zf m c) (rawf m c) (sqcf m c) (ti t) (tj t) _ _ _ _ _ _ (hb0 m c t) (hb1 m c t) (hb2 m c t) (hb3 m c t) (hb4 m c t) (hb5 m c t) v p

/-- The pairs' payload at a point adds the similarity on the tile's own diagonal. -/
theorem pos_point (t : Fin cfg0.N) (v : Vec Ideal S512x1 .f32) (p : Fin 512) :
    k0_pay7 (F := Ideal) (k0_pay3 (iblk m c 0 t) (iblk m c 1 t) (iblk m c 2 t) (iblk m c 3 t) (iblk m c 4 t) (iblk m c 5 t)) k0_pay4 v (ix2 p (0 : Fin 1))
      = v (ix2 p (0 : Fin 1)) + ∑ q : Fin 512, if p = q then Cert.Spec.sim (Zf m c) (rawf m c) (sqcf m c) (Cert.Spec.row (ti t) p) (Cert.Spec.row (tj t) q) else Cert.Spec.w0 :=
  pos_step (Zf m c) (rawf m c) (sqcf m c) (ti t) (tj t) _ _ _ _ _ _ (hb0 m c t) (hb1 m c t) (hb2 m c t) (hb3 m c t) (hb4 m c t) (hb5 m c t) v p

theorem outsAt_congr {n n' : ℕ} (h : n = n') (hn : n < cfg0.N) (hn' : n' < cfg0.N) : outsAt m c n hn = outsAt m c n' hn' := by
  subst h; rfl

/-- At a first column tile: zero plus the tile for the denominators, zero for the pairs. -/
theorem step_A (t : Fin cfg0.N) (h0 : t.val % 16 = 0) (p : Fin 512) :
    (outsAt m c t.val t.isLt).1 (ix2 p (0 : Fin 1)) = Cert.Spec.w0 + Cert.Spec.tile (Zf m c) (rawf m c) (sqcf m c) (ti t) (tj t) p
    ∧ (outsAt m c t.val t.isLt).2 (ix2 p (0 : Fin 1)) = Cert.Spec.w0 := by
  rw [outsAt_A m c t h0]
  unfold outA6At outA7At
  rw [out_A_6_eq, out_A_7_eq]
  exact ⟨(den_point m c t _ p).trans (by rw [zero1_at]), zero2_at p⟩

/-- Off a first column tile the denominators grow by the tile; -/
theorem step_den (t : Fin cfg0.N) (h0 : ¬t.val % 16 = 0) (p : Fin 512) :
    (outsAt m c t.val t.isLt).1 (ix2 p (0 : Fin 1))
      = (outsAt m c (t.val - 1) (Nat.lt_of_le_of_lt (Nat.sub_le _ _) t.isLt)).1 (ix2 p (0 : Fin 1)) + Cert.Spec.tile (Zf m c) (rawf m c) (sqcf m c) (ti t) (tj t) p := by
  by_cases h1 : t.val % 16 = t.val / 16 + 8
  · rw [outsAt_C m c t h0 h1]; unfold outC6At; rw [out_C_6_eq]; exact den_point m c t _ p
  · rw [outsAt_B m c t h0 h1]; unfold outB6At; rw [out_B_6_eq]; exact den_point m c t _ p

/-- the pairs grow by the diagonal at the tile eight to the right, and are unchanged elsewhere. -/
theorem step_pos_C (t : Fin cfg0.N) (h0 : ¬t.val % 16 = 0) (h1 : t.val % 16 = t.val / 16 + 8) (p : Fin 512) :
    (outsAt m c t.val t.isLt).2 (ix2 p (0 : Fin 1))
      = (outsAt m c (t.val - 1) (Nat.lt_of_le_of_lt (Nat.sub_le _ _) t.isLt)).2 (ix2 p (0 : Fin 1))
        + ∑ q : Fin 512, if p = q then Cert.Spec.sim (Zf m c) (rawf m c) (sqcf m c) (Cert.Spec.row (ti t) p) (Cert.Spec.row (tj t) q) else Cert.Spec.w0 := by
  rw [outsAt_C m c t h0 h1]; unfold outC7At; rw [out_C_7_eq]; exact pos_point m c t _ p
theorem step_pos_B (t : Fin cfg0.N) (h0 : ¬t.val % 16 = 0) (h1 : ¬t.val % 16 = t.val / 16 + 8) :
    (outsAt m c t.val t.isLt).2 = (outsAt m c (t.val - 1) (Nat.lt_of_le_of_lt (Nat.sub_le _ _) t.isLt)).2 := by
  rw [outsAt_B m c t h0 h1]

/-! ## Along a row tile -/

/-- After column tile `j` of row tile `i` the denominators hold the first `j + 1` tiles' sums added to zero. -/
theorem den_row (i : Fin 16) (p : Fin 512) : ∀ (j : ℕ) (hj : j < 16),
    (outsAt m c (16 * i.val + j) (by rw [show cfg0.N = 256 from N_0]; omega)).1 (ix2 p (0 : Fin 1))
      = Cert.Spec.accDen (Zf m c) (rawf m c) (sqcf m c) i p (j + 1)
  | 0, _ => by
    have hN : 16 * i.val + 0 < cfg0.N := by rw [show cfg0.N = 256 from N_0]; omega
    have h := (step_A m c ⟨16 * i.val + 0, hN⟩ (by show (16 * i.val + 0) % 16 = 0; omega) p).1
    have hi : ti ⟨16 * i.val + 0, hN⟩ = i := Fin.ext (by show (16 * i.val + 0) / 16 = i.val; omega)
    have hjj : tj ⟨16 * i.val + 0, hN⟩ = ⟨0, by norm_num⟩ := Fin.ext (by show (16 * i.val + 0) % 16 = 0; omega)
    rw [hi, hjj] at h
    rw [accDen_succ (Zf m c) (rawf m c) (sqcf m c) i p 0 (by norm_num)]
    exact h
  | j + 1, hj => by
    have hN : 16 * i.val + (j + 1) < cfg0.N := by rw [show cfg0.N = 256 from N_0]; omega
    have h := step_den m c ⟨16 * i.val + (j + 1), hN⟩ (by show ¬(16 * i.val + (j + 1)) % 16 = 0; omega) p
    have hi : ti ⟨16 * i.val + (j + 1), hN⟩ = i := Fin.ext (by show (16 * i.val + (j + 1)) / 16 = i.val; omega)
    have hjj : tj ⟨16 * i.val + (j + 1), hN⟩ = ⟨j + 1, hj⟩ := Fin.ext (by show (16 * i.val + (j + 1)) % 16 = j + 1; omega)
    rw [hi, hjj] at h
    rw [accDen_succ (Zf m c) (rawf m c) (sqcf m c) i p (j + 1) hj, ← den_row i p j (by omega)]
    exact h

/-- After column tile `j` of row tile `i` the pairs hold the row's pair once the tile eight to the right is passed, zero before. -/
theorem pos_row (i : Fin 16) (p : Fin 512) : ∀ (j : ℕ) (hj : j < 16),
    (outsAt m c (16 * i.val + j) (by rw [show cfg0.N = 256 from N_0]; omega)).2 (ix2 p (0 : Fin 1))
      = if h : i.val + 8 ≤ j then Cert.Spec.kerPos (Zf m c) (rawf m c) (sqcf m c) ⟨512 * i.val + p.val, by omega⟩ else Cert.Spec.w0
  | 0, _ => by
    have hN : 16 * i.val + 0 < cfg0.N := by rw [show cfg0.N = 256 from N_0]; omega
    rw [dif_neg (by omega)]
    exact (step_A m c ⟨16 * i.val + 0, hN⟩ (by show (16 * i.val + 0) % 16 = 0; omega) p).2
  | j + 1, hj => by
    have hN : 16 * i.val + (j + 1) < cfg0.N := by rw [show cfg0.N = 256 from N_0]; omega
    have h0 : ¬(16 * i.val + (j + 1)) % 16 = 0 := by omega
    have hprev := pos_row i p j (by omega)
    have hcg : (outsAt m c (16 * i.val + (j + 1) - 1) (Nat.lt_of_le_of_lt (Nat.sub_le _ _) hN)) = outsAt m c (16 * i.val + j) (by rw [show cfg0.N = 256 from N_0]; omega) :=
      outsAt_congr m c (by omega) _ _
    by_cases h1 : (16 * i.val + (j + 1)) % 16 = (16 * i.val + (j + 1)) / 16 + 8
    · have hij : j + 1 = i.val + 8 := by omega
      have h := step_pos_C m c ⟨16 * i.val + (j + 1), hN⟩ h0 h1 p
      have hi8 : i.val < 8 := by omega
      have hi : ti ⟨16 * i.val + (j + 1), hN⟩ = ⟨(⟨i.val, hi8⟩ : Fin 8).val, by omega⟩ := Fin.ext (by show (16 * i.val + (j + 1)) / 16 = i.val; omega)
      have hjj : tj ⟨16 * i.val + (j + 1), hN⟩ = ⟨(⟨i.val, hi8⟩ : Fin 8).val + 8, by omega⟩ := Fin.ext (by show (16 * i.val + (j + 1)) % 16 = i.val + 8; omega)
      rw [hi, hjj] at h
      rw [dif_pos (by omega)]
      refine h.trans ?_
      show (outsAt m c (16 * i.val + (j + 1) - 1) _).2 (ix2 p (0 : Fin 1)) + _ = _
      rw [hcg, hprev, dif_neg (by omega)]
      exact kerPos_of_diag (Zf m c) (rawf m c) (sqcf m c) ⟨i.val, hi8⟩ p
    · have h := step_pos_B m c ⟨16 * i.val + (j + 1), hN⟩ h0 h1
      show (outsAt m c (16 * i.val + (j + 1)) hN).2 (ix2 p (0 : Fin 1)) = _
      rw [h, hcg, hprev]
      by_cases hle : i.val + 8 ≤ j
      · rw [dif_pos hle, dif_pos (by omega)]
      · rw [dif_neg hle, dif_neg (by omega)]

end Cert.KernelIdeal.Frame

end
-- ==== Proof.KIFinal.lean ====
/-
  The two result arrays after the run. Each row tile's block is written back once, after the tile's last point, and
  the blocks tile the arrays; so the denominators' array holds at row r the sixteen tiles' sums added to zero, and the
  pairs' array holds at a row of the first half the similarity with the row 4096 below.
-/
import proofs.«107719_j5016521802072_1_alg».proof.Proof.KIValue
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.KernelIdeal.Payloads Cert.KernelIdeal.Blocks

variable (c : Dev nD)

theorem N256 : cfg0.N = 256 := N_0

/-- Row `r` of a result array is written back after the last column tile of row tile `r / 512`. -/
def lastPt (r : Fin 8192) : Fin cfg0.N := ⟨16 * (r.val / 512) + 15, by rw [N256]; omega⟩

/-- The denominators' and the pairs' arrays as the write-backs leave them: row `r` holds what its row tile's buffer held
    after the tile's last point. -/
def G6 : S8192x1.Idx → EReal := fun idx =>
  (outsAt m c (lastPt ⟨(idx 0).val, idx2_lt0 idx⟩).val (lastPt ⟨(idx 0).val, idx2_lt0 idx⟩).isLt).1
    (ix2 (⟨(idx 0).val % 512, Nat.mod_lt _ (by norm_num)⟩ : Fin 512) (idx 1))
def G7 : S8192x1.Idx → EReal := fun idx =>
  (outsAt m c (lastPt ⟨(idx 0).val, idx2_lt0 idx⟩).val (lastPt ⟨(idx 0).val, idx2_lt0 idx⟩).isLt).2
    (ix2 (⟨(idx 0).val % 512, Nat.mod_lt _ (by norm_num)⟩ : Fin 512) (idx 1))

theorem fin1_eq (u : Fin 1) : u = 0 := Subsingleton.elim _ _

set_option maxHeartbeats 1000000 in
/-- What a flushing point writes back is its block of `G6`. -/
theorem flushed6 (t : Fin cfg0.N) (hf : (cfg0.win 6).flush t = true) :
    (dats m 0 c).flushed 6 t = ((cfg0.win 6).blk t).view.read (Elt Ideal) (G6 m c) := by
  have h15 : t.val % 16 = 15 := (flush0_6 t).mp hf
  have hN : t.val < 256 := point_lt t
  funext y
  obtain ⟨p, u, rfl⟩ : ∃ (p : Fin 512) (u : Fin 1), y = ix2 p u := ⟨y 0, y 1, eq_ix2 y⟩
  obtain rfl := fin1_eq u
  rw [blk6 (F := Ideal) t (G6 m c) p]
  show (cfg0.win 6).cut (grid0.coords t) ((dats m 0 c).after 6 t) (ix2 p (0 : Fin 1)) = _
  rw [after6]
  unfold G6 lastPt
  have e : 16 * ((512 * (t.val / 16) + p.val) / 512) + 15 = t.val := by omega
  have e2 : (512 * (t.val / 16) + p.val) % 512 = p.val := by omega
  show (outsAt m c t.val t.isLt).1 (ix2 p (0 : Fin 1)) = _
  refine congrArg₂ (fun (x : Vec Ideal S512x1 .f32 × Vec Ideal S512x1 .f32) (q : Fin 512) => x.1 (ix2 q (0 : Fin 1))) (outsAt_congr m c e.symm _ _) (Fin.ext e2.symm)
set_option maxHeartbeats 1000000 in
theorem flushed7 (t : Fin cfg0.N) (hf : (cfg0.win 7).flush t = true) :
    (dats m 0 c).flushed 7 t = ((cfg0.win 7).blk t).view.read (Elt Ideal) (G7 m c) := by
  have h15 : t.val % 16 = 15 := (flush0_7 t).mp hf
  have hN : t.val < 256 := point_lt t
  funext y
  obtain ⟨p, u, rfl⟩ : ∃ (p : Fin 512) (u : Fin 1), y = ix2 p u := ⟨y 0, y 1, eq_ix2 y⟩
  obtain rfl := fin1_eq u
  rw [blk7 (F := Ideal) t (G7 m c) p]
  show (cfg0.win 7).cut (grid0.coords t) ((dats m 0 c).after 7 t) (ix2 p (0 : Fin 1)) = _
  rw [after7]
  unfold G7 lastPt
  have e : 16 * ((512 * (t.val / 16) + p.val) / 512) + 15 = t.val := by omega
  have e2 : (512 * (t.val / 16) + p.val) % 512 = p.val := by omega
  show (outsAt m c t.val t.isLt).2 (ix2 p (0 : Fin 1)) = _
  refine congrArg₂ (fun (x : Vec Ideal S512x1 .f32 × Vec Ideal S512x1 .f32) (q : Fin 512) => x.2 (ix2 q (0 : Fin 1))) (outsAt_congr m c e.symm _ _) (Fin.ext e2.symm)

/-- Every row lies in the block written back after its row tile's last point. -/
theorem cover6 (idx : S8192x1.Idx) : ∃ t : Fin cfg0.N, (cfg0.win 6).flush t = true ∧ idx ∈ ((cfg0.win 6).blk t).view.set := by
  obtain ⟨r, u, rfl⟩ : ∃ (r : Fin 8192) (u : Fin 1), idx = ix2 r u := ⟨idx 0, idx 1, eq_ix2 idx⟩
  obtain rfl := fin1_eq u
  exact ⟨lastPt r, (flush0_6 _).mpr (by show (16 * (r.val / 512) + 15) % 16 = 15; omega),
    (mem_blk6 _ r).mpr (by show r.val / 512 = (16 * (r.val / 512) + 15) / 16; omega)⟩
theorem cover7 (idx : S8192x1.Idx) : ∃ t : Fin cfg0.N, (cfg0.win 7).flush t = true ∧ idx ∈ ((cfg0.win 7).blk t).view.set := by
  obtain ⟨r, u, rfl⟩ : ∃ (r : Fin 8192) (u : Fin 1), idx = ix2 r u := ⟨idx 0, idx 1, eq_ix2 idx⟩
  obtain rfl := fin1_eq u
  exact ⟨lastPt r, (flush0_7 _).mpr (by show (16 * (r.val / 512) + 15) % 16 = 15; omega),
    (mem_blk7 _ r).mpr (by show r.val / 512 = (16 * (r.val / 512) + 15) / 16; omega)⟩

theorem final6 : (dats m 0 c).arrAt 6 cfg0.N = G6 m c :=
  (dats m 0 c).arrAt_eq_of_cover 6 (G6 m c) (flushed6 m c) cover6
theorem final7 : (dats m 0 c).arrAt 7 cfg0.N = G7 m c :=
  (dats m 0 c).arrAt_eq_of_cover 7 (G7 m c) (flushed7 m c) cover7

set_option maxHeartbeats 1000000 in
/-- Row `r` of the denominators' array is the kernel's denominator of that row, -/
theorem G6_at (r : Fin 8192) :
    G6 m c (ix2 r (0 : Fin 1)) = Cert.Spec.kerDen (Zf m c) (rawf m c) (sqcf m c) ⟨r.val / 512, by omega⟩ ⟨r.val % 512, Nat.mod_lt _ (by norm_num)⟩ := by
  have h := den_row m c ⟨r.val / 512, by omega⟩ ⟨r.val % 512, Nat.mod_lt _ (by norm_num)⟩ 15 (by norm_num)
  unfold G6 lastPt Cert.Spec.kerDen
  exact h

set_option maxHeartbeats 1000000 in
/-- and row `k` of the first half of the pairs' array the kernel's pair of that row. -/
theorem G7_at (k : Fin 4096) :
    G7 m c (ix2 (⟨k.val, by omega⟩ : Fin 8192) (0 : Fin 1)) = Cert.Spec.kerPos (Zf m c) (rawf m c) (sqcf m c) k := by
  have h := pos_row m c ⟨k.val / 512, by omega⟩ ⟨k.val % 512, Nat.mod_lt _ (by norm_num)⟩ 15 (by norm_num)
  rw [dif_pos (by show k.val / 512 + 8 ≤ 15; omega)] at h
  unfold G7 lastPt
  refine Eq.trans ?_ (h.trans ?_)
  · rfl
  congr 1
  exact Fin.ext (by show 512 * (k.val / 512) + k.val % 512 = k.val; omega)

end Cert.KernelIdeal.Frame

end
-- ==== Proof.KIBody.lean ====
/-
  The body obligation of the pipeline: at every grid point, from each window's staging buffer at what it then holds, the
  kernel body runs and leaves every buffer at what the proof data names. The closed forms of the two conditions say which
  case the point is in; the inputs' buffers hold their blocks, the outputs' what the point before left; where the pairs'
  window is idle its buffer is handed back as found (and, after a last column tile, that is what is written back).
-/
import proofs.«107719_j5016521802072_1_alg».proof.Proof.KIOuts

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [liveAt0_0 t]]
  rw [show (dats m 0 c).leavesExact 1 t = owns (c : Thread nD τ) (ms1 t) fullShare ((dats m 0 c).after 1 t) from by
    unfold Dat.leavesExact; rw [liveAt0_1 t]]
  rw [show (dats m 0 c).leavesExact 2 t = owns (c : Thread nD τ) (ms2 t) fullShare ((dats m 0 c).after 2 t) from by
    unfold Dat.leavesExact; rw [liveAt0_2 t]]
  rw [show (dats m 0 c).leavesExact 3 t = owns (c : Thread nD τ) (ms3 t) fullShare ((dats m 0 c).after 3 t) from by
    unfold Dat.leavesExact; rw [liveAt0_3 t]]
  rw [show (dats m 0 c).leavesExact 4 t = owns (c : Thread nD τ) (ms4 t) fullShare ((dats m 0 c).after 4 t) from by
    unfold Dat.leavesExact; rw [liveAt0_4 t]]
  rw [show (dats m 0 c).leavesExact 5 t = owns (c : Thread nD τ) (ms5 t) fullShare ((dats m 0 c).after 5 t) from by
    unfold Dat.leavesExact; rw [liveAt0_5 t]]
  rw [show (dats m 0 c).leavesExact 6 t = owns (c : Thread nD τ) (ms6 t) fullShare ((dats m 0 c).after 6 t) from by
    unfold Dat.leavesExact; rw [liveAt0_6 t]]
  rw [after0, after1, after2, after3, after4, after5, after6]
  have hN : t.val < 256 := lt_of_lt_of_eq t.isLt (show cfg0.N = 256 from N_0)
  by_cases h0 : t.val % 16 = 0
  · rw [show (dats m 0 c).leavesExact 7 t = owns (c : Thread nD τ) (ms7 t) fullShare ((dats m 0 c).after 7 t) from by
      unfold Dat.leavesExact; rw [liveAt0_7_A t h0], after7, outsAt_A m c t h0]
    unfold outA6At outA7At out_A_6 out_A_7
    (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun_A c (grid0.coords t) _ _ _ _ _ _ _ _ _ _ _ _ _ _ _ _ ((hcond1 t).mpr h0) (fun h => by have := (hcond2 t).mp h; omega) (iblk m c 0 t) (iblk m c 1 t) (iblk m c 2 t) (iblk m c 3 t) (iblk m c 4 t) (iblk m c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover_A_6 (F := F) c _ _ _ _ _ _ _ _ _ _ _ _ _ _ _ _ _ _ _ _ _ _ _ _ _)
    unfold owns; iexists _; isplitr
    swap; · iexact H7
    ipureintro; exact View.read_writes_of_cover _ _ _ _ _ (cover_A_7 (F := F) c _ _ _ _ _ _ _ _ _ _ _ _ _ _ _ _ _ _ _ _ _ _ _ _ _)
  · simp only [before6 m c t h0]
    by_cases h1 : t.val % 16 = t.val / 16 + 8
    · rw [show (dats m 0 c).leavesExact 7 t = owns (c : Thread nD τ) (ms7 t) fullShare ((dats m 0 c).after 7 t) from by
        unfold Dat.leavesExact; rw [liveAt0_7_C t h1], after7, outsAt_C m c t h0 h1]
      simp only [before7 m c t h0]
      unfold outC6At outC7At out_C_6 out_C_7
      (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_C c (grid0.coords t) _ _ _ _ _ _ _ _ _ _ _ _ _ _ _ _ (fun h => h0 ((hcond1 t).mp h)) ((hcond2 t).mpr h1) (iblk m c 0 t) (iblk m c 1 t) (iblk m c 2 t) (iblk m c 3 t) (iblk m c 4 t) (iblk m c 5 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover_C_6 (F := F) c _ _ _ _ _ _ _ _ _ _ _ _ _ _ _ _ _ _ _ _ _ _ _ _ _ _ _)
      unfold owns; iexists _; isplitr
      swap; · iexact H7
      ipureintro; exact View.read_writes_of_cover _ _ _ _ _ (cover_C_7 (F := F) c _ _ _ _ _ _ _ _ _ _ _ _ _ _ _ _ _ _ _ _ _ _ _ _ _ _ _)
    · rw [outsAt_B m c t h0 h1]
      unfold outB6At out_B_6
      by_cases hf : t.val % 16 = 15
      · rw [show (dats m 0 c).leavesExact 7 t = owns (c : Thread nD τ) (ms7 t) fullShare ((dats m 0 c).after 7 t) from by
          unfold Dat.leavesExact; rw [idleAt0_7 t h0 h1, (flush7_iff t).mpr hf], after7, outsAt_B m c t h0 h1]
        simp only [before7 m c t h0]
        (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_B c (grid0.coords t) _ _ _ _ _ _ _ _ _ _ _ _ _ _ _ _ (fun h => h0 ((hcond1 t).mp h)) (fun h => h1 ((hcond2 t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover_B_6 (F := F) c _ _ _ _ _ _ _ _ _ _ _ _ _ _ _ _ _ _ _ _ _ _ _ _ _ _)
        iexact H7
      · rw [Dat.leavesExact_idle (dats m 0 c) 7 t (idleAt0_7 t h0 h1) (Bool.eq_false_iff.mpr fun h => hf ((flush7_iff t).mp h))]
        (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_B c (grid0.coords t) _ _ _ _ _ _ _ _ _ _ _ _ _ _ _ _ (fun h => h0 ((hcond1 t).mp h)) (fun h => h1 ((hcond2 t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover_B_6 (F := F) c _ _ _ _ _ _ _ _ _ _ _ _ _ _ _ _ _ _ _ _ _ _ _ _ _ _)
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KIRun.lean ====
/-
  The frame run of this program. The two row-block windows stage one array: its buffer is dealt to them by halves at the
  region's entry and put together again at its exit. After the region the two result arrays hold what the write-backs
  left and every other buffer what the host lines before the region computed; the host lines after it run from there.
  So every weakly fair execution of @main terminates without a fault, each array a window stages ends at what the
  write-backs leave in it, and every other buffer at what the last host lines compute from the region's exit.
-/
import proofs.«107719_j5016521802072_1_alg».proof.Proof.KIBody
import proofs.«107719_j5016521802072_1_alg».proof.Proof.LibFrameSharedTail

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs restRefs SharedPost)

/-- The buffers' contents at the region's exit: the two result arrays as the write-backs leave them, everything else as
    the region found it. -/
def E (c : Dev nD) : Valuation τ sig (Elt F) := by
  classical
  exact Function.update (Function.update (V0 m c) (Proc.devRef .tc main_v9_0) ((dats m 0 c).arrAt 6 cfg0.N))
    (Proc.devRef .tc main_v9_1) ((dats m 0 c).arrAt 7 cfg0.N)

theorem E_of_ne (c : Dev nD) (b : Ref sig .tc) (h6 : b ≠ main_v9_0) (h7 : b ≠ main_v9_1) :
    E m c (Proc.devRef .tc b) = V m c b := by
  classical
  unfold E
  rw [Function.update_of_ne (fun h => h7 (Proc.devRef_injective _ h)), Function.update_of_ne (fun h => h6 (Proc.devRef_injective _ h))]

theorem E_v9_0 (c : Dev nD) : E m c (Proc.devRef .tc main_v9_0) = (dats m 0 c).arrAt 6 cfg0.N := by
  classical
  unfold E
  rw [Function.update_of_ne (fun h => absurd (Proc.devRef_injective _ h) (by decide)), Function.update_self]

theorem E_v9_1 (c : Dev nD) : E m c (Proc.devRef .tc main_v9_1) = (dats m 0 c).arrAt 7 cfg0.N := by
  classical
  unfold E
  rw [Function.update_self]

theorem hE (c : Dev nD) : ∀ b ∈ restRefs sig spec0, E m c (Proc.devRef .tc b) = V0 m c (Proc.devRef .tc b) := by
  intro b hb
  have hb' : b ∉ Finset.univ.image (Pipeline.arrRef spec0) := (Finset.mem_sdiff.mp hb).2
  exact E_of_ne m c b (fun h => hb' (h ▸ Finset.mem_image.mpr ⟨6, Finset.mem_univ _, rfl⟩))
    (fun h => hb' (h ▸ Finset.mem_image.mpr ⟨7, Finset.mem_univ _, rfl⟩))

/-- The arrays behind the windows are seven buffers. -/
theorem arrRefs_eq : Finset.univ.image (Pipeline.arrRef spec0) = ([main_v4, main_v5, main_v7, main_v6, main_v8, main_v9_0, main_v9_1] : List (Ref sig .tc)).toFinset := by decide

/-- The buffers behind the windows' arrays, one by one. -/
theorem arrBufs_chain (c : Dev nD) (W : (b : Ref sig .tc) → Buf (Elt F) ((c.tc : Thread nD τ).loc b)) :
    (arrBufs spec0 c W : sProp 𝕄)
      = iprop((((c.tc : Thread nD τ).loc main_v4) ↦{fullShare} W main_v4) ∗ (((c.tc : Thread nD τ).loc main_v5) ↦{fullShare} W main_v5) ∗ (((c.tc : Thread nD τ).loc main_v7) ↦{fullShare} W main_v7)
          ∗ (((c.tc : Thread nD τ).loc main_v6) ↦{fullShare} W main_v6) ∗ (((c.tc : Thread nD τ).loc main_v8) ↦{fullShare} W main_v8)
          ∗ (((c.tc : Thread nD τ).loc main_v9_0) ↦{fullShare} W main_v9_0) ∗ (((c.tc : Thread nD τ).loc main_v9_1) ↦{fullShare} W main_v9_1)) := by
  unfold Pipeline.arrBufs
  exact bigSep_eq_bigSepL_of_eq [main_v4, main_v5, main_v7, main_v6, main_v8, main_v9_0, main_v9_1] arrRefs_eq (by decide) _

set_option maxHeartbeats 1000000 in
/-- The windows' arrays as the pipeline holds them, one by one: the shared array by halves. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_v4) ↦{fullShare.left} G 0) ∗ (((c.tc : Thread nD τ).loc main_v4) ↦{fullShare.right} G 1) ∗ (((c.tc : Thread nD τ).loc main_v5) ↦{fullShare} G 2)
          ∗ (((c.tc : Thread nD τ).loc main_v7) ↦{fullShare} G 3) ∗ (((c.tc : Thread nD τ).loc main_v6) ↦{fullShare} G 4) ∗ (((c.tc : Thread nD τ).loc main_v8) ↦{fullShare} G 5)
          ∗ (((c.tc : Thread nD τ).loc main_v9_0) ↦{fullShare} G 6) ∗ (((c.tc : Thread nD τ).loc main_v9_1) ↦{fullShare} G 7)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

set_option maxHeartbeats 1000000 in
/-- At the region's entry: the shared array dealt by halves, every other array handed whole to its one window. -/
theorem hsplit (c : Dev nD) : (arrBufs spec0 c (V m c) : sProp 𝕄) ⊢ (dats m 0 c).arrays ((dats m 0 c).arrAt · 0) := by
  rw [arrBufs_chain, arrays_chain]
  iintro ⟨H4, H5, H7, H6, H8, H90, H91⟩
  ihave H4 := (pointsTo_share (PosShare.mem_left_op_right _)).1 $$ H4
  icases H4 with ⟨H4l, H4r⟩
  isplitl [H4l]; · iexact H4l
  isplitl [H4r]; · iexact H4r
  isplitl [H5]; · iexact H5
  isplitl [H7]; · iexact H7
  isplitl [H6]; · iexact H6
  isplitl [H8]; · iexact H8
  isplitl [H90]; · iexact H90
  iexact H91

/-- What the read-only windows' arrays hold after the run is what they held. -/
theorem arrAt_in_eq (c : Dev nD) (n : ℕ) :
    (dats m 0 c).arrAt 0 n = V m c main_v4 ∧ (dats m 0 c).arrAt 1 n = V m c main_v4 ∧ (dats m 0 c).arrAt 2 n = V m c main_v5
      ∧ (dats m 0 c).arrAt 3 n = V m c main_v7 ∧ (dats m 0 c).arrAt 4 n = V m c main_v6 ∧ (dats m 0 c).arrAt 5 n = V m c main_v8 :=
  ⟨((dats m 0 c).arrAt_in 0 rfl n).trans (A_eq m c 0), ((dats m 0 c).arrAt_in 1 rfl n).trans (A_eq m c 1),
   ((dats m 0 c).arrAt_in 2 rfl n).trans (A_eq m c 2), ((dats m 0 c).arrAt_in 3 rfl n).trans (A_eq m c 3),
   ((dats m 0 c).arrAt_in 4 rfl n).trans (A_eq m c 4), ((dats m 0 c).arrAt_in 5 rfl n).trans (A_eq m c 5)⟩

set_option maxHeartbeats 1000000 in
/-- At the region's exit the two halves of the shared array are put together again, -/
theorem hjoin (c : Dev nD) : ((dats m 0 c).arrays ((dats m 0 c).arrAt · cfg0.N) : sProp 𝕄) ⊢ arrBufs spec0 c (fun b => E m c (Proc.devRef .tc b)) := by
  rw [arrBufs_chain, arrays_chain]
  obtain ⟨e0, e1, e2, e3, e4, e5⟩ := arrAt_in_eq m c cfg0.N
  iintro ⟨H0, H1, H2, H3, H4, H5, H6, H7⟩
  isplitl [H0 H1]
  · rw [E_of_ne m c main_v4 (by decide) (by decide)]
    iapply (pointsTo_share (PosShare.mem_left_op_right _)).2
    isplitl [H0]
    · rw [← e0]; iexact H0
    · rw [← e1]; iexact H1
  isplitl [H2]; · rw [E_of_ne m c main_v5 (by decide) (by decide), ← e2]; iexact H2
  isplitl [H3]; · rw [E_of_ne m c main_v7 (by decide) (by decide), ← e3]; iexact H3
  isplitl [H4]; · rw [E_of_ne m c main_v6 (by decide) (by decide), ← e4]; iexact H4
  isplitl [H5]; · rw [E_of_ne m c main_v8 (by decide) (by decide), ← e5]; iexact H5
  isplitl [H6]; · rw [E_v9_0]; iexact H6
  rw [E_v9_1]; iexact H7

set_option maxHeartbeats 1000000 in
/-- and dealt once more after the last host lines, which write none of them. -/
theorem hsplitN (c : Dev nD) : (arrBufs spec0 c (fun b => E m c (Proc.devRef .tc b)) : sProp 𝕄) ⊢ (dats m 0 c).arrays ((dats m 0 c).arrAt · cfg0.N) := by
  rw [arrBufs_chain, arrays_chain]
  obtain ⟨e0, e1, e2, e3, e4, e5⟩ := arrAt_in_eq m c cfg0.N
  iintro ⟨H4, H5, H7, H6, H8, H90, H91⟩
  ihave H4 := (pointsTo_share (PosShare.mem_left_op_right _)).1 $$ H4
  icases H4 with ⟨H4l, H4r⟩
  isplitl [H4l]; · rw [e0, ← E_of_ne m c main_v4 (by decide) (by decide)]; iexact H4l
  isplitl [H4r]; · rw [e1, ← E_of_ne m c main_v4 (by decide) (by decide)]; iexact H4r
  isplitl [H5]; · rw [e2, ← E_of_ne m c main_v5 (by decide) (by decide)]; iexact H5
  isplitl [H7]; · rw [e3, ← E_of_ne m c main_v7 (by decide) (by decide)]; iexact H7
  isplitl [H6]; · rw [e4, ← E_of_ne m c main_v6 (by decide) (by decide)]; iexact H6
  isplitl [H8]; · rw [e5, ← E_of_ne m c main_v8 (by decide) (by decide)]; iexact H8
  isplitl [H90]; · rw [← E_v9_0]; iexact H90
  rw [← E_v9_1]; iexact H91

/-! ## The run and the frame -/

set_option backward.isDefEq.respectTransparency.types false in
/-- Every weakly fair execution of @main terminates without a fault; each array a window stages ends at what the
    write-backs leave in it, and every other buffer at what the last host lines compute from the region's exit. -/
theorem run_main : θ_run defs (onTc (τ := τ) (main (F := F))) (s₀ m ρ) (SharedPost cfgs (dats m) 0 (E m) [hostOps1]) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V₀ := V0 m) (opss := [hostOps1])
    (hsub := sfx_sub) (hfresh := sfx_fresh) (hkeep := sfx_keeps) (hmain := hmain m Variants.none)
    (hsplit := hsplit m) (E := E m) (hE := hE m) (hjoin := hjoin m) (hsplitN := hsplitN m)
    (hin := fun c => Idealize.SL.BI.Entails.refl _) (hout := fun c => Idealize.SL.BI.Entails.refl _)

/-- The two argument arrays are written by no host line: after the run they hold what they held. -/
theorem tail_arg0 (c : Dev nD) : StableHlo.after (List.flatten [hostOps1]) (E m c) (Proc.devRef .tc main_arg0) = m ((c.tc : Thread nD τ).loc main_arg0) := by
  show StableHlo.after hostOps1 (E m c) (Proc.devRef .tc main_arg0) = _
  after_results
  rw [E_of_ne m c main_arg0 (by decide) (by decide)]
  show StableHlo.after (List.flatten [hostOps0, hostOps0_1, hostOps0_2]) (fun b => m (c, b)) (Proc.devRef .tc main_arg0) = _
  simp only [hostOps0, hostOps0_1, hostOps0_2, List.flatten_cons, List.flatten_nil, List.append_nil, List.cons_append, List.nil_append]
  after_results
  try rfl
theorem tail_arg1 (c : Dev nD) : StableHlo.after (List.flatten [hostOps1]) (E m c) (Proc.devRef .tc main_arg1) = m ((c.tc : Thread nD τ).loc main_arg1) := by
  show StableHlo.after hostOps1 (E m c) (Proc.devRef .tc main_arg1) = _
  after_results
  rw [E_of_ne m c main_arg1 (by decide) (by decide)]
  show StableHlo.after (List.flatten [hostOps0, hostOps0_1, hostOps0_2]) (fun b => m (c, b)) (Proc.devRef .tc main_arg1) = _
  simp only [hostOps0, hostOps0_1, hostOps0_2, List.flatten_cons, List.flatten_nil, List.append_nil, List.cons_append, List.nil_append]
  after_results
  try rfl

/-- THE FRAME: the program runs to its end from any memory and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (tail_arg0 m c),
     ((h c).2 main_arg1 (Pipeline.mem_restRefs_of main_arg1 (by decide) (by decide))).trans (tail_arg1 m c)⟩) (run_main m ρ)

end Cert.KernelIdeal.Frame

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.LibHostRead.lean ====
/-
  Host reductions and a host product read at an index, on the extended reals. A host sum along the second axis of an
  [r, n] array, at row p: the initial value plus the sum over the n entries of row p. A host sum of a whole vector: the
  initial value plus the sum of its entries. A host dot_general of an [M, K] array with an [N, K] array, both contracted on
  their last axis, at (p, q): the sum over k of x[p, k] · w[q, k]. General in the extents.
-/
import Idealize.ShloMosaic.PureOps.Ideal.Laws
import Idealize.ShloMosaic.Lib.ValueIdx
import proofs.«107719_j5016521802072_1_alg».proof.Proof.LibMatmulNT
import proofs.«107719_j5016521802072_1_alg».proof.Proof.LibLaneReduce

noncomputable section

open scoped BigOperators

namespace LibHostRead

open Idealize.ShloMosaic Idealize.ShloMosaic.ValueIdx

/-- A host sum along the second axis, read at row p. -/
theorem hostRowSum_apply {r n : Nat} {u : Shape} (x : FVec Ideal ⟨2, ![r, n]⟩ .f32) (init : u.Idx → Ideal .f32)
    (h' : (⟨2, ![r, n]⟩ : Shape).ReducesTo [1] ⟨1, ![r]⟩) (hu : 0 < u.numel)
    (h : (⟨2, ![r, n]⟩ : Shape).Reduces [1] ⟨1, ![r]⟩) (p : Fin r) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h x _ (ix1 p)]
  exact congrArg (init (Shape.Idx.first hu) + ·) (Finset.sum_congr rfl fun k _ => congrArg x (LibLaneReduce.lift_lanes h p k))

/-- An index of a vector is its one coordinate. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) : ∑ i, f i = ∑ k : Fin n, f (ix1 k) :=
  (Equiv.sum_comp (idxEquiv1 (n := n)).symm f).symm

/-- A host sum of a whole vector. -/
theorem hostTotalSum_apply {n : Nat} {u : Shape} (x : FVec Ideal ⟨1, ![n]⟩ .f32) (init : u.Idx → Ideal .f32)
    (h' : (⟨1, ![n]⟩ : Shape).ReducesTo [0] ⟨0, ![]⟩) (hu : 0 < u.numel) (j : (⟨0, ![]⟩ : Shape).Idx) :
    Host.reduceAdd x init h' hu j = init (Shape.Idx.first hu) + ∑ k : Fin n, x (ix1 k) := by
  show Ideal.hostReduceAdd h' x (init (Shape.Idx.first hu)) j = _
  rw [Ideal.hostReduceAdd_total h' (fun b => b.elim0) x _ j, sum_idx1]

/-- A host product of two arrays contracted on their last axes, read at (p, q). -/
theorem dotGeneralNT_apply {M K N : Nat} {φ₁ φ₂ : FTy} (prec : Option ContractPrecision)
    (x : FVec Ideal ⟨2, ![M, K]⟩ φ₁) (w : FVec Ideal ⟨2, ![N, K]⟩ φ₂) (p : Fin M) (q : Fin N) :
    Host.dotGeneral (DotDims.transposedRhs M K N) prec x w (ix2 p q) = ∑ k : Fin K, x (ix2 p k) * w (ix2 q k) := by
  show FloatOps.dotGeneral (DotDims.transposedRhs M K N) prec .single x w (ix2 p q) = _
  rw [Ideal.dotGeneral_apply, ← Equiv.sum_comp (contrEquiv1 (DotDims.transposedRhs M K N) K rfl rfl).symm]
  refine Finset.sum_congr rfl fun k _ => ?_
  rw [LibMatmulNT.lhsIdx_eq, LibMatmulNT.rhsIdx_eq]

end LibHostRead

end
-- ==== Proof.KerTailRead.lean ====
/-
  The layout operations of the host operations after the kernel call, each read at an index.
  Rows 0..4095 of a column of 8192 rows, viewed as a vector of length 4096, hold at m the column's entry (m, 0).
  A vector of length 4096 written twice, one copy after the other, holds at k the vector's entry k mod 4096.
  A rank-0 constant broadcast to a vector holds the constant's word everywhere.
-/
import proofs.«107719_j5016521802072_1_alg».proof.KernelIdeal
import proofs.«107719_j5016521802072_1_alg».proof.Proof.LibReshapeRead
import Idealize.ShloMosaic.Lib.ValueIdx
import Idealize.ShloMosaic.Lib.Pipeline.Value

noncomputable section

namespace Cert.KernelIdeal.Tail

open Idealize.ShloMosaic Idealize.ShloMosaic.ValueIdx Cert.KernelIdeal
open Cert.KernelIdeal.Facts₀ Cert.KernelIdeal.Facts

variable [Cert.KernelIdeal.Facts]

/-- The first 4096 rows of a column, as a vector: entry m is the column's entry (m, 0). -/
theorem pairs_at {α : Type} (P : S8192x1.Idx → α) (m : Fin 4096) :
    shapeCast S4096 (extractStridedSlice S4096x1 ![0, 0] P slices_S8192x1_S4096x1_0_0) shapeCasts_S4096x1_S4096 (ix1 m)
      = P (ix2 ⟨m.val, by omega⟩ 0) := by
  rw [Cert.DistSeams.col_to_vec_apply]
  refine extractStridedSlice_apply _ P _ _ (ix2 ⟨m.val, by omega⟩ 0) (fun a => ?_)
  match a with
  | ⟨0, _⟩ => show m.val = 0 + m.val; omega
  | ⟨1, _⟩ => show 0 = 0 + 0; rfl

/-- A vector of length 4096 followed by itself: entry k is the vector's entry k mod 4096. -/
theorem concat_at {α : Type} (x : S4096.Idx → α) (k : Fin 8192) :
    concatenate S8192 0 [⟨S4096, x⟩, ⟨S4096, x⟩] concatenates_S4096_S4096_S8192_d0 (ix1 k)
      = x (ix1 ⟨k.val % 4096, Nat.mod_lt _ (by norm_num)⟩) := by
  by_cases h : k.val < 4096
  · have e : (⟨k.val % 4096, Nat.mod_lt _ (by norm_num)⟩ : Fin 4096) = ⟨k.val, h⟩ := Fin.ext (Nat.mod_eq_of_lt h)
    rw [e]
    refine concatenate_pair_apply_left 0 x x _ (ix1 k) rfl (ix1 ⟨k.val, h⟩) (fun b => ?_)
    match b with
    | ⟨0, _⟩ => rfl
  · have hk := k.isLt
    have e : (⟨k.val % 4096, Nat.mod_lt _ (by norm_num)⟩ : Fin 4096) = ⟨k.val - 4096, by omega⟩ :=
      Fin.ext (by show k.val % 4096 = k.val - 4096; omega)
    rw [e]
    refine concatenate_pair_apply_right 0 x x _ (ix1 k) rfl rfl (ix1 ⟨k.val - 4096, by omega⟩) (fun b hb => ?_) ?_
    · match b with
      | ⟨0, _⟩ => exact absurd rfl hb
    · show k.val - 4096 + 4096 = k.val
      omega

/-- A rank-0 constant broadcast to a vector of length 8192 is its word at every index. -/
theorem bcast_const_at (b : BitVec 32) (j : S8192.Idx) :
    broadcastInDim S8192 ![] bcast_S_S8192 (constant (F := Ideal) S_ .f32 b) j = Ideal.ofBits .f32 b := rfl

end Cert.KernelIdeal.Tail

end
-- ==== Proof.KerTail.lean ====
/-
  The host operations that follow the kernel call, composed into one function of the two result arrays:
  D, the denominators, and P, the pair terms, both columns of 8192 rows. The pair terms of rows 0..4095 are
  taken and repeated (so row k reads row k mod 4096), divided by the word 1/2; the logarithm of the denominators is
  subtracted, the sign changed, the 8192 entries summed from the word 0, and the sum divided by the word 8192.
-/
import proofs.«107719_j5016521802072_1_alg».proof.KernelIdeal
import proofs.«107719_j5016521802072_1_alg».proof.Proof.Spec
import proofs.«107719_j5016521802072_1_alg».proof.Proof.LibHostRead
import proofs.«107719_j5016521802072_1_alg».proof.Proof.KerTailRead

noncomputable section

namespace Cert.KernelIdeal.Tail

open Idealize.ShloMosaic Idealize.ShloMosaic.ValueIdx Cert.KernelIdeal
open Cert.KernelIdeal.Facts₀ Cert.KernelIdeal.Facts

variable [Cert.KernelIdeal.Facts]

/-- The composition of the host operations after the kernel call, in the program's order. -/
def tailFn (D P : (⟨S8192x1, .f32⟩ : BufTy).Contents (Elt Ideal)) : (⟨S_, .f32⟩ : BufTy).Contents (Elt Ideal) :=
  have v10 : (⟨S4096x1, .f32⟩ : BufTy).Contents (Elt Ideal) :=
    extractStridedSlice S4096x1 ![0, 0] P slices_S8192x1_S4096x1_0_0
  have v11 : (⟨S4096, .f32⟩ : BufTy).Contents (Elt Ideal) :=
    fun i => shapeCast S4096 v10 shapeCasts_S4096x1_S4096 i
  have v12 : (⟨S8192, .f32⟩ : BufTy).Contents (Elt Ideal) :=
    concatenate S8192 0 [⟨S4096, v11⟩, ⟨S4096, v11⟩] concatenates_S4096_S4096_S8192_d0
  have v13 : (⟨S8192, .f32⟩ : BufTy).Contents (Elt Ideal) :=
    fun i => shapeCast S8192 D shapeCasts_S8192x1_S8192 i
  have cst_2 : (⟨S_, .f32⟩ : BufTy).Contents (Elt Ideal) := constant (F := Ideal) S_ .f32 0x3F000000#32
  have v14 : (⟨S8192, .f32⟩ : BufTy).Contents (Elt Ideal) := broadcastInDim S8192 ![] bcast_S_S8192 cst_2
  have v15 : (⟨S8192, .f32⟩ : BufTy).Contents (Elt Ideal) := Host.divf (F := Ideal) (φ := .f32) v12 v14
  have v16 : (⟨S8192, .f32⟩ : BufTy).Contents (Elt Ideal) := Host.log (F := Ideal) (φ := .f32) v13
  have v17 : (⟨S8192, .f32⟩ : BufTy).Contents (Elt Ideal) := subf (F := Ideal) (φ := .f32) v15 v16
  have v18 : (⟨S8192, .f32⟩ : BufTy).Contents (Elt Ideal) := Host.negf (F := Ideal) (φ := .f32) v17
  have cst_3 : (⟨S_, .f32⟩ : BufTy).Contents (Elt Ideal) := constant (F := Ideal) S_ .f32 0x00000000#32
  have v19 : (⟨S_, .f32⟩ : BufTy).Contents (Elt Ideal) :=
    Host.reduceAdd (F := Ideal) (φ := .f32) v18 cst_3 reducesTo_S8192_S_d0 h_S_
  have cst_4 : (⟨S_, .f32⟩ : BufTy).Contents (Elt Ideal) := constant (F := Ideal) S_ .f32 0x46000000#32
  Host.divf (F := Ideal) (φ := .f32) v19 cst_4

/-- The composition read at the result's one index: the mean, over the 8192 rows, of minus
    (the pair term of row k mod 4096 over the word 1/2, less the logarithm of row k's denominator). -/
theorem tail_at (D P : (⟨S8192x1, .f32⟩ : BufTy).Contents (Elt Ideal)) (i : S_.Idx) :
    tailFn D P i
      = Ideal.div (Cert.Spec.w0 + ∑ k : Fin 8192,
          -(Ideal.div (P (ix2 ⟨k.val % 4096, by have := k.isLt; omega⟩ 0)) Cert.Spec.wh
            - Ideal.log (D (ix2 k 0)))) Cert.Spec.wN := by
  unfold tailFn
  show Ideal.div (Host.reduceAdd (F := Ideal) (φ := .f32) _ _ reducesTo_S8192_S_d0 h_S_ i)
      (Ideal.ofBits .f32 0x46000000#32) = _
  rw [LibHostRead.hostTotalSum_apply]
  refine congrArg (fun z => Ideal.div (Cert.Spec.w0 + z) Cert.Spec.wN) (Finset.sum_congr rfl fun k _ => ?_)
  show -(Ideal.div (concatenate S8192 0
          [⟨S4096, fun i => shapeCast S4096 (extractStridedSlice S4096x1 ![0, 0] P slices_S8192x1_S4096x1_0_0)
              shapeCasts_S4096x1_S4096 i⟩,
           ⟨S4096, fun i => shapeCast S4096 (extractStridedSlice S4096x1 ![0, 0] P slices_S8192x1_S4096x1_0_0)
              shapeCasts_S4096x1_S4096 i⟩]
          concatenates_S4096_S4096_S8192_d0 (ix1 k))
        (broadcastInDim S8192 ![] bcast_S_S8192 (constant (F := Ideal) S_ .f32 0x3F000000#32) (ix1 k))
      - Ideal.log (shapeCast S8192 D shapeCasts_S8192x1_S8192 (ix1 k))) = _
  rw [concat_at, pairs_at, bcast_const_at, Cert.DistSeams.col_to_vec_apply]

end Cert.KernelIdeal.Tail

end
-- ==== Proof.KIResult.lean ====
/-
  The idealized kernel program's result. The host lines after the region slice the pairs' array to its first half,
  repeat it, divide by one half, subtract the logarithm of the denominators, negate, sum over the 8192 rows and divide by
  8192: at the program's one result index that is the kernel's arrangement of the loss.
-/
import proofs.«107719_j5016521802072_1_alg».proof.Proof.KIFinal
import proofs.«107719_j5016521802072_1_alg».proof.Proof.KIRun
import proofs.«107719_j5016521802072_1_alg».proof.Proof.KerTail
import proofs.«107719_j5016521802072_1_alg».proof.Proof.Spec

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.KernelIdeal.Payloads Cert.KernelIdeal.Blocks

variable (c : Dev nD)

set_option maxHeartbeats 4000000 in
/-- What the last host lines compute from the two result arrays is the kernel's arrangement of the loss. -/
theorem result_eq :
    (StableHlo.after (List.flatten [hostOps1]) (E m c) (Proc.devRef .tc main_v20) : S_.Idx → EReal)
      = fun _ => Cert.Spec.kerLoss (Zf m c) (rawf m c) (sqcf m c) := by
  have h : (StableHlo.after (List.flatten [hostOps1]) (E m c) (Proc.devRef .tc main_v20) : S_.Idx → EReal)
      = Cert.KernelIdeal.Tail.tailFn (G6 m c) (G7 m c) := by
    show StableHlo.after hostOps1 (E m c) (Proc.devRef .tc main_v20) = _
    after_results
    rw [E_v9_0, E_v9_1, final6, final7]
    rfl
  rw [h]
  funext i
  rw [Cert.KernelIdeal.Tail.tail_at]
  unfold Cert.Spec.kerLoss
  congr 2
  refine Finset.sum_congr rfl fun k _ => ?_
  rw [G6_at m c k, G7_at m c ⟨k.val % 4096, Nat.mod_lt _ (by norm_num)⟩]

/-- The program's run with its result named: every weakly fair execution terminates, the result is the kernel's
    arrangement of the loss of the arrays the region found, and the two arguments are unchanged. -/
theorem run_value : θ_run defs (onTc (τ := τ) (main (F := Ideal))) ⟨m, fun _ => 0, ρ⟩ (fun r => ∀ c : Dev nD,
      r.2.mem ((c.tc : Thread nD τ).loc main_v20) = (fun _ => Cert.Spec.kerLoss (Zf m c) (rawf m c) (sqcf m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v20 (Pipeline.mem_restRefs_of main_v20 (by decide) (by decide))).trans (result_eq m c),
     ((h c).2 main_arg0 (Pipeline.mem_restRefs_of main_arg0 (by decide) (by decide))).trans (tail_arg0 m c),
     ((h c).2 main_arg1 (Pipeline.mem_restRefs_of main_arg1 (by decide) (by decide))).trans (tail_arg1 m c)⟩) (run_main m ρ)

end Cert.KernelIdeal.Frame

end
-- ==== Proof.RefSim.lean ====
/-
  The reference's similarity matrix read at one entry. With Z the joined array (8192 rows of 8 coordinates), raw the
  rows' squared norms and sqc their clipped values, stage 43 of the reference at (r, c) is

    1 / (1 + log (x + s)),   x = max (raw r + raw c - 2 * sum_k Z r k * Z c k) 0 / ((1 - sqc r) * (1 - sqc c)) * 2 + 1,

  with s the square root of x * x - 1 where that is positive and zero elsewhere: the similarity of rows r and c.
  The broadcasts along rows and columns read raw and sqc at r and at c; the product of Z with its transpose at
  (r, c) is the sum over the 8 coordinates of Z r k * Z c k.
-/
import Idealize.ShloMosaic.Lib.ValueIdx
import Idealize.ShloMosaic.Lib.Pipeline.Value
import Idealize.ShloMosaic.PureOps.Ideal.Laws
import proofs.«107719_j5016521802072_1_alg».proof.Proof.ReadP
import proofs.«107719_j5016521802072_1_alg».proof.Proof.Spec

noncomputable section

namespace Cert.ReferenceIdeal.RefSpec

open Cert.ReferenceIdeal Cert.ReferenceIdeal.Gen Cert.ReferenceIdeal.Read Idealize.ShloMosaic Idealize.ShloMosaic.ValueIdx

/-- The two argument arrays' type. -/
abbrev Arg : Type := (⟨S4096x8, .f32⟩ : BufTy).Contents (Elt Ideal)

/-- The joined array's rows, the rows' squared norms and their clipped values: the three arrays the similarity is a
    function of. -/
abbrev Zf (x0 x1 : Arg) : Fin 8192 → Fin 8 → EReal := fun r k => val_main_v0 (F := Ideal) x0 x1 (ix2 r k)
abbrev rawf (x0 x1 : Arg) : Fin 8192 → EReal := fun r => val_main_v2 (F := Ideal) x0 x1 (ix1 r)
abbrev sqcf (x0 x1 : Arg) : Fin 8192 → EReal := fun r => val_main_v3 (F := Ideal) x0 x1 (ix1 r)

section indices
variable (r c : Fin 8192) (k : Fin 8)

/-- A broadcast along the columns reads its vector at the row. -/
theorem idx_row_raw : idx_main_v4 (idx_main_v6 (ix2 r c)) = ix1 r :=
  funext fun a => Fin.ext (by match a with | ⟨0, _⟩ => rfl)
/-- A broadcast along the rows reads its vector at the column. -/
theorem idx_col_raw : idx_main_v5 (idx_main_v7 (ix2 r c)) = ix1 c :=
  funext fun a => Fin.ext (by match a with | ⟨0, _⟩ => rfl)
theorem idx_row_sqc : idx_main_v16 (idx_main_v22 (ix2 r c)) = ix1 r :=
  funext fun a => Fin.ext (by match a with | ⟨0, _⟩ => rfl)
theorem idx_col_sqc : idx_main_v19 (idx_main_v23 (ix2 r c)) = ix1 c :=
  funext fun a => Fin.ext (by match a with | ⟨0, _⟩ => rfl)
/-- The product's left factor at (r, c), term k: Z at (r, k). -/
theorem idx_dot_left : lidx_main_v10 (ix2 r c) k = ix2 r k :=
  funext fun a => Fin.ext (by match a with | ⟨0, _⟩ => rfl | ⟨1, _⟩ => rfl)
/-- The product's right factor is the transpose: at (r, c), term k, Z at (c, k). -/
theorem idx_dot_right : idx_main_v9 (ridx_main_v10 (ix2 r c) k) = ix2 c k :=
  funext fun a => Fin.ext (by match a with | ⟨0, _⟩ => rfl | ⟨1, _⟩ => rfl)

end indices

/-- The argument of the inverse hyperbolic cosine at (r, c): stage 29. -/
theorem x_at (x0 x1 : Arg) (r c : Fin 8192) :
    val_main_v29 (F := Ideal) x0 x1 (ix2 r c)
      = Ideal.div (max (rawf x0 x1 r + rawf x0 x1 c - Cert.Spec.w2 * ∑ k : Fin 8, Zf x0 x1 r k * Zf x0 x1 c k) Cert.Spec.w0)
          ((Cert.Spec.w1 - sqcf x0 x1 r) * (Cert.Spec.w1 - sqcf x0 x1 c)) * Cert.Spec.w2 + Cert.Spec.w1 := by
  rw [val_main_v29_apply, val_main_v27_apply, val_main_v25_apply, val_main_v15_apply, val_main_v13_apply,
    val_main_v8_apply, val_main_v6_apply, val_main_v4_apply, val_main_v7_apply, val_main_v5_apply,
    val_main_v12_apply, val_main_v11_apply, val_main_cst_2_apply, val_main_v10_apply,
    val_main_v14_apply, val_main_cst_3_apply,
    val_main_v24_apply, val_main_v22_apply, val_main_v18_apply, val_main_v17_apply, val_main_cst_4_apply, val_main_v16_apply,
    val_main_v23_apply, val_main_v21_apply, val_main_v20_apply, val_main_cst_5_apply, val_main_v19_apply,
    val_main_v26_apply, val_main_cst_6_apply, val_main_v28_apply, val_main_cst_7_apply]
  simp only [val_main_v9_apply, idx_row_raw, idx_col_raw, idx_row_sqc, idx_col_sqc, idx_dot_left, idx_dot_right,
    Ideal.ofBits_def, Ideal.addf_def, Ideal.subf_def, Ideal.mulf_def, Ideal.maximumf_def, Ideal.hostDivf_def]

/-- Stage 43 at (r, c) is the similarity of rows r and c. -/
theorem sim_at (x0 x1 : Arg) (r c : Fin 8192) :
    val_main_v43 (F := Ideal) x0 x1 (ix2 r c) = Cert.Spec.sim (Zf x0 x1) (rawf x0 x1) (sqcf x0 x1) r c := by
  rw [val_main_v43_apply, val_main_v42_apply, val_main_cst_13_apply, val_main_v41_apply, val_main_v40_apply,
    val_main_cst_12_apply, val_main_v39_apply, val_main_v38_apply, val_main_v37_apply, val_main_call2_v1_apply,
    val_main_call2_v0_apply, val_main_cst_11_apply, val_main_v36_apply, val_main_v35_apply, val_main_call1_v1_apply,
    val_main_call1_v0_apply, val_main_cst_10_apply, val_main_v34_apply, val_main_v33_apply, val_main_cst_9_apply,
    val_main_v32_apply, val_main_v31_apply, val_main_cst_8_apply, val_main_v30_apply, x_at]
  simp only [Ideal.ofBits_def, Ideal.addf_def, Ideal.subf_def, Ideal.mulf_def, Ideal.hostDivf_def,
    Ideal.hostUnary_sqrt_def, Ideal.hostUnary_log_def, Ideal.cmpf_def]
  rfl

end Cert.ReferenceIdeal.RefSpec

end
-- ==== Proof.RefWords.lean ====
/-
  Facts about 32-bit words that hold numbers below 2^31: such a word read as a signed integer is the number, it is
  not below zero, the sum of two such words is the word of the sum, and two words of numbers below 2^32 are equal
  exactly when the numbers are.
-/
import Idealize.ShloMosaic.Lib.ValueIdx
import Idealize.ShloMosaic.PureOps.Ideal.Laws

noncomputable section

namespace Cert.ReferenceIdeal.RefSpec

open Idealize.ShloMosaic

/-- A word holding a number below 2^31, read signed, is that number. -/
theorem word_toInt (m : Nat) (h : m < 2147483648) : (BitVec.ofNat 32 m).toInt = (m : Int) := by
  rw [BitVec.toInt_eq_toNat_cond, BitVec.toNat_ofNat]
  have e : m % 2 ^ 32 = m := Nat.mod_eq_of_lt (by omega)
  rw [e, if_pos (by omega)]

/-- Read signed and then as a natural number, it is still that number. -/
theorem word_toNat (m : Nat) (h : m < 2147483648) : (BitVec.ofNat 32 m).toInt.toNat = m := by
  rw [word_toInt m h]; rfl

/-- Such a word is not below zero in the signed order. -/
theorem word_not_neg (m : Nat) (h : m < 2147483648) : IntOp.cmpi .slt (BitVec.ofNat 32 m) 0#32 = 0#1 := by
  unfold IntOp.cmpi
  show BitVec.ofBool ((BitVec.ofNat 32 m).slt 0#32) = 0#1
  rw [BitVec.slt_eq_decide, word_toInt m h, decide_eq_false (by simp)]
  rfl

/-- Adding two words is adding the numbers. -/
theorem word_add (m n : Nat) : IntOp.addi (BitVec.ofNat 32 m) (BitVec.ofNat 32 n) = BitVec.ofNat 32 (m + n) := by
  unfold IntOp.addi
  exact (BitVec.ofNat_add m n).symm

/-- The equality test of two words of numbers below 2^32, read as a number: one where the numbers are equal, zero
    elsewhere. -/
theorem word_eq (a b : Nat) (ha : a < 4294967296) (hb : b < 4294967296) :
    (IntOp.cmpi .eq (BitVec.ofNat 32 a) (BitVec.ofNat 32 b)).toNat = if a = b then 1 else 0 := by
  unfold IntOp.cmpi
  show (BitVec.ofBool (BitVec.ofNat 32 a == BitVec.ofNat 32 b)).toNat = _
  by_cases h : a = b
  · subst h; simp
  · rw [if_neg h]
    have : (BitVec.ofNat 32 a == BitVec.ofNat 32 b) = false := by
      rw [beq_eq_false_iff_ne]
      intro e
      have := congrArg BitVec.toNat e
      simp only [BitVec.toNat_ofNat] at this
      omega
    rw [this]; rfl

end Cert.ReferenceIdeal.RefSpec

end
-- ==== Proof.LibPointGather.lean ====
/-
  A point gather out of a matrix: x[rows, cols] for two integer vectors of one length, which lowers to a
  stablehlo.gather over the index pairs [R, 2] (offset_dims [], collapsed_slice_dims [0, 1], start_index_map [0, 1],
  index_vector_dim 1, slice_sizes [1, 1]). Result element r is the matrix at the r-th pair, each component read as a
  signed integer (negatives to 0) and clamped into its axis. General in the three extents, the index width and the
  element type.
-/
import Idealize.ShloMosaic.PureOps.Ideal.Laws
import Idealize.ShloMosaic.Lib.ValueIdx

noncomputable section

namespace LibPointGather

open Idealize.ShloMosaic Idealize.ShloMosaic.ValueIdx

variable {α : Type}

/-- Those dimension numbers for an [N, M] operand, [R, 2] index pairs and an [R] result. -/
abbrev pairDims (N M R : Nat) (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

section
variable {N M R w : Nat} (wf : GatherDims.WF ⟨2, ![N, M]⟩ ⟨2, ![R, 2]⟩ ⟨1, ![R]⟩ [] [0, 1] [] [0, 1] [] 1 ![1, 1])
  (idx : IVec ⟨2, ![R, 2]⟩ w) (r : Fin R)

/-- The slice's start on the rows' axis: the pair's first component, clamped. -/
theorem start_rows : (pairDims N M R wf).start (ix1 r) idx (0 : Fin 2) = min (idx (ix2 r (0 : Fin 2))).toInt.toNat (N - 1) := by
  unfold GatherDims.start
  rw [dif_pos (show (0 : Fin 2) ∈ (pairDims N M R wf).startIndexMap from by simp)]
  have hsi : (pairDims N M R wf).siIdx (ix1 r) ⟨List.idxOf (0 : Fin 2) (pairDims N M R wf).startIndexMap,
      List.idxOf_lt_length_iff.2 (by simp)⟩ = ix2 r (0 : Fin 2) := by
    funext b; refine Fin.ext ?_
    match b with
    | ⟨0, _⟩ => rfl
    | ⟨1, _⟩ => rfl
  rw [hsi]
  rfl

/-- The slice's start on the columns' axis: the pair's second component, clamped. -/
theorem start_cols : (pairDims N M R wf).start (ix1 r) idx (1 : Fin 2) = min (idx (ix2 r (1 : Fin 2))).toInt.toNat (M - 1) := by
  unfold GatherDims.start
  rw [dif_pos (show (1 : Fin 2) ∈ (pairDims N M R wf).startIndexMap from by simp)]
  have hsi : (pairDims N M R wf).siIdx (ix1 r) ⟨List.idxOf (1 : Fin 2) (pairDims N M R wf).startIndexMap,
      List.idxOf_lt_length_iff.2 (by simp)⟩ = ix2 r (1 : Fin 2) := by
    funext b; refine Fin.ext ?_
    match b with
    | ⟨0, _⟩ => rfl
    | ⟨1, _⟩ => rfl
  rw [hsi]
  rfl

end

/-- THE GATHER READ AT r: the matrix at (pair r's first component, pair r's second component), each read signed and
    clamped into its axis. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pairDims N M R wf) x idx (ix1 r)
      = x (ix2 ⟨min (idx (ix2 r (0 : Fin 2))).toInt.toNat (N - 1), by omega⟩ ⟨min (idx (ix2 r (1 : Fin 2))).toInt.toNat (M - 1), by omega⟩) := by
  unfold Host.gather
  congr 1
  funext a
  refine Fin.ext ?_
  match a with
  | ⟨0, _⟩ =>
    show (pairDims N M R wf).start (ix1 r) idx (0 : Fin 2) + (pairDims N M R wf).batchCoord (ix1 r) (0 : Fin 2) + (pairDims N M R wf).offCoord (ix1 r) (0 : Fin 2) = _
    rw [GatherDims.batchCoord_eq_zero _ _ _ List.not_mem_nil,
      GatherDims.offCoord_eq_zero _ _ _ (fun h => ((GatherDims.mem_sKept _ _).mp h).1 (by simp)), start_rows]
    rfl
  | ⟨1, _⟩ =>
    show (pairDims N M R wf).start (ix1 r) idx (1 : Fin 2) + (pairDims N M R wf).batchCoord (ix1 r) (1 : Fin 2) + (pairDims N M R wf).offCoord (ix1 r) (1 : Fin 2) = _
    rw [GatherDims.batchCoord_eq_zero _ _ _ List.not_mem_nil,
      GatherDims.offCoord_eq_zero _ _ _ (fun h => ((GatherDims.mem_sKept _ _).mp h).1 (by simp)), start_cols]
    rfl

end LibPointGather

end
-- ==== Proof.RefPos.lean ====
/-
  The reference's positive pairs. The reference looks up sim[idx, idx + 4096] and sim[idx + 4096, idx] for
  idx = 0 .. 4095 and joins the two vectors: entry k of the result is the similarity of row k and row k + 4096 in the
  first half, of row k and row k - 4096 in the second.

  The index words hold numbers below 2^31, so the wrap of a negative index (add 8192 where the word is below zero)
  never fires and every select takes the word itself; a gather of points out of the matrix by the pairs of words
  reads the matrix at the two numbers, which are inside the matrix, so the clamp does nothing either.
-/
import Idealize.ShloMosaic.Lib.ValueIdx
import Idealize.ShloMosaic.Lib.Pipeline.Value
import Idealize.ShloMosaic.PureOps.Ideal.Laws
import proofs.«107719_j5016521802072_1_alg».proof.Proof.ReadP
import proofs.«107719_j5016521802072_1_alg».proof.Proof.Spec
import proofs.«107719_j5016521802072_1_alg».proof.Proof.RefSim
import proofs.«107719_j5016521802072_1_alg».proof.Proof.RefWords
import proofs.«107719_j5016521802072_1_alg».proof.Proof.LibPointGather

noncomputable section

namespace Cert.ReferenceIdeal.RefSpec

open Cert.ReferenceIdeal Cert.ReferenceIdeal.Gen Cert.ReferenceIdeal.Read Idealize.ShloMosaic Idealize.ShloMosaic.ValueIdx

/-! ## The index words at k -/

section words
variable (k : Fin 4096)

/-- idx + 4096 at k (the first lookup's columns). -/
theorem v46_at : val_main_v46 (F := Ideal) (ix1 k) = BitVec.ofNat 32 (k.val + 4096) := by
  rw [val_main_v46_apply, val_main_v45_apply, val_main_c_apply, val_main_v44_apply]
  exact word_add k.val 4096

/-- idx + 4096 at k (the second lookup's rows). -/
theorem v62_at : val_main_v62 (F := Ideal) (ix1 k) = BitVec.ofNat 32 (k.val + 4096) := by
  rw [val_main_v62_apply, val_main_v61_apply, val_main_c_18_apply, val_main_v44_apply]
  exact word_add k.val 4096

/-- The first lookup's rows: idx is not negative, the select takes it. -/
theorem v51_at : val_main_v51 (F := Ideal) (ix1 k) = BitVec.ofNat 32 k.val := by
  rw [val_main_v51_apply, val_main_v48_apply, val_main_v47_apply, val_main_c_14_apply, val_main_v44_apply]
  show Scalar.select (IntOp.cmpi .slt (BitVec.ofNat 32 k.val) 0#32) (val_main_v50 (F := Ideal) (ix1 k)) (BitVec.ofNat 32 k.val)
    = BitVec.ofNat 32 k.val
  rw [word_not_neg _ (by have := k.isLt; omega), select_zero]

/-- The first lookup's columns: idx + 4096 is not negative, the select takes it. -/
theorem v56_at : val_main_v56 (F := Ideal) (ix1 k) = BitVec.ofNat 32 (k.val + 4096) := by
  rw [val_main_v56_apply, val_main_v53_apply, val_main_v52_apply, val_main_c_16_apply, v46_at,
    word_not_neg _ (by have := k.isLt; omega), select_zero]

/-- The second lookup's rows. -/
theorem v67_at : val_main_v67 (F := Ideal) (ix1 k) = BitVec.ofNat 32 (k.val + 4096) := by
  rw [val_main_v67_apply, val_main_v64_apply, val_main_v63_apply, val_main_c_19_apply, v62_at,
    word_not_neg _ (by have := k.isLt; omega), select_zero]

/-- The second lookup's columns. -/
theorem v72_at : val_main_v72 (F := Ideal) (ix1 k) = BitVec.ofNat 32 k.val := by
  rw [val_main_v72_apply, val_main_v69_apply, val_main_v68_apply, val_main_c_21_apply, val_main_v44_apply]
  show Scalar.select (IntOp.cmpi .slt (BitVec.ofNat 32 k.val) 0#32) (val_main_v71 (F := Ideal) (ix1 k)) (BitVec.ofNat 32 k.val)
    = BitVec.ofNat 32 k.val
  rw [word_not_neg _ (by have := k.isLt; omega), select_zero]

/-- A column vector [4096, 1] made of a vector reads it at the row. -/
theorem idx_col57 : idx_main_v57 (ix2 k (0 : Fin 1)) = ix1 k := funext fun a => Fin.ext (by match a with | ⟨0, _⟩ => rfl)
theorem idx_col58 : idx_main_v58 (ix2 k (0 : Fin 1)) = ix1 k := funext fun a => Fin.ext (by match a with | ⟨0, _⟩ => rfl)
theorem idx_col73 : idx_main_v73 (ix2 k (0 : Fin 1)) = ix1 k := funext fun a => Fin.ext (by match a with | ⟨0, _⟩ => rfl)
theorem idx_col74 : idx_main_v74 (ix2 k (0 : Fin 1)) = ix1 k := funext fun a => Fin.ext (by match a with | ⟨0, _⟩ => rfl)

/-- The first lookup's pair k: (k, k + 4096). -/
theorem v59_fst : val_main_v59 (F := Ideal) (ix2 k (0 : Fin 2)) = BitVec.ofNat 32 k.val := by
  unfold val_main_v59
  rw [concatenate_pair_apply_left (s₁ := S4096x1) (s₂ := S4096x1) _ _ _ _ (ix2 k (0 : Fin 2)) rfl (ix2 k (0 : Fin 1))
      (fun b => match b with | ⟨0, _⟩ => rfl | ⟨1, _⟩ => rfl),
    val_main_v57_apply, idx_col57, v51_at]
theorem v59_snd : val_main_v59 (F := Ideal) (ix2 k (1 : Fin 2)) = BitVec.ofNat 32 (k.val + 4096) := by
  unfold val_main_v59
  rw [concatenate_pair_apply_right (s₁ := S4096x1) (s₂ := S4096x1) _ _ _ _ (ix2 k (1 : Fin 2)) rfl rfl (ix2 k (0 : Fin 1))
      (fun b hb => match b, hb with | ⟨0, _⟩, _ => rfl | ⟨1, _⟩, hb => absurd rfl hb) rfl,
    val_main_v58_apply, idx_col58, v56_at]

/-- The second lookup's pair k: (k + 4096, k). -/
theorem v75_fst : val_main_v75 (F := Ideal) (ix2 k (0 : Fin 2)) = BitVec.ofNat 32 (k.val + 4096) := by
  unfold val_main_v75
  rw [concatenate_pair_apply_left (s₁ := S4096x1) (s₂ := S4096x1) _ _ _ _ (ix2 k (0 : Fin 2)) rfl (ix2 k (0 : Fin 1))
      (fun b => match b with | ⟨0, _⟩ => rfl | ⟨1, _⟩ => rfl),
    val_main_v73_apply, idx_col73, v67_at]
theorem v75_snd : val_main_v75 (F := Ideal) (ix2 k (1 : Fin 2)) = BitVec.ofNat 32 k.val := by
  unfold val_main_v75
  rw [concatenate_pair_apply_right (s₁ := S4096x1) (s₂ := S4096x1) _ _ _ _ (ix2 k (1 : Fin 2)) rfl rfl (ix2 k (0 : Fin 1))
      (fun b hb => match b, hb with | ⟨0, _⟩, _ => rfl | ⟨1, _⟩, hb => absurd rfl hb) rfl,
    val_main_v74_apply, idx_col74, v72_at]

end words

/-! ## The two lookups -/

/-- The reference's gather of points, read at k, where pair k holds two numbers inside the matrix: the matrix there. -/
theorem gather_at {α : Type} (x : S8192x8192.Idx → α) (idx : IVec S4096x2 32) (k : Fin 4096) (a b : Fin 8192)
    (ha : (idx (ix2 k (0 : Fin 2))).toInt.toNat = a.val) (hb : (idx (ix2 k (1 : Fin 2))).toInt.toNat = b.val) :
    Host.gather gather_S8192x8192_S4096x2_S4096_n_01_n_n_01_1_11 x idx (ix1 k) = x (ix2 a b) := by
  rw [show gather_S8192x8192_S4096x2_S4096_n_01_n_n_01_1_11
        = LibPointGather.pairDims 8192 8192 4096 gather_S8192x8192_S4096x2_S4096_n_01_n_n_01_1_11_wf from rfl,
    LibPointGather.gather_pair_apply (by norm_num) (by norm_num)]
  refine congrArg x (funext fun d => ?_)
  match d with
  | ⟨0, _⟩ => exact Fin.ext (by show min _ (8192 - 1) = a.val; rw [ha]; have := a.isLt; omega)
  | ⟨1, _⟩ => exact Fin.ext (by show min _ (8192 - 1) = b.val; rw [hb]; have := b.isLt; omega)

/-- sim[idx, idx + 4096] at k. -/
theorem v60_at (x0 x1 : Arg) (k : Fin 4096) :
    val_main_v60 (F := Ideal) x0 x1 (ix1 k)
      = val_main_v43 (F := Ideal) x0 x1 (ix2 ⟨k.val, by have := k.isLt; omega⟩ ⟨k.val + 4096, by have := k.isLt; omega⟩) := by
  unfold val_main_v60
  exact gather_at _ _ k _ _ (by rw [v59_fst, word_toNat _ (by have := k.isLt; omega)])
    (by rw [v59_snd, word_toNat _ (by have := k.isLt; omega)])

/-- sim[idx + 4096, idx] at k. -/
theorem v76_at (x0 x1 : Arg) (k : Fin 4096) :
    val_main_v76 (F := Ideal) x0 x1 (ix1 k)
      = val_main_v43 (F := Ideal) x0 x1 (ix2 ⟨k.val + 4096, by have := k.isLt; omega⟩ ⟨k.val, by have := k.isLt; omega⟩) := by
  unfold val_main_v76
  exact gather_at _ _ k _ _ (by rw [v75_fst, word_toNat _ (by have := k.isLt; omega)])
    (by rw [v75_snd, word_toNat _ (by have := k.isLt; omega)])

/-! ## The joined vector of positives -/

/-- Stage 77 at k is row k's positive pair. -/
theorem pos_at (x0 x1 : Arg) (k : Fin 8192) :
    val_main_v77 (F := Ideal) x0 x1 (ix1 k) = Cert.Spec.refPos (Zf x0 x1) (rawf x0 x1) (sqcf x0 x1) k := by
  unfold Cert.Spec.refPos val_main_v77
  by_cases h : k.val < 4096
  · rw [dif_pos h,
      concatenate_pair_apply_left (s₁ := S4096) (s₂ := S4096) _ _ _ _ (ix1 k) rfl (ix1 (⟨k.val, h⟩ : Fin 4096))
        (fun b => match b with | ⟨0, _⟩ => rfl),
      v60_at, sim_at]
  · rw [dif_neg h,
      concatenate_pair_apply_right (s₁ := S4096) (s₂ := S4096) _ _ _ _ (ix1 k) rfl rfl
        (ix1 (⟨k.val - 4096, by have := k.isLt; omega⟩ : Fin 4096))
        (fun b hb => match b, hb with | ⟨0, _⟩, hb => absurd rfl hb)
        (by show k.val - 4096 + 4096 = k.val; omega),
      v76_at, sim_at]
    congr 1
    exact Fin.ext (by show k.val - 4096 + 4096 = k.val; omega)

end Cert.ReferenceIdeal.RefSpec

end
-- ==== Proof.RefDen.lean ====
/-
  The reference's denominators. The mask is 1 minus the identity matrix: at (r, c) the two iotas hold the words of r
  and c, their equality test read as a number is 1 where r = c and 0 elsewhere. Row r's denominator is zero plus the
  sum over the 8192 columns of mask r c * exp (sim r c / (1/2)).
-/
import Idealize.ShloMosaic.Lib.ValueIdx
import Idealize.ShloMosaic.Lib.Pipeline.Value
import Idealize.ShloMosaic.PureOps.Ideal.Laws
import proofs.«107719_j5016521802072_1_alg».proof.Proof.ReadP
import proofs.«107719_j5016521802072_1_alg».proof.Proof.Spec
import proofs.«107719_j5016521802072_1_alg».proof.Proof.RefSim
import proofs.«107719_j5016521802072_1_alg».proof.Proof.RefWords

noncomputable section

namespace Cert.ReferenceIdeal.RefSpec

open Cert.ReferenceIdeal Cert.ReferenceIdeal.Gen Cert.ReferenceIdeal.Read Idealize.ShloMosaic Idealize.ShloMosaic.ValueIdx

/-- Stage 85 at (r, c): one minus the 0/1 word of r = c read as a number. -/
theorem mask_at (r c : Fin 8192) : val_main_v85 (F := Ideal) (ix2 r c) = Cert.Spec.mask r c := by
  rw [val_main_v85_apply, val_main_v84_apply, val_main_cst_24_apply, val_main_v83_apply, val_main_v82_apply,
    val_main_v81_apply, val_main_v80_apply, val_main_c_23_apply, val_main_v78_apply, val_main_v79_apply]
  have hw : (IntOp.cmpi .eq (IntOp.addi (BitVec.ofNat 32 r.val) 0#32) (BitVec.ofNat 32 c.val)).toNat
      = if r = c then 1 else 0 := by
    rw [show IntOp.addi (BitVec.ofNat 32 r.val) 0#32 = BitVec.ofNat 32 r.val from BitVec.add_zero _,
      word_eq r.val c.val (by have := r.isLt; omega) (by have := c.isLt; omega)]
    by_cases h : r = c
    · rw [if_pos h, if_pos (congrArg Fin.val h)]
    · rw [if_neg h, if_neg (fun e => h (Fin.ext e))]
  show Ideal.ofBits .f32 0x3F800000#32
      - (((IntOp.cmpi .eq (IntOp.addi (BitVec.ofNat 32 r.val) 0#32) (BitVec.ofNat 32 c.val)).toNat : ℝ) : EReal)
    = Cert.Spec.mask r c
  rw [hw]
  rfl

/-- A sum along the columns reads its matrix at (row, term). -/
theorem idx_rowsum (r c : Fin 8192) : idx_main_v90 (ix1 r) c = ix2 r c :=
  funext fun a => Fin.ext (by match a with | ⟨0, _⟩ => rfl | ⟨1, _⟩ => rfl)

/-- Stage 89 at (r, c): the masked exponential. -/
theorem term_at (x0 x1 : Arg) (r c : Fin 8192) :
    val_main_v89 (F := Ideal) x0 x1 (ix2 r c)
      = Cert.Spec.mask r c * Cert.Spec.ex (Zf x0 x1) (rawf x0 x1) (sqcf x0 x1) r c := by
  rw [val_main_v89_apply, mask_at, val_main_v88_apply, val_main_v87_apply, sim_at, val_main_v86_apply,
    val_main_cst_25_apply]
  simp only [Ideal.ofBits_def, Ideal.mulf_def, Ideal.hostDivf_def, Ideal.hostUnary_exp_def]
  rfl

/-- Stage 90 at r is row r's denominator. -/
theorem den_at (x0 x1 : Arg) (r : Fin 8192) :
    val_main_v90 (F := Ideal) x0 x1 (ix1 r) = Cert.Spec.refDen (Zf x0 x1) (rawf x0 x1) (sqcf x0 x1) r := by
  rw [val_main_v90_apply, val_main_cst_26_apply]
  unfold Cert.Spec.refDen
  refine congrArg₂ (· + ·) rfl (Finset.sum_congr rfl fun c _ => ?_)
  rw [idx_rowsum, term_at]

end Cert.ReferenceIdeal.RefSpec

end
-- ==== Proof.RefIsSpec.lean ====
/-
  The reference program is the specification: its result, the mean over the 8192 rows of
  -(positive k / (1/2) - log (denominator k)), is the loss of the shared contract, as a function of the joined array,
  the rows' squared norms and their clipped values.
-/
import Idealize.ShloMosaic.Lib.ValueIdx
import Idealize.ShloMosaic.Lib.Pipeline.Value
import Idealize.ShloMosaic.PureOps.Ideal.Laws
import proofs.«107719_j5016521802072_1_alg».proof.Proof.ReadP
import proofs.«107719_j5016521802072_1_alg».proof.Proof.Spec
import proofs.«107719_j5016521802072_1_alg».proof.Proof.RefSim
import proofs.«107719_j5016521802072_1_alg».proof.Proof.RefPos
import proofs.«107719_j5016521802072_1_alg».proof.Proof.RefDen

noncomputable section

namespace Cert.ReferenceIdeal.RefSpec

open Cert.ReferenceIdeal Cert.ReferenceIdeal.Gen Cert.ReferenceIdeal.Read Idealize.ShloMosaic Idealize.ShloMosaic.ValueIdx

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Stage 95 at k: row k's loss. -/
theorem loss_at (x0 x1 : Arg) (k : Fin 8192) :
    val_main_v95 (F := Ideal) x0 x1 (ix1 k)
      = -(Ideal.div (Cert.Spec.refPos (Zf x0 x1) (rawf x0 x1) (sqcf x0 x1) k) Cert.Spec.wh
          - Ideal.log (Cert.Spec.refDen (Zf x0 x1) (rawf x0 x1) (sqcf x0 x1) k)) := by
  rw [val_main_v95_apply, val_main_v94_apply, val_main_v92_apply, pos_at, val_main_v91_apply, val_main_cst_27_apply,
    val_main_v93_apply, den_at]
  simp only [Ideal.ofBits_def, Ideal.subf_def, Ideal.hostDivf_def, Ideal.hostUnary_log_def, Ideal.hostNegf_def,
    Ideal.negf_def]

/-- THE REFERENCE IS THE SPECIFICATION. -/
theorem ref_is_spec (x0 x1 : Arg) (i : S_.Idx) :
    val_main_v97 (F := Ideal) x0 x1 i
      = Cert.Spec.refLoss (fun r k => val_main_v0 (F := Ideal) x0 x1 (ix2 r k))
          (fun r => val_main_v2 (F := Ideal) x0 x1 (ix1 r))
          (fun r => val_main_v3 (F := Ideal) x0 x1 (ix1 r)) := by
  rw [val_main_v97_apply, val_main_v96_apply, val_main_cst_28_apply, val_main_cst_29_apply, sum_idx1]
  simp only [loss_at, Ideal.ofBits_def, Ideal.hostDivf_def]
  rfl

end Cert.ReferenceIdeal.RefSpec

end
-- ==== Proof.Bridge.lean ====
/-
  At the region's entry the kernel program's first three arrays are the reference's first stages. Both programs
  join the two arguments, sum the squares of each row's 8 coordinates from zero, and clip the sums between 0 and
  0.99999 by the same host operations on the same arguments, so the arrays are equal as functions of the arguments.
-/
import proofs.«107719_j5016521802072_1_alg».proof.Proof.KIBase
import proofs.«107719_j5016521802072_1_alg».proof.Proof.ReadP
import Idealize.ShloMosaic.Lib.ValueIdx

set_option maxRecDepth 16384

noncomputable section

namespace Cert.Bridge

open Cert.KernelIdeal Cert.KernelIdeal.Gen Cert.KernelIdeal.Frame
open Idealize.ShloMosaic Idealize.ShloMosaic.TcCoe Idealize.ShloMosaic.Tactic
open Idealize.SL Idealize.SL.Sem

variable (m : (ℓ : Loc nD τ sig) → Buf (Elt Ideal) ℓ) (c : Dev nD)

/-- The two argument arrays, as the program finds them. -/
abbrev a0 : (⟨S4096x8, .f32⟩ : BufTy).Contents (Elt Ideal) := m ((c.tc : Thread nD τ).loc main_arg0)
abbrev a1 : (⟨S4096x8, .f32⟩ : BufTy).Contents (Elt Ideal) := m ((c.tc : Thread nD τ).loc main_arg1)

/-- The joined array. -/
theorem v0_eq : (V m c main_v0 : S8192x8.Idx → EReal) = Cert.ReferenceIdeal.Read.val_main_v0 (F := Ideal) (a0 m c) (a1 m c) := by
  dsimp only [V, V0]
  simp only [hostOps0, hostOps0_1, hostOps0_2, List.flatten_cons, List.flatten_nil, List.append_nil, List.cons_append, List.nil_append]
  after_results
  try rfl

/-- The rows' squared norms. -/
theorem v2_eq : (V m c main_v2 : S8192.Idx → EReal) = Cert.ReferenceIdeal.Read.val_main_v2 (F := Ideal) (a0 m c) (a1 m c) := by
  dsimp only [V, V0]
  simp only [hostOps0, hostOps0_1, hostOps0_2, List.flatten_cons, List.flatten_nil, List.append_nil, List.cons_append, List.nil_append]
  after_results
  try rfl

/-- Their clipped values. -/
theorem v3_eq : (V m c main_v3 : S8192.Idx → EReal) = Cert.ReferenceIdeal.Read.val_main_v3 (F := Ideal) (a0 m c) (a1 m c) := by
  dsimp only [V, V0]
  simp only [hostOps0, hostOps0_1, hostOps0_2, List.flatten_cons, List.flatten_nil, List.append_nil, List.cons_append, List.nil_append]
  after_results
  try rfl

end Cert.Bridge

end
-- ==== Proof.SpecAlgWords.lean ====
/-
  The float words 0 and 1 denote the extended reals 0 and 1, and the reference's mask
  (one minus the 0/1 indicator of the diagonal) multiplies an entry by one off the diagonal
  and by zero on it.
-/
import proofs.«107719_j5016521802072_1_alg».proof.Proof.Spec

noncomputable section

namespace Cert.Spec

open Idealize.ShloMosaic

/-- The all-zero word is the number zero. -/
theorem w0_eq : w0 = 0 := Ideal.ofBits_zero_f32

/-- The word 0x3F800000 is the number one. -/
theorem w1_eq : w1 = 1 := by
  show Ideal.ofBits .f32 0x3F800000#32 = 1
  simp [Ideal.ofBits, Ideal.ieee, -EReal.coe_mul]; norm_num

/-- Off the diagonal the mask is one, on it zero; so a masked entry is the entry or zero. -/
theorem mask_mul (r c : Fin 8192) (x : EReal) :
    mask r c * x = if r ≠ c then x else w0 := by
  unfold mask
  rw [w1_eq, w0_eq]
  by_cases h : r = c
  · have h1 : ((1 : EReal) - (((1 : ℕ) : ℝ) : EReal)) = 0 := by
      rw [Nat.cast_one, EReal.coe_one]
      rw [← EReal.coe_one, ← EReal.coe_sub, sub_self, EReal.coe_zero]
    simp only [h, if_true, ne_eq, not_true_eq_false, if_false]
    rw [h1, zero_mul]
  · have h0 : ((1 : EReal) - (((0 : ℕ) : ℝ) : EReal)) = 1 := by
      rw [Nat.cast_zero, EReal.coe_zero, sub_zero]
    simp only [h, if_false, ne_eq, not_false_eq_true, if_true]
    rw [h0, one_mul]

end Cert.Spec

end
-- ==== Proof.SpecAlgSym.lean ====
/-
  The similarity of two rows is symmetric in the rows: the squared distance term is
  |u|^2 + |v|^2 - 2 u.v, the denominator (1 - s_u)(1 - s_v), and everything else is a function
  of these two. Only commutativity of + and * on the extended reals is used.
-/
import proofs.«107719_j5016521802072_1_alg».proof.Proof.Spec

noncomputable section

namespace Cert.Spec

open Idealize.ShloMosaic

/-- Swapping the two rows (coordinates, squared norms and clipped squared norms) leaves the similarity unchanged. -/
theorem simB_symm (u v : Fin 8 → EReal) (ru rv su sv : EReal) :
    simB u v ru rv su sv = simB v u rv ru sv su := by
  have hs : ∑ k : Fin 8, u k * v k = ∑ k : Fin 8, v k * u k :=
    Finset.sum_congr rfl (fun k _ => mul_comm (u k) (v k))
  unfold simB
  rw [hs, add_comm ru rv, mul_comm (w1 - su) (w1 - sv)]

section
variable (Z : Fin 8192 → Fin 8 → EReal) (raw sqc : Fin 8192 → EReal)

/-- The similarity matrix is symmetric. -/
theorem sim_symm (r c : Fin 8192) : sim Z raw sqc r c = sim Z raw sqc c r := by
  unfold sim
  exact simB_symm (Z r) (Z c) (raw r) (raw c) (sqc r) (sqc c)

end

end Cert.Spec

end
-- ==== Proof.SpecAlgPos.lean ====
/-
  The pair term. The kernel finds the pair of a row k of the first half as a lane sum over the tile
  eight to the right, which has exactly one non-zero entry: the similarity of rows k and k + 4096.
  A row of the second half reads the entry of the row 4096 above it, which is the same number because
  the similarity matrix is symmetric. So for every row the kernel's pair term is the reference's.
-/
import proofs.«107719_j5016521802072_1_alg».proof.Proof.SpecAlgWords
import proofs.«107719_j5016521802072_1_alg».proof.Proof.SpecAlgSym

noncomputable section

namespace Cert.Spec

open Idealize.ShloMosaic

section
variable (Z : Fin 8192 → Fin 8 → EReal) (raw sqc : Fin 8192 → EReal)

/-- Row k % 512 of tile k / 512 + 8 is row k + 4096. -/
theorem row_pair (k : Fin 4096) :
    row ⟨k.val / 512 + 8, by omega⟩ ⟨k.val % 512, Nat.mod_lt _ (by norm_num)⟩
      = (⟨k.val + 4096, by omega⟩ : Fin 8192) := by
  apply Fin.ext
  show 512 * (k.val / 512 + 8) + k.val % 512 = k.val + 4096
  omega

/-- The lane sum picks the one entry on the tile's diagonal: the similarity of rows k and k + 4096. -/
theorem kerPos_eq (k : Fin 4096) :
    kerPos Z raw sqc k = sim Z raw sqc ⟨k.val, by omega⟩ ⟨k.val + 4096, by omega⟩ := by
  unfold kerPos
  rw [w0_eq, Finset.sum_ite_eq, if_pos (Finset.mem_univ _), zero_add, row_pair]

/-- The same, with the two rows given up to their indices. -/
theorem kerPos_eq' (k : Fin 4096) (a b : Fin 8192) (ha : a.val = k.val) (hb : b.val = k.val + 4096) :
    kerPos Z raw sqc k = sim Z raw sqc a b := by
  obtain ⟨a, hal⟩ := a
  obtain ⟨b, hbl⟩ := b
  simp only at ha hb
  subst ha hb
  exact kerPos_eq Z raw sqc k

/-- For every row, the kernel's pair term is the reference's. -/
theorem kerPos_eq_refPos (k : Fin 8192) :
    kerPos Z raw sqc ⟨k.val % 4096, Nat.mod_lt _ (by norm_num)⟩ = refPos Z raw sqc k := by
  unfold refPos
  by_cases h : k.val < 4096
  · rw [dif_pos h]
    exact kerPos_eq' Z raw sqc _ k ⟨k.val + 4096, by omega⟩
      (by show k.val = k.val % 4096; omega) (by show k.val + 4096 = k.val % 4096 + 4096; omega)
  · rw [dif_neg h, sim_symm]
    exact kerPos_eq' Z raw sqc _ ⟨k.val - 4096, by omega⟩ k
      (by show k.val - 4096 = k.val % 4096; omega)
      (by show k.val = k.val % 4096 + 4096; have := k.isLt; omega)

end

end Cert.Spec

end
-- ==== Proof.SpecAlgDen.lean ====
/-
  The denominators. The kernel adds one tile's sum per grid point to a block that starts at zero;
  after sixteen points the block holds zero plus the sum of the sixteen tile sums (associativity of +
  only). A sum over the 8192 columns is the sum over the sixteen tiles of the sums over each tile's
  512 columns, column 512 j + q being column q of tile j. With the mask written as a choice between
  the entry and zero, the reference's row sum is the kernel's.
-/
import proofs.«107719_j5016521802072_1_alg».proof.Proof.SpecAlgWords

noncomputable section

namespace Cert.Spec

open Idealize.ShloMosaic

/-- Tile j, column q  <->  column 512 j + q. -/
def rowEquiv : Fin 16 × Fin 512 ≃ Fin 8192 where
  toFun x := row x.1 x.2
  invFun k := (⟨k.val / 512, by omega⟩, ⟨k.val % 512, Nat.mod_lt _ (by norm_num)⟩)
  left_inv x := by
    rcases x with ⟨j, q⟩
    have hj := j.isLt
    have hq := q.isLt
    apply Prod.ext
    · apply Fin.ext
      show (512 * j.val + q.val) / 512 = j.val
      omega
    · apply Fin.ext
      show (512 * j.val + q.val) % 512 = q.val
      omega
  right_inv k := by
    apply Fin.ext
    show 512 * (k.val / 512) + k.val % 512 = k.val
    omega

/-- A sum over all columns, tile by tile. -/
theorem sum_cols (g : Fin 8192 → EReal) :
    ∑ c : Fin 8192, g c = ∑ j : Fin 16, ∑ q : Fin 512, g (row j q) := by
  rw [← Equiv.sum_comp rowEquiv g, Fintype.sum_prod_type]
  rfl

/-- Every row is a row of a tile. -/
theorem row_div_mod (k : Fin 8192) :
    row ⟨k.val / 512, by omega⟩ ⟨k.val % 512, Nat.mod_lt _ (by norm_num)⟩ = k := by
  apply Fin.ext
  show 512 * (k.val / 512) + k.val % 512 = k.val
  omega

section
variable (Z : Fin 8192 → Fin 8 → EReal) (raw sqc : Fin 8192 → EReal)

/-- After n <= 16 grid points the block holds zero plus the first n tile sums. -/
theorem accDen_eq (i : Fin 16) (p : Fin 512) (n : ℕ) (hn : n ≤ 16) :
    accDen Z raw sqc i p n = w0 + ∑ j : Fin n, tile Z raw sqc i ⟨j.val, by omega⟩ p := by
  induction n with
  | zero =>
    show w0 = w0 + ∑ j : Fin 0, tile Z raw sqc i ⟨j.val, by omega⟩ p
    rw [Finset.univ_eq_empty, Finset.sum_empty, add_zero]
  | succ n ih =>
    have hn' : n < 16 := by omega
    show accDen Z raw sqc i p n + (if h : n < 16 then tile Z raw sqc i ⟨n, h⟩ p else 0) = _
    rw [dif_pos hn', ih (by omega), add_assoc, Fin.sum_univ_castSucc]
    rfl

/-- The kernel's denominator: zero plus the sum of the sixteen tile sums. -/
theorem kerDen_eq (i : Fin 16) (p : Fin 512) :
    kerDen Z raw sqc i p = w0 + ∑ j : Fin 16, tile Z raw sqc i j p := by
  unfold kerDen
  rw [accDen_eq Z raw sqc i p 16 (le_refl _)]

/-- The reference's denominator of a tile's row is the kernel's. -/
theorem refDen_row (i : Fin 16) (p : Fin 512) :
    refDen Z raw sqc (row i p) = kerDen Z raw sqc i p := by
  rw [kerDen_eq]
  unfold refDen tile
  rw [sum_cols]
  congr 1
  apply Fintype.sum_congr
  intro j
  apply Fintype.sum_congr
  intro q
  exact mask_mul (row i p) (row j q) _

/-- For every row, the kernel's denominator is the reference's. -/
theorem kerDen_eq_refDen (k : Fin 8192) :
    kerDen Z raw sqc ⟨k.val / 512, by omega⟩ ⟨k.val % 512, Nat.mod_lt _ (by norm_num)⟩
      = refDen Z raw sqc k := by
  rw [← refDen_row, row_div_mod]

end

end Cert.Spec

end
-- ==== Proof.SpecAlgebra.lean ====
/-
  The two arrangements of the loss agree on the extended reals: row by row the kernel's pair term
  and denominator are the reference's, so the two means are the same expression.
-/
import proofs.«107719_j5016521802072_1_alg».proof.Proof.SpecAlgPos
import proofs.«107719_j5016521802072_1_alg».proof.Proof.SpecAlgDen

noncomputable section

namespace Cert.Spec

open Idealize.ShloMosaic

theorem kerLoss_eq_refLoss (Z : Fin 8192 → Fin 8 → EReal) (raw sqc : Fin 8192 → EReal) :
    kerLoss Z raw sqc = refLoss Z raw sqc := by
  unfold kerLoss refLoss
  have h : ∀ k : Fin 8192,
      -(Ideal.div (kerPos Z raw sqc ⟨k.val % 4096, Nat.mod_lt _ (by norm_num)⟩) wh
        - Ideal.log (kerDen Z raw sqc ⟨k.val / 512, by omega⟩ ⟨k.val % 512, Nat.mod_lt _ (by norm_num)⟩))
      = -(Ideal.div (refPos Z raw sqc k) wh - Ideal.log (refDen Z raw sqc k)) := by
    intro k
    rw [kerPos_eq_refPos, kerDen_eq_refDen]
  rw [Fintype.sum_congr _ _ h]

end Cert.Spec

end
-- ==== Proof.lean ====
/-
  The two programs compute one loss on the extended reals.

  Both join the two argument arrays into Z (8192 rows), take the rows' squared norms and clip them; the similarity of
  two rows is 1 / (1 + arcosh x) with x = 1 + 2 max(|u|^2 + |v|^2 - 2 u.v, 0) / ((1 - sqc u)(1 - sqc v)); the loss of a row is
  minus (its pair's similarity over one half, less the logarithm of the sum over the other rows of exp(similarity over
  one half)), and the result the mean over the rows. The reference forms the 8192 x 8192 matrix, masks its diagonal by
  a product with (1 - identity) and sums each row in one piece; the kernel visits the matrix tile by tile (16 x 16 tiles
  of 512 x 512), adds each tile's row sums off the diagonal to a block of denominators kept in its staging buffer along
  a row of tiles, and picks each row's pair off the diagonal of the tile eight to the right; the second half's pairs it
  reads from the first half. The two agree because sums of extended reals may be regrouped, a product with 0 or 1 is 0 or
  the factor, and the similarity is symmetric in its two rows; no finiteness of the inputs is used.

  The frames: the reference is a host program, run operation by operation; the kernel program's frame is proved over the
  pipeline library's launch theorem for windows that share an array (the two row-block windows stage one array, held by
  halves), with the body run once per case of its two conditions. The idealization rewrote no operation.
-/
import proofs.«107719_j5016521802072_1_alg».proof.Defs
import proofs.«107719_j5016521802072_1_alg».proof.Proof.Gen.Kernel
import proofs.«107719_j5016521802072_1_alg».proof.Proof.Gen.KernelIdeal
import proofs.«107719_j5016521802072_1_alg».proof.Proof.Gen.ReferenceIdeal
import proofs.«107719_j5016521802072_1_alg».proof.Proof.Gen.Pre_finite_inputs
import proofs.«107719_j5016521802072_1_alg».proof.Proof.ReadP
import proofs.«107719_j5016521802072_1_alg».proof.Proof.RunP
import proofs.«107719_j5016521802072_1_alg».proof.Proof.KBRun
import proofs.«107719_j5016521802072_1_alg».proof.Proof.KIResult
import proofs.«107719_j5016521802072_1_alg».proof.Proof.RefIsSpec
import proofs.«107719_j5016521802072_1_alg».proof.Proof.Bridge
import proofs.«107719_j5016521802072_1_alg».proof.Proof.SpecAlgebra
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Frame.frame m ρ
theorem frame_ki : Cert.frame_KernelIdeal (hKernelIdeal := Cert.KernelIdeal.Gen.facts) (hPre_finite_inputs := Cert.Pre_finite_inputs.Gen.facts) :=
  fun m ρ _ => Cert.KernelIdeal.Frame.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The reference's result, from memories that agree on the arguments, is the kernel's: the reference's stages read to
    its arrangement of the loss, the two arrangements equal on the extended reals, and the three arrays they are stated
    over the same terms of the arguments in both programs. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => fun _ => Cert.Spec.kerLoss (Cert.KernelIdeal.Frame.Zf m c) (Cert.KernelIdeal.Frame.rawf m c) (Cert.KernelIdeal.Frame.sqcf m c),
    Cert.KernelIdeal.Frame.run_value m ρ, ?_⟩
  refine (θ_run Cert.ReferenceIdeal.defs _ _).mono (fun _ h c => ⟨(h c).1.trans ?_, (h c).2⟩)
    (Cert.ReferenceIdeal.ValueP.run (F := Ideal) m' ρ')
  funext i
  rw [Cert.ReferenceIdeal.RefSpec.ref_is_spec, (hagree c).1, (hagree c).2, ← Cert.Spec.kerLoss_eq_refLoss]
  unfold Cert.KernelIdeal.Frame.Zf Cert.KernelIdeal.Frame.rawf Cert.KernelIdeal.Frame.sqcf
  beta_reduce
  rw [Cert.Bridge.v0_eq m c, Cert.Bridge.v2_eq m c, Cert.Bridge.v3_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
